-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S4x128x128 : Shape := ⟨3, ![4, 128, 128]⟩
abbrev S128 : Shape := ⟨1, ![128]⟩
abbrev S4x128 : Shape := ⟨2, ![4, 128]⟩
abbrev S512x128 : Shape := ⟨2, ![512, 128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S512x128 : S_.BroadcastsInDim S512x128 (![] : Fin 0 → Fin S512x128.rank)
  reducesTo_S512x128_S_d0_1 : S512x128.ReducesTo [0, 1] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part4 {F : FTy → Type} [FloatOps F] (main_arg16 : FVec F S47 .f32) (main_v63 : IVec S_ 1) (main_v67 : IVec S_ 1) : IVec S_ 1 :=
  let main_v68 : IVec S_ 1 := andi main_v63 main_v67
  let main_v69 : FVec F S47 .f32 := Host.absf main_arg16
  let main_cst_26 : FVec F S_ .f32 := constant S_ .f32 0x7F800000#32
  let main_v70 : FVec F S47 .f32 := broadcastInDim S47 ![] bcast_S_S47 main_cst_26
  let main_v71 : IVec S47 1 := cmpf .olt main_v69 main_v70
  let main_c_27 : IVec S_ 1 := constantI S_ 1 1#1
  let main_v72 : IVec S_ 1 := (fun x v => Host.reduce IntOp.andi x v reducesTo_S47_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x47 .f32) (main_arg16 : FVec F S47 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x47 .f32 := Host.absf main_arg15
  let main_cst_24 : FVec F S_ .f32 := constant S_ .f32 0x7F800000#32
  let main_v65 : FVec F S128x47 .f32 := broadcastInDim S128x47 ![] bcast_S_S128x47 main_cst_24
  let main_v66 : IVec S128x47 1 := cmpf .olt main_v64 main_v65
  let main_c_25 : IVec S_ 1 := constantI S_ 1 1#1
  let main_v67 : IVec S_ 1 := (fun x v => Host.reduce IntOp.andi x v reducesTo_S128x47_S_d0_1 h_S_) main_v66 main_c_25
  fn_part4 (F := F) main_arg16 main_v63 main_v67

def fn_part2 {F : FTy → Type} [FloatOps F] (main_arg9 : FVec F S512x128 .f32) (main_arg10 : FVec F S128 .f32) (main_arg11 : FVec F S128 .f32) (main_arg12 : FVec F S128 .f32) (main_arg13 : FVec F S128 .f32) (main_arg14 : FVec F S128 .f32) (main_arg15 : FVec F S128x47 .f32) (main_arg16 : FVec F S47 .f32) (main_v33 : IVec S_ 1) : IVec S_ 1 :=
  let main_v34 : FVec F S512x128 .f32 := Host.absf main_arg9
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S4x128 .f32) (main_arg7 : FVec F S4x128 .f32) (main_arg8 : FVec F S4x128 .f32) (main_arg9 : FVec F S512x128 .f32) (main_arg10 : FVec F S128 .f32) (main_arg11 : FVec F S128 .f32) (main_arg12 : FVec F S128 .f32) (main_arg13 : FVec F S128 .f32) (main_arg14 : FVec F S128 .f32) (main_arg15 : FVec F S128x47 .f32) (main_arg16 : FVec F S47 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S800000 32) (main_arg2 : IVec S800000 32) (main_arg3 : FVec F S4x128x128 .f32) (main_arg4 : FVec F S128 .f32) (main_arg5 : FVec F S4x128 .f32) (main_arg6 : FVec F S4x128 .f32) (main_arg7 : FVec F S4x128 .f32) (main_arg8 : FVec F S4x128 .f32) (main_arg9 : FVec F S512x128 .f32) (main_arg10 : FVec F S128 .f32) (main_arg11 : FVec F S128 .f32) (main_arg12 : FVec F S128 .f32) (main_arg13 : FVec F S128 .f32) (main_arg14 : FVec F S128 .f32) (main_arg15 : FVec F S128x47 .f32) (main_arg16 : FVec F S47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S800000 : Shape := ⟨1, ![800000]⟩
abbrev S4x128x128 : Shape := ⟨3, ![4, 128, 128]⟩
abbrev S128 : Shape := ⟨1, ![128]⟩
abbrev S4x128 : Shape := ⟨2, ![4, 128]⟩
abbrev S512x128 : Shape := ⟨2, ![512, 128]⟩
abbrev S128x47 : Shape := ⟨2, ![128, 47]⟩
abbrev S47 : Shape := ⟨1, ![47]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩
abbrev S1x47 : Shape := ⟨2, ![1, 47]⟩
abbrev S50000x47 : Shape := ⟨2, ![50000, 47]⟩
abbrev S2000x47 : Shape := ⟨2, ![2000, 47]⟩

abbrev nBuf : Space → Nat
  | .hbm => 177
  | .vmem => 91
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S4x128x128, .f32⟩
  | 4 => ⟨S128, .f32⟩
  | 5 => ⟨S4x128, .f32⟩
  | 6 => ⟨S4x128, .f32⟩
  | 7 => ⟨S4x128, .f32⟩
  | 8 => ⟨S4x128, .f32⟩
  | 9 => ⟨S512x128, .f32⟩
  | 10 => ⟨S128, .f32⟩
  | 11 => ⟨S128, .f32⟩
  | 12 => ⟨S128, .f32⟩
  | 13 => ⟨S128, .f32⟩
  | 14 => ⟨S128, .f32⟩
  | 15 => ⟨S128x47, .f32⟩
  | 16 => ⟨S47, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S_, .f32⟩
  | 33 => ⟨S50000, .f32⟩
  | 34 => ⟨S50000, .f32⟩
  | 35 => ⟨S50000, .f32⟩
  | 36 => ⟨S50000x1, .f32⟩
  | 37 => ⟨S50000, .f32⟩
  | 38 => ⟨S50000x1, .f32⟩
  | 39 => ⟨S_, .f32⟩
  | 40 => ⟨S128, .f32⟩
  | 41 => ⟨S1x128x128, .f32⟩
  | 42 => ⟨S128x128, .f32⟩
  | 43 => ⟨S50000x128, .bf16⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .bf16⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S128, .f32⟩
  | 66 => ⟨S1x128x128, .f32⟩
  | 67 => ⟨S128x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S50000x128, .bf16⟩
  | 74 => ⟨S50000x128, .bf16⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .bf16⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128x128, .f32⟩
  | 98 => ⟨S128x128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S50000x128, .bf16⟩
  | 105 => ⟨S50000x128, .bf16⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .bf16⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S128, .f32⟩
  | 126 => ⟨S1x128, .f32⟩
  | 127 => ⟨S128, .f32⟩
  | _ => ⟨S50000x128, .f32⟩

abbrev hbmTy0_1 (i : Nat) : BufTy := match i % 128 with
  | 0 => ⟨S1x128x128, .f32⟩
  | 1 => ⟨S128x128, .f32⟩
  | 2 => ⟨S1x128, .f32⟩
  | 3 => ⟨S1x128, .f32⟩
  | 4 => ⟨S1x128, .f32⟩
  | 5 => ⟨S1x128, .f32⟩
  | 6 => ⟨S1x128, .f32⟩
  | 7 => ⟨S50000x128, .bf16⟩
  | 8 => ⟨S50000x128, .bf16⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .bf16⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S128, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S50000x128, .bf16⟩
  | 37 => ⟨S128x128, .f32⟩
  | 38 => ⟨S128x128, .f32⟩
  | 39 => ⟨S128x128, .f32⟩
  | 40 => ⟨S128x128, .f32⟩
  | 41 => ⟨S1x128, .f32⟩
  | 42 => ⟨S1x128, .f32⟩
  | 43 => ⟨S1x128, .f32⟩
  | 44 => ⟨S1x128, .f32⟩
  | 45 => ⟨S1x128, .f32⟩
  | 46 => ⟨S50000x128, .f32⟩
  | 47 => ⟨S1x47, .f32⟩
  | 48 => ⟨S50000x47, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S2000x128, .bf16⟩
  | .local _ .vmem, ⟨20, _⟩ => ⟨S2000x128, .bf16⟩
  | .local _ .vmem, ⟨21, _⟩ => ⟨S2000x128, .bf16⟩
  | .local _ .vmem, ⟨22, _⟩ => ⟨S2000x128, .bf16⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S2000x1, .f32⟩
  | .local _ .vmem, ⟨28, _⟩ => ⟨S2000x1, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S128x128, .f32⟩
  | .local _ .vmem, ⟨35, _⟩ => ⟨S2000x128, .bf16⟩
  | .local _ .vmem, ⟨36, _⟩ => ⟨S2000x128, .bf16⟩
  | .local _ .vmem, ⟨37, _⟩ => ⟨S2000x128, .bf16⟩
  | .local _ .vmem, ⟨38, _⟩ => ⟨S2000x128, .bf16⟩
  | .local _ .vmem, ⟨39, _⟩ => ⟨S2000x128, .f32⟩
  | .local _ .vmem, ⟨40, _⟩ => ⟨S2000x128, .f32⟩
  | .local _ .vmem, ⟨41, _⟩ => ⟨S2000x1, .f32⟩
  | .local _ .vmem, ⟨42, _⟩ => ⟨S2000x1, .f32⟩
  | .local _ .vmem, ⟨43, _⟩ => ⟨S2000x1, .f32⟩
  | .local _ .vmem, ⟨44, _⟩ => ⟨S2000x1, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S128x128, .f32⟩
  | .local _ .vmem, ⟨51, _⟩ => ⟨S2000x128, .bf16⟩
  | .local _ .vmem, ⟨52, _⟩ => ⟨S2000x128, .bf16⟩
  | .local _ .vmem, ⟨53, _⟩ => ⟨S2000x128, .bf16⟩
  | .local _ .vmem, ⟨54, _⟩ => ⟨S2000x128, .bf16⟩
  | .local _ .vmem, ⟨55, _⟩ => ⟨S2000x128, .f32⟩
  | .local _ .vmem, ⟨56, _⟩ => ⟨S2000x128, .f32⟩
  | .local _ .vmem, ⟨57, _⟩ => ⟨S2000x1, .f32⟩
  | .local _ .vmem, ⟨58, _⟩ => ⟨S2000x1, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S2000x128, .bf16⟩
  | .local _ .vmem, ⟨65, _⟩ => ⟨S2000x128, .bf16⟩
  | .local _ .vmem, ⟨66, _⟩ => ⟨S2000x128, .bf16⟩
  | .local _ .vmem, ⟨67, _⟩ => ⟨S2000x128, .bf16⟩
  | .local _ .vmem, ⟨68, _⟩ => ⟨S2000x128, .bf16⟩
  | .local _ .vmem, ⟨69, _⟩ => ⟨S2000x128, .bf16⟩
  | .local _ .vmem, ⟨70, _⟩ => ⟨S2000x128, .bf16⟩
  | .local _ .vmem, ⟨71, _⟩ => ⟨S2000x128, .bf16⟩
  | .local _ .vmem, ⟨72, _⟩ => ⟨S2000x128, .bf16⟩
  | .local _ .vmem, ⟨73, _⟩ => ⟨S2000x128, .bf16⟩
  | .local _ .vmem, ⟨74, _⟩ => ⟨S128x128, .f32⟩
  | .local _ .vmem, ⟨75, _⟩ => ⟨S128x128, .f32⟩
  | .local _ .vmem, ⟨76, _⟩ => ⟨S128x128, .f32⟩
  | .local _ .vmem, ⟨77, _⟩ => ⟨S128x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S1x128, .f32⟩
  | .local _ .vmem, ⟨83, _⟩ => ⟨S2000x128, .f32⟩
  | .local _ .vmem, ⟨84, _⟩ => ⟨S2000x128, .f32⟩
  | .local _ .vmem, ⟨85, _⟩ => ⟨S2000x128, .f32⟩
  | .local _ .vmem, ⟨86, _⟩ => ⟨S2000x128, .f32⟩
  | .local _ .vmem, ⟨87, _⟩ => ⟨S128x47, .f32⟩
  | .local _ .vmem, ⟨88, _⟩ => ⟨S1x47, .f32⟩
  | .local _ .vmem, ⟨89, _⟩ => ⟨S2000x47, .f32⟩
  | .local _ .vmem, ⟨90, _⟩ => ⟨S2000x47, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v4 : Ref sig .tc := ⟨.hbm, 26, rfl⟩
abbrev main_cst_2 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_4 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_c_5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_6 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43_0 : Ref sig .tc := ⟨.hbm, 73, rfl⟩
abbrev main_v43_1 : Ref sig .tc := ⟨.hbm, 74, rfl⟩
abbrev main_c_7 : Ref sig .tc := ⟨.hbm, 75, rfl⟩
abbrev main_v44 : Ref sig .tc := ⟨.hbm, 76, rfl⟩
abbrev main_v45 : Ref sig .tc := ⟨.hbm, 77, rfl⟩
abbrev main_c_8 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70_0 : Ref sig .tc := ⟨.hbm, 104, rfl⟩
abbrev main_v70_1 : Ref sig .tc := ⟨.hbm, 105, rfl⟩
abbrev main_c_10 : Ref sig .tc := ⟨.hbm, 106, rfl⟩
abbrev main_v71 : Ref sig .tc := ⟨.hbm, 107, rfl⟩
abbrev main_v72 : Ref sig .tc := ⟨.hbm, 108, rfl⟩
abbrev main_c_11 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_12 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97_0 : Ref sig .tc := ⟨.hbm, 135, rfl⟩
abbrev main_v97_1 : Ref sig .tc := ⟨.hbm, 136, rfl⟩
abbrev main_c_13 : Ref sig .tc := ⟨.hbm, 137, rfl⟩
abbrev main_v98 : Ref sig .tc := ⟨.hbm, 138, rfl⟩
abbrev main_v99 : Ref sig .tc := ⟨.hbm, 139, rfl⟩
abbrev main_c_14 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_15 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg9_1 : Ref sig .tc := ⟨.vmem, 36, rfl⟩
abbrev cc2_stg10_0 : Ref sig .tc := ⟨.vmem, 37, rfl⟩
abbrev cc2_stg10_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg9_0 : Ref sig .tc := ⟨.vmem, 51, rfl⟩
abbrev cc3_stg9_1 : Ref sig .tc := ⟨.vmem, 52, rfl⟩
abbrev cc3_stg10_0 : Ref sig .tc := ⟨.vmem, 53, rfl⟩
abbrev cc3_stg10_1 : Ref sig .tc := ⟨.vmem, 54, rfl⟩
abbrev cc4_stg0_0 : Ref sig .tc := ⟨.vmem, 55, rfl⟩
abbrev cc4_stg0_1 : Ref sig .tc := ⟨.vmem, 56, rfl⟩
abbrev cc4_stg1_0 : Ref sig .tc := ⟨.vmem, 57, rfl⟩
abbrev cc4_stg1_1 : Ref sig .tc := ⟨.vmem, 58, rfl⟩
abbrev cc4_stg2_0 : Ref sig .tc := ⟨.vmem, 59, rfl⟩
abbrev cc4_stg3_0 : Ref sig .tc := ⟨.vmem, 60, rfl⟩
abbrev cc4_stg4_0 : Ref sig .tc := ⟨.vmem, 61, rfl⟩
abbrev cc4_stg5_0 : Ref sig .tc := ⟨.vmem, 62, rfl⟩
abbrev cc4_stg6_0 : Ref sig .tc := ⟨.vmem, 63, rfl⟩
abbrev cc4_stg7_0 : Ref sig .tc := ⟨.vmem, 64, rfl⟩
abbrev cc4_stg7_1 : Ref sig .tc := ⟨.vmem, 65, rfl⟩
abbrev cc5_stg0_0 : Ref sig .tc := ⟨.vmem, 66, rfl⟩
abbrev cc5_stg0_1 : Ref sig .tc := ⟨.vmem, 67, rfl⟩
abbrev cc5_stg1_0 : Ref sig .tc := ⟨.vmem, 68, rfl⟩
abbrev cc5_stg1_1 : Ref sig .tc := ⟨.vmem, 69, rfl⟩
abbrev cc5_stg2_0 : Ref sig .tc := ⟨.vmem, 70, rfl⟩
abbrev cc5_stg2_1 : Ref sig .tc := ⟨.vmem, 71, rfl⟩
abbrev cc5_stg3_0 : Ref sig .tc := ⟨.vmem, 72, rfl⟩
abbrev cc5_stg3_1 : Ref sig .tc := ⟨.vmem, 73, rfl⟩
abbrev cc5_stg4_0 : Ref sig .tc := ⟨.vmem, 74, rfl⟩
abbrev cc5_stg5_0 : Ref sig .tc := ⟨.vmem, 75, rfl⟩
abbrev cc5_stg6_0 : Ref sig .tc := ⟨.vmem, 76, rfl⟩
abbrev cc5_stg7_0 : Ref sig .tc := ⟨.vmem, 77, rfl⟩
abbrev cc5_stg8_0 : Ref sig .tc := ⟨.vmem, 78, rfl⟩
abbrev cc5_stg9_0 : Ref sig .tc := ⟨.vmem, 79, rfl⟩
abbrev cc5_stg10_0 : Ref sig .tc := ⟨.vmem, 80, rfl⟩
abbrev cc5_stg11_0 : Ref sig .tc := ⟨.vmem, 81, rfl⟩
abbrev cc5_stg12_0 : Ref sig .tc := ⟨.vmem, 82, rfl⟩
abbrev cc5_stg13_0 : Ref sig .tc := ⟨.vmem, 83, rfl⟩
abbrev cc5_stg13_1 : Ref sig .tc := ⟨.vmem, 84, rfl⟩
abbrev cc6_stg0_0 : Ref sig .tc := ⟨.vmem, 85, rfl⟩
abbrev cc6_stg0_1 : Ref sig .tc := ⟨.vmem, 86, rfl⟩
abbrev cc6_stg1_0 : Ref sig .tc := ⟨.vmem, 87, rfl⟩
abbrev cc6_stg2_0 : Ref sig .tc := ⟨.vmem, 88, rfl⟩
abbrev cc6_stg3_0 : Ref sig .tc := ⟨.vmem, 89, rfl⟩
abbrev cc6_stg3_1 : Ref sig .tc := ⟨.vmem, 90, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc1_sem10_0 : DmaSem sig := 21
abbrev cc1_sem10_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem9_1 : DmaSem sig := 36
abbrev cc2_sem10_0 : DmaSem sig := 37
abbrev cc2_sem10_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem9_0 : DmaSem sig := 51
abbrev cc3_sem9_1 : DmaSem sig := 52
abbrev cc3_sem10_0 : DmaSem sig := 53
abbrev cc3_sem10_1 : DmaSem sig := 54
abbrev cc4_sem0_0 : DmaSem sig := 55
abbrev cc4_sem0_1 : DmaSem sig := 56
abbrev cc4_sem1_0 : DmaSem sig := 57
abbrev cc4_sem1_1 : DmaSem sig := 58
abbrev cc4_sem2_0 : DmaSem sig := 59
abbrev cc4_sem3_0 : DmaSem sig := 60
abbrev cc4_sem4_0 : DmaSem sig := 61
abbrev cc4_sem5_0 : DmaSem sig := 62
abbrev cc4_sem6_0 : DmaSem sig := 63
abbrev cc4_sem7_0 : DmaSem sig := 64
abbrev cc4_sem7_1 : DmaSem sig := 65
abbrev cc5_sem0_0 : DmaSem sig := 66
abbrev cc5_sem0_1 : DmaSem sig := 67
abbrev cc5_sem1_0 : DmaSem sig := 68
abbrev cc5_sem1_1 : DmaSem sig := 69
abbrev cc5_sem2_0 : DmaSem sig := 70
abbrev cc5_sem2_1 : DmaSem sig := 71
abbrev cc5_sem3_0 : DmaSem sig := 72
abbrev cc5_sem3_1 : DmaSem sig := 73
abbrev cc5_sem4_0 : DmaSem sig := 74
abbrev cc5_sem5_0 : DmaSem sig := 75
abbrev cc5_sem6_0 : DmaSem sig := 76
abbrev cc5_sem7_0 : DmaSem sig := 77
abbrev cc5_sem8_0 : DmaSem sig := 78
abbrev cc5_sem9_0 : DmaSem sig := 79
abbrev cc5_sem10_0 : DmaSem sig := 80
abbrev cc5_sem11_0 : DmaSem sig := 81
abbrev cc5_sem12_0 : DmaSem sig := 82
abbrev cc5_sem13_0 : DmaSem sig := 83
abbrev cc5_sem13_1 : DmaSem sig := 84
abbrev cc6_sem0_0 : DmaSem sig := 85
abbrev cc6_sem0_1 : DmaSem sig := 86
abbrev cc6_sem1_0 : DmaSem sig := 87
abbrev cc6_sem2_0 : DmaSem sig := 88
abbrev cc6_sem3_0 : DmaSem sig := 89
abbrev cc6_sem3_1 : DmaSem sig := 90

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x128 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x128 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S2000x128 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 2 → Memref sig .tc .vmem S2000x128 .f32 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x47 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x47 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x47 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S128 : S_.BroadcastsInDim S128 (![] : Fin 0 → Fin S128.rank)
  slices_S4x128x128_S1x128x128_0_0_0 : S4x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  slices_S512x128_S128x128_0_0 : S512x128.Slices ![0, 0] S128x128
  slices_S512x128_S128x128_128_0 : S512x128.Slices ![128, 0] S128x128
  slices_S512x128_S128x128_256_0 : S512x128.Slices ![256, 0] S128x128
  slices_S512x128_S128x128_384_0 : S512x128.Slices ![384, 0] S128x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S2000x47 : S1x47.Broadcasts S2000x47
  inb_S2000x47_S2000x47_0_0 : ∀ a, (![0, 0] : Fin 2 → Nat) a + S2000x47.size a ≤ S2000x47.size a
  h_S2000x47 : 0 < S2000x47.numel
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x47_S2000x47_1_0_0_1_n_n_wf : DotDims.WF S2000x128 S128x47 S2000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .bf16 = 32 ∨ (Rect.block (s := S50000x128) S2000x128.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .bf16 = 32 ∨ (Rect.block (s := S50000x128) S2000x128.size (cc1_transform_10 i) (hinb1_10 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S50000x128.size a
  hwx2_9 : ∀ i : grid2.Coords, EltTy.bits .bf16 = 32 ∨ (Rect.block (s := S50000x128) S2000x128.size (cc2_transform_9 i) (hinb2_9 i)).WholeWords (EltTy.packing .bf16)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S50000x128.size a
  hwx2_10 : ∀ i : grid2.Coords, EltTy.bits .bf16 = 32 ∨ (Rect.block (s := S50000x128) S2000x128.size (cc2_transform_10 i) (hinb2_10 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S50000x128.size a
  hwx3_9 : ∀ i : grid3.Coords, EltTy.bits .bf16 = 32 ∨ (Rect.block (s := S50000x128) S2000x128.size (cc3_transform_9 i) (hinb3_9 i)).WholeWords (EltTy.packing .bf16)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x128.size a ≤ S50000x128.size a
  hwx3_10 : ∀ i : grid3.Coords, EltTy.bits .bf16 = 32 ∨ (Rect.block (s := S50000x128) S2000x128.size (cc3_transform_10 i) (hinb3_10 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .bf16 = 32 ∨ (Rect.block (s := S50000x128) S2000x128.size (cc4_transform_7 i) (hinb4_7 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .bf16 = 32 ∨ (Rect.block (s := S50000x128) S2000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .bf16 = 32 ∨ (Rect.block (s := S50000x128) S2000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .bf16 = 32 ∨ (Rect.block (s := S50000x128) S2000x128.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .bf16 = 32 ∨ (Rect.block (s := S50000x128) S2000x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .f32 = 32 ∨ (Rect.block (s := S128x128) S128x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .f32 = 32 ∨ (Rect.block (s := S128x128) S128x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x128.size a ≤ S1x128.size a
  hwx5_10 : ∀ i : grid5.Coords, EltTy.bits .f32 = 32 ∨ (Rect.block (s := S1x128) S1x128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x128.size a ≤ S1x128.size a
  hwx5_11 : ∀ i : grid5.Coords, EltTy.bits .f32 = 32 ∨ (Rect.block (s := S1x128) S1x128.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x128.size a ≤ S1x128.size a
  hwx5_12 : ∀ i : grid5.Coords, EltTy.bits .f32 = 32 ∨ (Rect.block (s := S1x128) S1x128.size (cc5_transform_12 i) (hinb5_12 i)).WholeWords (EltTy.packing .f32)
  hstage5_13 : ∀ j, (stage5_13 j).IsWhole
  nbuf5_13 : grid5.bufCount reads5_13 false = 2
  hreads5_13 : ∀ i i' : grid5.Coords, (∀ a, reads5_13 a = true → i a = i' a) → cc5_transform_13 i = cc5_transform_13 i'
  hinb5_13 : ∀ (i : grid5.Coords) a, (cc5_transform_13 i a + 1) * S2000x128.size a ≤ S50000x128.size a
  hwx5_13 : ∀ i : grid5.Coords, EltTy.bits .f32 = 32 ∨ (Rect.block (s := S50000x128) S2000x128.size (cc5_transform_13 i) (hinb5_13 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x47.size a ≤ S128x47.size a
  hwx6_1 : ∀ i : grid6.Coords, EltTy.bits .f32 = 32 ∨ (Rect.block (s := S128x47) S128x47.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x47.size a ≤ S1x47.size a
  hwx6_2 : ∀ i : grid6.Coords, EltTy.bits .f32 = 32 ∨ (Rect.block (s := S1x47) S1x47.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x47.size a ≤ S50000x47.size a
  hwx6_3 : ∀ i : grid6.Coords, EltTy.bits .f32 = 32 ∨ (Rect.block (s := S50000x47) S2000x47.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x47_S2000x47_1_0_0_1_n_n : DotDims S2000x128 S128x47 S2000x47 where
  lhsContracting := [1]
  rhsContracting := [0]
  lhsNonContracting := [0]
  rhsNonContracting := [1]
  lhsBatch := []
  rhsBatch := []
  wf := dot_S2000x128_S128x47_S2000x47_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v43_1) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v54) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v69) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v64) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v70_0) S2000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v70_1) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v81) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v92) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v96) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v91) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v97_0) S2000x128.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v97_1) S2000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v108) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v117) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v118) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v119) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v120) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v121) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v122) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v43_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70_0) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v97_0) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v122) S2000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v123) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v124) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v125) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v126) S128x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v127) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v128) S1x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v129) S1x128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v130) S1x128.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v131) S1x128.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v132) S2000x128.size cc5_transform_13 reads5_13 true false 2 stage5_13 sem5_13
    hrank5 hreads5_13 hinb5_13 nbuf5_13 (Memref.isWhole_whole _) hwx5_13 hstage5_13

abbrev win5 : Fin 14 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | ⟨_ + 14, h⟩ => absurd h (Nat.not_lt.2 (Nat.le_add_left _ _))
abbrev spec5 : Fin 14 → Pipeline.WinSpec sig grid5.rank := fun w => (win5 w).toWinSpec

abbrev win6_0 : Pipeline.Window sig grid6 :=
  Pipeline.Window.ofSpec (Memref.whole main_v132) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S128x47.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v133) S1x47.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v134) S2000x47.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S800000 : Shape := ⟨1, ![800000]⟩
abbrev S4x128x128 : Shape := ⟨3, ![4, 128, 128]⟩
abbrev S128 : Shape := ⟨1, ![128]⟩
abbrev S4x128 : Shape := ⟨2, ![4, 128]⟩
abbrev S512x128 : Shape := ⟨2, ![512, 128]⟩
abbrev S128x47 : Shape := ⟨2, ![128, 47]⟩
abbrev S47 : Shape := ⟨1, ![47]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S800000x128 : Shape := ⟨2, ![800000, 128]⟩
abbrev S1x128 : Shape := ⟨2, ![1, 128]⟩
abbrev S50000x512 : Shape := ⟨2, ![50000, 512]⟩
abbrev S50000x47 : Shape := ⟨2, ![50000, 47]⟩
abbrev S1x47 : Shape := ⟨2, ![1, 47]⟩

abbrev nBuf : Space → Nat
  | .hbm => 248
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S4x128x128, .f32⟩
  | 4 => ⟨S128, .f32⟩
  | 5 => ⟨S4x128, .f32⟩
  | 6 => ⟨S4x128, .f32⟩
  | 7 => ⟨S4x128, .f32⟩
  | 8 => ⟨S4x128, .f32⟩
  | 9 => ⟨S512x128, .f32⟩
  | 10 => ⟨S128, .f32⟩
  | 11 => ⟨S128, .f32⟩
  | 12 => ⟨S128, .f32⟩
  | 13 => ⟨S128, .f32⟩
  | 14 => ⟨S128, .f32⟩
  | 15 => ⟨S128x47, .f32⟩
  | 16 => ⟨S47, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S_, .f32⟩
  | 33 => ⟨S50000, .f32⟩
  | 34 => ⟨S50000, .f32⟩
  | 35 => ⟨S50000, .f32⟩
  | 36 => ⟨S50000x1, .f32⟩
  | 37 => ⟨S50000, .f32⟩
  | 38 => ⟨S50000x1, .f32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000x128, .f32⟩
  | 58 => ⟨S50000x128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S128, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S50000x128, .f32⟩
  | 103 => ⟨S50000x128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S_, .f32⟩
  | 116 => ⟨S128, .f32⟩
  | 117 => ⟨S128, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S1x128x128, .f32⟩
  | 4 => ⟨S128x128, .f32⟩
  | 5 => ⟨S50000x128, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x128, .f32⟩
  | 15 => ⟨S_, .f32⟩
  | 16 => ⟨S50000x128, .f32⟩
  | 17 => ⟨S800000x1, .i32⟩
  | 18 => ⟨S50000x128, .f32⟩
  | 19 => ⟨S50000x128, .f32⟩
  | 20 => ⟨S50000x128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S50000x128, .f32⟩
  | 31 => ⟨S50000x128, .f32⟩
  | 32 => ⟨S_, .f32⟩
  | 33 => ⟨S128, .f32⟩
  | 34 => ⟨S128, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S50000x128, .f32⟩
  | 48 => ⟨S1x128x128, .f32⟩
  | 49 => ⟨S128x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S128, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x512, .f32⟩
  | 95 => ⟨S50000x128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S128, .f32⟩
  | 104 => ⟨S128, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x47, .f32⟩
  | 117 => ⟨S1x47, .f32⟩
  | 118 => ⟨S50000x47, .f32⟩
  | 119 => ⟨S50000x47, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v4 : Ref sig .tc := ⟨.hbm, 26, rfl⟩
abbrev main_cst_2 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call2_cst : Ref sig .tc := ⟨.hbm, 81, rfl⟩
abbrev main_call2_v0 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_7 : Ref sig .tc := ⟨.hbm, 89, rfl⟩
abbrev main_v57 : Ref sig .tc := ⟨.hbm, 90, rfl⟩
abbrev main_v58 : Ref sig .tc := ⟨.hbm, 91, rfl⟩
abbrev main_c_8 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_9 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_10 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_c_11 : Ref sig .tc := ⟨.hbm, 134, rfl⟩
abbrev main_v96 : Ref sig .tc := ⟨.hbm, 135, rfl⟩
abbrev main_v97 : Ref sig .tc := ⟨.hbm, 136, rfl⟩
abbrev main_c_12 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_13 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_14 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_call4_cst : Ref sig .tc := ⟨.hbm, 171, rfl⟩
abbrev main_call4_v0 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_15 : Ref sig .tc := ⟨.hbm, 179, rfl⟩
abbrev main_v135 : Ref sig .tc := ⟨.hbm, 180, rfl⟩
abbrev main_v136 : Ref sig .tc := ⟨.hbm, 181, rfl⟩
abbrev main_c_16 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_17 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_cst_18 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_call5_cst : Ref sig .tc := ⟨.hbm, 219, rfl⟩
abbrev main_call5_v0 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_19 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_call6_cst : Ref sig .tc := ⟨.hbm, 241, rfl⟩
abbrev main_call6_v0 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S50000x128_S50000x128_S50000x128_S50000x128_S50000x512_d1 : Shape.Concatenates [S50000x128, S50000x128, S50000x128, S50000x128] S50000x512 1
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x512_S512x128_S50000x128_1_0_0_1_n_n_wf : DotDims.WF S50000x512 S512x128 S50000x128 [1] [0] [0] [1] [] []
  dot_S50000x128_S128x47_S50000x47_1_0_0_1_n_n_wf : DotDims.WF S50000x128 S128x47 S50000x47 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.KernelRun.lean ====
/-
  The idealized kernel's run with its result named: the program is eighteen segments, host stretches and the seven
  pallas regions in turn; every weakly fair execution runs them all, nothing faulting, and ends with every buffer
  that outlives a region at the last segment boundary's contents. Read at the result buffer and at the argument
  arrays: the result is the last boundary's contents there, the arguments are as launched.
-/
import proofs.«159722_j12695923327568_2_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the result buffer at the
    last boundary's contents and the argument arrays as launched. -/
theorem run_named : θ_run defs (onTc (τ := τ) (main (F := F))) ⟨m, fun _ => 0, ρ⟩ (fun r => ∀ c : Dev nD,
      r.2.mem ((c.tc : Thread nD τ).loc main_v134) = W18 m ρ c (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v134 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c)⟩)

end Cert.KernelRun

end
-- ==== Proof.Net.lean ====
/-
  The network both programs compute, written once over the extended reals, index by index.

  A graph convolution layer takes node features h (one row per node), scales each row by the node's
  source-degree factor, multiplies by a 128 x 128 weight matrix (`pre`), sums the transformed rows of the
  in-neighbours (an aggregation `agg`, a parameter here: both programs spell it as the same gather followed by
  the same scatter-add), scales each row by the node's destination-degree factor, adds a bias row,
  applies batch normalisation in evaluation mode, (x - mean) * (gamma * rsqrt (var + eps)) + beta, and the rectifier
  (`post`). Four such layers are stacked; the classifier multiplies the four layers' outputs, side by side, by a
  512 x 128 matrix, which is the sum of four 128 x 128 products (`cls0`), normalises and rectifies, and a last
  linear map gives 47 columns (`cls1`).

  Every function below reads row r of its result from row r of its row-indexed operands only, and is stated for
  any number of rows, so the same definition describes one block of rows and the whole array.
-/
import Idealize.ShloMosaic.PureOps.Ideal
import Idealize.ShloMosaic.PureOps.Ideal.Laws
import Idealize.ShloMosaic.Lib.ValueIdx

noncomputable section

open scoped BigOperators

namespace Cert.Net

open Idealize.ShloMosaic Idealize.ShloMosaic.ValueIdx

/-- A matrix of extended reals with `m` rows and `n` columns. -/
abbrev Mat (m n : Nat) := (⟨2, ![m, n]⟩ : Shape).Idx → EReal

/-- The batch-normalisation epsilon, kept as its binary word (the same word in both programs). -/
def eps : EReal := Ideal.ofBits .f32 0x3727C5AC#32

/-- The zero word. -/
def zero : EReal := Ideal.ofBits .f32 0x00000000#32

theorem zero_eq : zero = 0 := Ideal.ofBits_zero_f32

/-- Feature transform: row r of `h` scaled by `ns r`, times the weight matrix. -/
def pre {R : Nat} (h : Mat R 128) (ns : Mat R 1) (w : Mat 128 128) : Mat R 128 :=
  fun i => ∑ k : Fin 128, (h (ix2 (i 0) k) * ns (ix2 (i 0) 0)) * w (ix2 k (i 1))

/-- After aggregation: row r of `a` scaled by `nd r`, plus the bias row, batch-normalised, rectified. -/
def post {R : Nat} (a : Mat R 128) (nd : Mat R 1) (b g be mu va : Mat 1 128) : Mat R 128 :=
  fun i => max ((((a (ix2 (i 0) (i 1)) * nd (ix2 (i 0) 0) + b (ix2 0 (i 1))) - mu (ix2 0 (i 1)))
    * (g (ix2 0 (i 1)) * Ideal.rsqrt (va (ix2 0 (i 1)) + eps))) + be (ix2 0 (i 1))) zero

/-- One layer: transform, aggregate, finish. -/
def layer (agg : Mat 50000 128 → Mat 50000 128) (ns nd : Mat 50000 1) (h : Mat 50000 128) (w : Mat 128 128)
    (b g be mu va : Mat 1 128) : Mat 50000 128 :=
  post (agg (pre h ns w)) nd b g be mu va

/-- First classifier layer: the four hidden layers times the four row-slabs of the weight matrix, summed left to
    right, plus bias, batch-normalised, rectified. -/
def cls0 {R : Nat} (h0 h1 h2 h3 : Mat R 128) (w0 w1 w2 w3 : Mat 128 128) (b g be mu va : Mat 1 128) : Mat R 128 :=
  fun i => max ((((((((∑ k : Fin 128, h0 (ix2 (i 0) k) * w0 (ix2 k (i 1))) + (∑ k : Fin 128, h1 (ix2 (i 0) k) * w1 (ix2 k (i 1))))
      + (∑ k : Fin 128, h2 (ix2 (i 0) k) * w2 (ix2 k (i 1)))) + (∑ k : Fin 128, h3 (ix2 (i 0) k) * w3 (ix2 k (i 1))))
      + b (ix2 0 (i 1))) - mu (ix2 0 (i 1)))
    * (g (ix2 0 (i 1)) * Ideal.rsqrt (va (ix2 0 (i 1)) + eps))) + be (ix2 0 (i 1))) zero

/-- Second classifier layer: a linear map to 47 columns. -/
def cls1 {R : Nat} (x : Mat R 128) (w : Mat 128 47) (b : Mat 1 47) : Mat R 47 :=
  fun i => (∑ k : Fin 128, x (ix2 (i 0) k) * w (ix2 k (i 1))) + b (ix2 0 (i 1))

/-! ## The operands, cut out of the argument arrays -/

/-- Row `j` of a 4 x 128 table, as a 1 x 128 row. -/
def rowOf (j : Fin 4) (t : Mat 4 128) : Mat 1 128 := fun i => t (ix2 j (i 1))

/-- A vector of 128 entries, as a 1 x 128 row. -/
def vecRow (v : (⟨1, ![128]⟩ : Shape).Idx → EReal) : Mat 1 128 := fun i => v (ix1 (i 1))

/-- A vector of 47 entries, as a 1 x 47 row. -/
def vecRow47 (v : (⟨1, ![47]⟩ : Shape).Idx → EReal) : Mat 1 47 := fun i => v (ix1 (i 1))

/-- The all-zero bias row. -/
def zeroRow : Mat 1 128 := fun _ => zero

/-- Matrix `j` of a stack of four 128 x 128 matrices. -/
def slab (j : Fin 4) (w : (⟨3, ![4, 128, 128]⟩ : Shape).Idx → EReal) : Mat 128 128 := fun i => w (ix3 j (i 0) (i 1))

/-- Rows 128 j .. 128 j + 127 of a 512 x 128 matrix. -/
def rows128 (j : Fin 4) (w : Mat 512 128) : Mat 128 128 :=
  fun i => w (ix2 ⟨128 * j.val + (i 0).val, by have := idx2_lt0 i; have := j.isLt; omega⟩ (i 1))

/-! ## The whole network -/

section
variable (agg : Mat 50000 128 → Mat 50000 128) (ns nd : Mat 50000 1) (feat : Mat 50000 128)
  (encW : (⟨3, ![4, 128, 128]⟩ : Shape).Idx → EReal) (encB : (⟨1, ![128]⟩ : Shape).Idx → EReal) (bnG bnB bnM bnV : Mat 4 128)

/-- The first hidden layer (no bias). -/
def hid0 : Mat 50000 128 := layer agg ns nd feat (slab 0 encW) zeroRow (rowOf 0 bnG) (rowOf 0 bnB) (rowOf 0 bnM) (rowOf 0 bnV)
/-- The second hidden layer (no bias). -/
def hid1 : Mat 50000 128 :=
  layer agg ns nd (hid0 agg ns nd feat encW bnG bnB bnM bnV) (slab 1 encW) zeroRow (rowOf 1 bnG) (rowOf 1 bnB) (rowOf 1 bnM) (rowOf 1 bnV)
/-- The third hidden layer (no bias). -/
def hid2 : Mat 50000 128 :=
  layer agg ns nd (hid1 agg ns nd feat encW bnG bnB bnM bnV) (slab 2 encW) zeroRow (rowOf 2 bnG) (rowOf 2 bnB) (rowOf 2 bnM) (rowOf 2 bnV)
/-- The fourth hidden layer (the only one with a bias). -/
def hid3 : Mat 50000 128 :=
  layer agg ns nd (hid2 agg ns nd feat encW bnG bnB bnM bnV) (slab 3 encW) (vecRow encB) (rowOf 3 bnG) (rowOf 3 bnB) (rowOf 3 bnM) (rowOf 3 bnV)

variable (clsW0 : Mat 512 128) (cb cg cbe cmu cva : (⟨1, ![128]⟩ : Shape).Idx → EReal) (clsW1 : Mat 128 47)
  (cb1 : (⟨1, ![47]⟩ : Shape).Idx → EReal)

/-- The network's result. -/
def out : Mat 50000 47 :=
  cls1 (cls0 (hid0 agg ns nd feat encW bnG bnB bnM bnV) (hid1 agg ns nd feat encW bnG bnB bnM bnV)
      (hid2 agg ns nd feat encW bnG bnB bnM bnV) (hid3 agg ns nd feat encW encB bnG bnB bnM bnV)
      (rows128 0 clsW0) (rows128 1 clsW0) (rows128 2 clsW0) (rows128 3 clsW0)
      (vecRow cb) (vecRow cg) (vecRow cbe) (vecRow cmu) (vecRow cva))
    clsW1 (vecRow47 cb1)
end

end Cert.Net

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.Bodies.lean ====
/-
  The seven kernel bodies as functions of their input blocks.

  Each region's body stores one whole block per output window; the stored value is an arithmetic term over the
  input blocks. Read index by index at the exact reals (every format change is the identity there), each such term is
  one of the network's functions: the feature transform (row scaling, then a 128 x 128 product), the layer's finish
  (row scaling, bias, batch normalisation, rectifier), the finish followed by the next layer's transform, the first
  classifier layer (four products summed, bias, normalisation, rectifier) and the last linear map.
-/
import proofs.«159722_j12695923327568_2_alg».proof.Proof.Gen.KernelIdeal.Frame
import proofs.«159722_j12695923327568_2_alg».proof.Proof.Net
import proofs.«159722_j12695923327568_2_alg».proof.Proof.LibPlainDot
import Idealize.ShloMosaic.Lib.ValueLayout
import Idealize.ShloMosaic.Lib.Pipeline.Value

set_option maxRecDepth 16384

noncomputable section

open scoped BigOperators

namespace Cert.Bodies

open Cert.KernelIdeal Cert.KernelIdeal.Gen
open Idealize.ShloMosaic Idealize.ShloMosaic.ValueIdx

/-! ## Two small readings at an index -/

/-- A column of `a` entries broadcast along `b` columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector, read at an index, is that of the entry. -/
theorem rsqrt_apply {s : Shape} {φ : FTy} (a : FVec Ideal s φ) (i : s.Idx) : rsqrt a i = Ideal.rsqrt (a i) := rfl

/-- The offset of a whole-block access. -/
theorem hz : (![0, 0] : Fin 2 → Nat) = fun _ => 0 := funext fun a => by fin_cases a <;> rfl

/-- A tile product of a 2000 x 128 block and a 128 x 128 matrix into the zero accumulator, read at `(p, q)`. -/
theorem matmul_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) :=
  PlainDot.matmul_zero_plain dot_S2000x128_S128x128_S2000x128_1_0_0_1_n_n rfl rfl rfl rfl rfl rfl none l r (ix2 p q)

/-- A tile product of a 2000 x 128 block and a 128 x 47 matrix into the zero accumulator, read at `(p, q)`. -/
theorem matmul47_apply {φ₁ φ₂ : FTy} (l : FVec Ideal S2000x128 φ₁) (r : FVec Ideal S128x47 φ₂) (p : Fin 2000) (q : Fin 47) :
    matmul dot_S2000x128_S128x47_S2000x47_1_0_0_1_n_n none l r (constant (F := Ideal) S2000x47 .f32 0x00000000#32) (ix2 p q)
      = ∑ k : Fin 128, l (ix2 p k) * r (ix2 k q) :=
  PlainDot.matmul_zero_plain dot_S2000x128_S128x47_S2000x47_1_0_0_1_n_n rfl rfl rfl rfl rfl rfl none l r (ix2 p q)

/-! ## The payloads as functions -/

/-- The transform's payload: the rows scaled, times the weight matrix. -/
theorem k0_pay1_eq (v0 : Vec Ideal S2000x128 .f32) (v1 : Vec Ideal S2000x1 .f32) (v6 : Vec Ideal S128x128 .f32) :
    k0_pay1 v0 v1 v6 = Cert.Net.pre v0 v1 v6 := by
  funext j
  obtain ⟨p, q, rfl⟩ : ∃ (p : Fin 2000) (q : Fin 128), j = ix2 p q := ⟨j 0, j 1, eq_ix2 j⟩
  unfold k0_pay1
  simp only [shapeCast_self]
  rw [truncf_apply, matmul_apply]
  simp only [truncf_apply, mulf_apply, broadcastTo_a1_ab_apply]
  rfl

/-- The finish's payload: rows scaled, bias, batch normalisation, rectifier. -/
theorem k1_pay2_eq (v0 : Vec Ideal S2000x128 .f32) (v2 : Vec Ideal S2000x1 .f32) (v6 v10 v12 v14 v16 : Vec Ideal S1x128 .f32) :
    k1_pay2 v0 v2 v6 v10 v12 v14 v16 = Cert.Net.post v0 v2 v6 v10 v12 v14 v16 := by
  funext j
  obtain ⟨p, q, rfl⟩ : ∃ (p : Fin 2000) (q : Fin 128), j = ix2 p q := ⟨j 0, j 1, eq_ix2 j⟩
  unfold k1_pay2
  simp only [shapeCast_self]
  simp only [maximumf_apply, addf_apply, mulf_apply, subf_apply, broadcast_apply, rsqrt_apply,
    broadcastTo_1b_ab_apply, broadcastTo_a1_ab_apply]
  rfl

/-- The finished block in the narrow format is the finished block. -/
theorem k1_pay3_eq (v0 : Vec Ideal S2000x128 .f32) (v2 : Vec Ideal S2000x1 .f32) (v6 v10 v12 v14 v16 : Vec Ideal S1x128 .f32) :
    k1_pay3 v0 v2 v6 v10 v12 v14 v16 = Cert.Net.post v0 v2 v6 v10 v12 v14 v16 := by
  funext j
  unfold k1_pay3
  rw [truncf_apply, k1_pay2_eq]

/-- The next layer's product, of a block already scaled and narrowed, read at `(p, q)`. -/
theorem k1_pay1_apply (v36 : FVec Ideal S2000x128 .bf16) (v37 : Vec Ideal S128x128 .f32) (p : Fin 2000) (q : Fin 128) :
    k1_pay1 v36 v37 (ix2 p q) = ∑ k : Fin 128, v36 (ix2 p k) * v37 (ix2 k q) := by
  unfold k1_pay1
  simp only [shapeCast_self]
  rw [truncf_apply, matmul_apply]
  simp only [truncf_apply]

/-- The finished block scaled by the source-degree factor, read at `(p, q)`. -/
theorem k1_pay4_apply (v0 : Vec Ideal S2000x128 .f32) (v2 : Vec Ideal S2000x1 .f32) (v6 v10 v12 v14 v16 : Vec Ideal S1x128 .f32)
    (v32 : Vec Ideal S2000x1 .f32) (p : Fin 2000) (q : Fin 128) :
    k1_pay4 v0 v2 v6 v10 v12 v14 v16 v32 (ix2 p q)
      = Cert.Net.post v0 v2 v6 v10 v12 v14 v16 (ix2 p q) * v32 (ix2 p (0 : Fin 1)) := by
  unfold k1_pay4
  simp only [shapeCast_self]
  rw [truncf_apply, mulf_apply, broadcastTo_a1_ab_apply, k1_pay2_eq]

/-- The finish alone (the last layer's), in the narrow format. -/
theorem k4_pay1_eq (v0 : Vec Ideal S2000x128 .f32) (v2 : Vec Ideal S2000x1 .f32) (v6 v10 v12 v14 v16 : Vec Ideal S1x128 .f32) :
    k4_pay1 v0 v2 v6 v10 v12 v14 v16 = Cert.Net.post v0 v2 v6 v10 v12 v14 v16 := by
  funext j
  obtain ⟨p, q, rfl⟩ : ∃ (p : Fin 2000) (q : Fin 128), j = ix2 p q := ⟨j 0, j 1, eq_ix2 j⟩
  unfold k4_pay1
  simp only [shapeCast_self]
  simp only [truncf_apply, maximumf_apply, addf_apply, mulf_apply, subf_apply, broadcast_apply, rsqrt_apply,
    broadcastTo_1b_ab_apply, broadcastTo_a1_ab_apply]
  rfl

/-- The classifier's four products summed left to right, plus the bias row, read at `(p, q)`. -/
theorem k5_pay2_apply (v0 : Vec Ideal S2000x128 .bf16) (v2 : Vec Ideal S128x128 .f32) (v6 : Vec Ideal S2000x128 .bf16)
    (v8 : Vec Ideal S128x128 .f32) (v13 : Vec Ideal S2000x128 .bf16) (v15 : Vec Ideal S128x128 .f32)
    (v20 : Vec Ideal S2000x128 .bf16) (v22 : Vec Ideal S128x128 .f32) (v27 : Vec Ideal S1x128 .f32) (p : Fin 2000) (q : Fin 128) :
    k5_pay2 v0 v2 v6 v8 v13 v15 v20 v22 v27 (ix2 p q)
      = ((((∑ k : Fin 128, v0 (ix2 p k) * v2 (ix2 k q)) + (∑ k : Fin 128, v6 (ix2 p k) * v8 (ix2 k q)))
          + (∑ k : Fin 128, v13 (ix2 p k) * v15 (ix2 k q))) + (∑ k : Fin 128, v20 (ix2 p k) * v22 (ix2 k q)))
        + v27 (ix2 (0 : Fin 1) q) := by
  unfold k5_pay2
  simp only [shapeCast_self]
  simp only [addf_apply, matmul_apply, truncf_apply, broadcastTo_1b_ab_apply]

/-- The first classifier layer's payload. -/
theorem k5_pay1_eq (x0 x1 x2 x3 : Vec Ideal S2000x128 .bf16) (x4 x5 x6 x7 : Vec Ideal S128x128 .f32)
    (x8 x9 x10 x11 x12 : Vec Ideal S1x128 .f32) :
    k5_pay1 (k5_pay2 x0 x4 x1 x5 x2 x6 x3 x7 x8) (k5_pay3 x9) x10 x11 x12
      = Cert.Net.cls0 x0 x1 x2 x3 x4 x5 x6 x7 x8 x9 x10 x11 x12 := by
  funext j
  obtain ⟨p, q, rfl⟩ : ∃ (p : Fin 2000) (q : Fin 128), j = ix2 p q := ⟨j 0, j 1, eq_ix2 j⟩
  unfold k5_pay1 k5_pay3
  simp only [shapeCast_self]
  simp only [maximumf_apply, addf_apply, mulf_apply, subf_apply, broadcast_apply, rsqrt_apply,
    broadcastTo_1b_ab_apply, k5_pay2_apply]
  rfl

/-- The last linear map's payload. -/
theorem k6_pay1_eq (v0 : Vec Ideal S2000x128 .f32) (v3 : Vec Ideal S128x47 .f32) (v6 : Vec Ideal S1x47 .f32) :
    k6_pay1 v0 v3 v6 = Cert.Net.cls1 v0 v3 v6 := by
  funext j
  obtain ⟨p, q, rfl⟩ : ∃ (p : Fin 2000) (q : Fin 47), j = ix2 p q := ⟨j 0, j 1, eq_ix2 j⟩
  unfold k6_pay1
  simp only [shapeCast_self]
  simp only [addf_apply, matmul47_apply, truncf_apply, broadcastTo_1b_ab_apply]
  rfl

/-! ## What each body leaves in each output window -/

/-- Region 0: the transform of the block. -/
theorem out0_3_eq (x0 : Vec Ideal S2000x128 .f32) (x1 : Vec Ideal S2000x1 .f32) (x2 : Vec Ideal S128x128 .f32) :
    out0_3 x0 x1 x2 = Cert.Net.pre x0 x1 x2 := by
  unfold out0_3
  rw [View.canon_unit_zero hz]
  simp only [View.ld_unit_zero (S := S2000x128) hz, View.ld_unit_zero (S := S2000x1) hz, View.ld_unit_zero (S := S128x128) hz]
  exact k0_pay1_eq x0 x1 x2

/-- Region 1, first output: the finished block. -/
theorem out1_9_eq (x0 : Vec Ideal S2000x128 .f32) (x1 x2 : Vec Ideal S2000x1 .f32) (x3 x4 x5 x6 x7 : Vec Ideal S1x128 .f32)
    (x8 : Vec Ideal S128x128 .f32) :
    out1_9 x0 x1 x2 x3 x4 x5 x6 x7 x8 = Cert.Net.post x0 x1 x3 x4 x5 x6 x7 := by
  unfold out1_9
  rw [View.canon_unit_zero hz]
  simp only [View.ld_unit_zero (S := S2000x128) hz, View.ld_unit_zero (S := S2000x1) hz, View.ld_unit_zero (S := S1x128) hz]
  exact k1_pay3_eq x0 x1 x3 x4 x5 x6 x7

/-- Region 1, second output: the next layer's transform of the finished block. -/
theorem out1_10_eq (x0 : Vec Ideal S2000x128 .f32) (x1 x2 : Vec Ideal S2000x1 .f32) (x3 x4 x5 x6 x7 : Vec Ideal S1x128 .f32)
    (x8 : Vec Ideal S128x128 .f32) :
    out1_10 x0 x1 x2 x3 x4 x5 x6 x7 x8 = Cert.Net.pre (Cert.Net.post x0 x1 x3 x4 x5 x6 x7) x2 x8 := by
  unfold out1_10
  rw [View.canon_unit_zero hz]
  simp only [View.ld_unit_zero (S := S2000x128) hz, View.ld_unit_zero (S := S2000x1) hz, View.ld_unit_zero (S := S1x128) hz,
    View.ld_unit_zero (S := S128x128) hz]
  funext j
  obtain ⟨p, q, rfl⟩ : ∃ (p : Fin 2000) (q : Fin 128), j = ix2 p q := ⟨j 0, j 1, eq_ix2 j⟩
  rw [k1_pay1_apply]
  simp only [k1_pay4_apply]
  rfl

/-- Region 2 is region 1's text. -/
theorem out2_9_eq (x0 : Vec Ideal S2000x128 .f32) (x1 x2 : Vec Ideal S2000x1 .f32) (x3 x4 x5 x6 x7 : Vec Ideal S1x128 .f32)
    (x8 : Vec Ideal S128x128 .f32) :
    out2_9 x0 x1 x2 x3 x4 x5 x6 x7 x8 = Cert.Net.post x0 x1 x3 x4 x5 x6 x7 :=
  out1_9_eq x0 x1 x2 x3 x4 x5 x6 x7 x8

theorem out2_10_eq (x0 : Vec Ideal S2000x128 .f32) (x1 x2 : Vec Ideal S2000x1 .f32) (x3 x4 x5 x6 x7 : Vec Ideal S1x128 .f32)
    (x8 : Vec Ideal S128x128 .f32) :
    out2_10 x0 x1 x2 x3 x4 x5 x6 x7 x8 = Cert.Net.pre (Cert.Net.post x0 x1 x3 x4 x5 x6 x7) x2 x8 :=
  out1_10_eq x0 x1 x2 x3 x4 x5 x6 x7 x8

/-- Region 3 is region 1's text. -/
theorem out3_9_eq (x0 : Vec Ideal S2000x128 .f32) (x1 x2 : Vec Ideal S2000x1 .f32) (x3 x4 x5 x6 x7 : Vec Ideal S1x128 .f32)
    (x8 : Vec Ideal S128x128 .f32) :
    out3_9 x0 x1 x2 x3 x4 x5 x6 x7 x8 = Cert.Net.post x0 x1 x3 x4 x5 x6 x7 :=
  out1_9_eq x0 x1 x2 x3 x4 x5 x6 x7 x8

theorem out3_10_eq (x0 : Vec Ideal S2000x128 .f32) (x1 x2 : Vec Ideal S2000x1 .f32) (x3 x4 x5 x6 x7 : Vec Ideal S1x128 .f32)
    (x8 : Vec Ideal S128x128 .f32) :
    out3_10 x0 x1 x2 x3 x4 x5 x6 x7 x8 = Cert.Net.pre (Cert.Net.post x0 x1 x3 x4 x5 x6 x7) x2 x8 :=
  out1_10_eq x0 x1 x2 x3 x4 x5 x6 x7 x8

/-- Region 4: the last layer's finished block. -/
theorem out4_7_eq (x0 : Vec Ideal S2000x128 .f32) (x1 : Vec Ideal S2000x1 .f32) (x2 x3 x4 x5 x6 : Vec Ideal S1x128 .f32) :
    out4_7 x0 x1 x2 x3 x4 x5 x6 = Cert.Net.post x0 x1 x2 x3 x4 x5 x6 := by
  unfold out4_7
  rw [View.canon_unit_zero hz]
  simp only [View.ld_unit_zero (S := S2000x128) hz, View.ld_unit_zero (S := S2000x1) hz, View.ld_unit_zero (S := S1x128) hz]
  exact k4_pay1_eq x0 x1 x2 x3 x4 x5 x6

/-- Region 5: the first classifier layer of the four hidden blocks. -/
theorem out5_13_eq (x0 x1 x2 x3 : Vec Ideal S2000x128 .bf16) (x4 x5 x6 x7 : Vec Ideal S128x128 .f32)
    (x8 x9 x10 x11 x12 : Vec Ideal S1x128 .f32) :
    out5_13 x0 x1 x2 x3 x4 x5 x6 x7 x8 x9 x10 x11 x12 = Cert.Net.cls0 x0 x1 x2 x3 x4 x5 x6 x7 x8 x9 x10 x11 x12 := by
  unfold out5_13
  rw [View.canon_unit_zero hz]
  simp only [View.ld_unit_zero (S := S2000x128) hz, View.ld_unit_zero (S := S128x128) hz, View.ld_unit_zero (S := S1x128) hz]
  exact k5_pay1_eq x0 x1 x2 x3 x4 x5 x6 x7 x8 x9 x10 x11 x12

/-- Region 6: the last linear map. -/
theorem out6_3_eq (x0 : Vec Ideal S2000x128 .f32) (x1 : Vec Ideal S128x47 .f32) (x2 : Vec Ideal S1x47 .f32) :
    out6_3 x0 x1 x2 = Cert.Net.cls1 x0 x1 x2 := by
  unfold out6_3
  rw [View.canon_unit_zero hz]
  simp only [View.ld_unit_zero (S := S2000x128) hz, View.ld_unit_zero (S := S128x47) hz, View.ld_unit_zero (S := S1x47) hz]
  exact k6_pay1_eq x0 x1 x2

end Cert.Bodies

end
-- ==== Proof.Carry.lean ====
/-
  Buffers nobody writes in between keep their contents.

  The run's buffer contents at the nineteen segment boundaries are a fold: a host stretch changes only the buffers
  its operations write, a region only the arrays of its output windows. So an argument array read at any boundary
  is the launch memory, and an intermediate array produced in one segment is still there, unchanged, when a later
  segment reads it. Each fact below is one step of that fold, or a chain of such steps.
-/
import proofs.«159722_j12695923327568_2_alg».proof.Proof.Gen.KernelIdeal.Frame
import Idealize.ShloMosaic.PureOps.Ideal

set_option maxRecDepth 16384

noncomputable section

namespace Cert.Carry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- A host stretch leaves a buffer that none of its operations writes as it found it: the goal is the stretch's
    result read at the buffer; every operation's written reference is a different one. -/
macro "host_keeps " ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## Single steps: one buffer across one segment -/

/-- No operation of the host stretch `hostOps0_4` writes `main_arg0`. -/
theorem keep_arg0_5 (c : Dev nD) :
    W5 m ρ c (Proc.devRef .tc main_arg0) = W4 m ρ c (Proc.devRef .tc main_arg0) :=
  by host_keeps hostOps0_4

/-- No operation of the host stretch `hostOps0_3` writes `main_arg0`. -/
theorem keep_arg0_4 (c : Dev nD) :
    W4 m ρ c (Proc.devRef .tc main_arg0) = W3 m ρ c (Proc.devRef .tc main_arg0) :=
  by host_keeps hostOps0_3

/-- No operation of the host stretch `hostOps0_2` writes `main_arg0`. -/
theorem keep_arg0_3 (c : Dev nD) :
    W3 m ρ c (Proc.devRef .tc main_arg0) = W2 m ρ c (Proc.devRef .tc main_arg0) :=
  by host_keeps hostOps0_2

/-- No operation of the host stretch `hostOps0_1` writes `main_arg0`. -/
theorem keep_arg0_2 (c : Dev nD) :
    W2 m ρ c (Proc.devRef .tc main_arg0) = W1 m ρ c (Proc.devRef .tc main_arg0) :=
  by host_keeps hostOps0_1

/-- No operation of the host stretch `hostOps0` writes `main_arg0`. -/
theorem keep_arg0_1 (c : Dev nD) :
    W1 m ρ c (Proc.devRef .tc main_arg0) = W0 m ρ c (Proc.devRef .tc main_arg0) :=
  by host_keeps hostOps0

/-- Region 0 has no window on `main_arg1`. -/
theorem keep_arg1_6 (c : Dev nD) :
    W6 m ρ c (Proc.devRef .tc main_arg1) = W5 m ρ c (Proc.devRef .tc main_arg1) :=
  W6_of_ne m ρ c main_arg1 (by decide)

/-- No operation of the host stretch `hostOps0_4` writes `main_arg1`. -/
theorem keep_arg1_5 (c : Dev nD) :
    W5 m ρ c (Proc.devRef .tc main_arg1) = W4 m ρ c (Proc.devRef .tc main_arg1) :=
  by host_keeps hostOps0_4

/-- No operation of the host stretch `hostOps0_3` writes `main_arg1`. -/
theorem keep_arg1_4 (c : Dev nD) :
    W4 m ρ c (Proc.devRef .tc main_arg1) = W3 m ρ c (Proc.devRef .tc main_arg1) :=
  by host_keeps hostOps0_3

/-- No operation of the host stretch `hostOps0_2` writes `main_arg1`. -/
theorem keep_arg1_3 (c : Dev nD) :
    W3 m ρ c (Proc.devRef .tc main_arg1) = W2 m ρ c (Proc.devRef .tc main_arg1) :=
  by host_keeps hostOps0_2

/-- No operation of the host stretch `hostOps0_1` writes `main_arg1`. -/
theorem keep_arg1_2 (c : Dev nD) :
    W2 m ρ c (Proc.devRef .tc main_arg1) = W1 m ρ c (Proc.devRef .tc main_arg1) :=
  by host_keeps hostOps0_1

/-- No operation of the host stretch `hostOps0` writes `main_arg1`. -/
theorem keep_arg1_1 (c : Dev nD) :
    W1 m ρ c (Proc.devRef .tc main_arg1) = W0 m ρ c (Proc.devRef .tc main_arg1) :=
  by host_keeps hostOps0

/-- Region 1 has no window on `main_arg1`. -/
theorem keep_arg1_8 (c : Dev nD) :
    W8 m ρ c (Proc.devRef .tc main_arg1) = W7 m ρ c (Proc.devRef .tc main_arg1) :=
  W8_of_ne m ρ c main_arg1 (by decide)

/-- No operation of the host stretch `hostOps1` writes `main_arg1`. -/
theorem keep_arg1_7 (c : Dev nD) :
    W7 m ρ c (Proc.devRef .tc main_arg1) = W6 m ρ c (Proc.devRef .tc main_arg1) :=
  by host_keeps hostOps1

/-- Region 2 has no window on `main_arg1`. -/
theorem keep_arg1_10 (c : Dev nD) :
    W10 m ρ c (Proc.devRef .tc main_arg1) = W9 m ρ c (Proc.devRef .tc main_arg1) :=
  W10_of_ne m ρ c main_arg1 (by decide)

/-- No operation of the host stretch `hostOps2` writes `main_arg1`. -/
theorem keep_arg1_9 (c : Dev nD) :
    W9 m ρ c (Proc.devRef .tc main_arg1) = W8 m ρ c (Proc.devRef .tc main_arg1) :=
  by host_keeps hostOps2

/-- Region 3 has no window on `main_arg1`. -/
theorem keep_arg1_12 (c : Dev nD) :
    W12 m ρ c (Proc.devRef .tc main_arg1) = W11 m ρ c (Proc.devRef .tc main_arg1) :=
  W12_of_ne m ρ c main_arg1 (by decide)

/-- No operation of the host stretch `hostOps3` writes `main_arg1`. -/
theorem keep_arg1_11 (c : Dev nD) :
    W11 m ρ c (Proc.devRef .tc main_arg1) = W10 m ρ c (Proc.devRef .tc main_arg1) :=
  by host_keeps hostOps3

/-- No operation of the host stretch `hostOps0_1` writes `main_arg2`. -/
theorem keep_arg2_2 (c : Dev nD) :
    W2 m ρ c (Proc.devRef .tc main_arg2) = W1 m ρ c (Proc.devRef .tc main_arg2) :=
  by host_keeps hostOps0_1

/-- No operation of the host stretch `hostOps0` writes `main_arg2`. -/
theorem keep_arg2_1 (c : Dev nD) :
    W1 m ρ c (Proc.devRef .tc main_arg2) = W0 m ρ c (Proc.devRef .tc main_arg2) :=
  by host_keeps hostOps0

/-- Region 0 has no window on `main_arg2`. -/
theorem keep_arg2_6 (c : Dev nD) :
    W6 m ρ c (Proc.devRef .tc main_arg2) = W5 m ρ c (Proc.devRef .tc main_arg2) :=
  W6_of_ne m ρ c main_arg2 (by decide)

/-- No operation of the host stretch `hostOps0_4` writes `main_arg2`. -/
theorem keep_arg2_5 (c : Dev nD) :
    W5 m ρ c (Proc.devRef .tc main_arg2) = W4 m ρ c (Proc.devRef .tc main_arg2) :=
  by host_keeps hostOps0_4

/-- No operation of the host stretch `hostOps0_3` writes `main_arg2`. -/
theorem keep_arg2_4 (c : Dev nD) :
    W4 m ρ c (Proc.devRef .tc main_arg2) = W3 m ρ c (Proc.devRef .tc main_arg2) :=
  by host_keeps hostOps0_3

/-- No operation of the host stretch `hostOps0_2` writes `main_arg2`. -/
theorem keep_arg2_3 (c : Dev nD) :
    W3 m ρ c (Proc.devRef .tc main_arg2) = W2 m ρ c (Proc.devRef .tc main_arg2) :=
  by host_keeps hostOps0_2

/-- Region 1 has no window on `main_arg2`. -/
theorem keep_arg2_8 (c : Dev nD) :
    W8 m ρ c (Proc.devRef .tc main_arg2) = W7 m ρ c (Proc.devRef .tc main_arg2) :=
  W8_of_ne m ρ c main_arg2 (by decide)

/-- No operation of the host stretch `hostOps1` writes `main_arg2`. -/
theorem keep_arg2_7 (c : Dev nD) :
    W7 m ρ c (Proc.devRef .tc main_arg2) = W6 m ρ c (Proc.devRef .tc main_arg2) :=
  by host_keeps hostOps1

/-- Region 2 has no window on `main_arg2`. -/
theorem keep_arg2_10 (c : Dev nD) :
    W10 m ρ c (Proc.devRef .tc main_arg2) = W9 m ρ c (Proc.devRef .tc main_arg2) :=
  W10_of_ne m ρ c main_arg2 (by decide)

/-- No operation of the host stretch `hostOps2` writes `main_arg2`. -/
theorem keep_arg2_9 (c : Dev nD) :
    W9 m ρ c (Proc.devRef .tc main_arg2) = W8 m ρ c (Proc.devRef .tc main_arg2) :=
  by host_keeps hostOps2

/-- Region 3 has no window on `main_arg2`. -/
theorem keep_arg2_12 (c : Dev nD) :
    W12 m ρ c (Proc.devRef .tc main_arg2) = W11 m ρ c (Proc.devRef .tc main_arg2) :=
  W12_of_ne m ρ c main_arg2 (by decide)

/-- No operation of the host stretch `hostOps3` writes `main_arg2`. -/
theorem keep_arg2_11 (c : Dev nD) :
    W11 m ρ c (Proc.devRef .tc main_arg2) = W10 m ρ c (Proc.devRef .tc main_arg2) :=
  by host_keeps hostOps3

/-- No operation of the host stretch `hostOps0_3` writes `main_arg3`. -/
theorem keep_arg3_4 (c : Dev nD) :
    W4 m ρ c (Proc.devRef .tc main_arg3) = W3 m ρ c (Proc.devRef .tc main_arg3) :=
  by host_keeps hostOps0_3

/-- No operation of the host stretch `hostOps0_2` writes `main_arg3`. -/
theorem keep_arg3_3 (c : Dev nD) :
    W3 m ρ c (Proc.devRef .tc main_arg3) = W2 m ρ c (Proc.devRef .tc main_arg3) :=
  by host_keeps hostOps0_2

/-- No operation of the host stretch `hostOps0_1` writes `main_arg3`. -/
theorem keep_arg3_2 (c : Dev nD) :
    W2 m ρ c (Proc.devRef .tc main_arg3) = W1 m ρ c (Proc.devRef .tc main_arg3) :=
  by host_keeps hostOps0_1

/-- No operation of the host stretch `hostOps0` writes `main_arg3`. -/
theorem keep_arg3_1 (c : Dev nD) :
    W1 m ρ c (Proc.devRef .tc main_arg3) = W0 m ρ c (Proc.devRef .tc main_arg3) :=
  by host_keeps hostOps0

/-- Region 0 has no window on `main_arg3`. -/
theorem keep_arg3_6 (c : Dev nD) :
    W6 m ρ c (Proc.devRef .tc main_arg3) = W5 m ρ c (Proc.devRef .tc main_arg3) :=
  W6_of_ne m ρ c main_arg3 (by decide)

/-- No operation of the host stretch `hostOps0_4` writes `main_arg3`. -/
theorem keep_arg3_5 (c : Dev nD) :
    W5 m ρ c (Proc.devRef .tc main_arg3) = W4 m ρ c (Proc.devRef .tc main_arg3) :=
  by host_keeps hostOps0_4

/-- Region 1 has no window on `main_arg3`. -/
theorem keep_arg3_8 (c : Dev nD) :
    W8 m ρ c (Proc.devRef .tc main_arg3) = W7 m ρ c (Proc.devRef .tc main_arg3) :=
  W8_of_ne m ρ c main_arg3 (by decide)

/-- No operation of the host stretch `hostOps1` writes `main_arg3`. -/
theorem keep_arg3_7 (c : Dev nD) :
    W7 m ρ c (Proc.devRef .tc main_arg3) = W6 m ρ c (Proc.devRef .tc main_arg3) :=
  by host_keeps hostOps1

/-- Region 2 has no window on `main_arg3`. -/
theorem keep_arg3_10 (c : Dev nD) :
    W10 m ρ c (Proc.devRef .tc main_arg3) = W9 m ρ c (Proc.devRef .tc main_arg3) :=
  W10_of_ne m ρ c main_arg3 (by decide)

/-- No operation of the host stretch `hostOps2` writes `main_arg3`. -/
theorem keep_arg3_9 (c : Dev nD) :
    W9 m ρ c (Proc.devRef .tc main_arg3) = W8 m ρ c (Proc.devRef .tc main_arg3) :=
  by host_keeps hostOps2

/-- Region 3 has no window on `main_arg4`. -/
theorem keep_arg4_12 (c : Dev nD) :
    W12 m ρ c (Proc.devRef .tc main_arg4) = W11 m ρ c (Proc.devRef .tc main_arg4) :=
  W12_of_ne m ρ c main_arg4 (by decide)

/-- No operation of the host stretch `hostOps3` writes `main_arg4`. -/
theorem keep_arg4_11 (c : Dev nD) :
    W11 m ρ c (Proc.devRef .tc main_arg4) = W10 m ρ c (Proc.devRef .tc main_arg4) :=
  by host_keeps hostOps3

/-- Region 2 has no window on `main_arg4`. -/
theorem keep_arg4_10 (c : Dev nD) :
    W10 m ρ c (Proc.devRef .tc main_arg4) = W9 m ρ c (Proc.devRef .tc main_arg4) :=
  W10_of_ne m ρ c main_arg4 (by decide)

/-- No operation of the host stretch `hostOps2` writes `main_arg4`. -/
theorem keep_arg4_9 (c : Dev nD) :
    W9 m ρ c (Proc.devRef .tc main_arg4) = W8 m ρ c (Proc.devRef .tc main_arg4) :=
  by host_keeps hostOps2

/-- Region 1 has no window on `main_arg4`. -/
theorem keep_arg4_8 (c : Dev nD) :
    W8 m ρ c (Proc.devRef .tc main_arg4) = W7 m ρ c (Proc.devRef .tc main_arg4) :=
  W8_of_ne m ρ c main_arg4 (by decide)

/-- No operation of the host stretch `hostOps1` writes `main_arg4`. -/
theorem keep_arg4_7 (c : Dev nD) :
    W7 m ρ c (Proc.devRef .tc main_arg4) = W6 m ρ c (Proc.devRef .tc main_arg4) :=
  by host_keeps hostOps1

/-- Region 0 has no window on `main_arg4`. -/
theorem keep_arg4_6 (c : Dev nD) :
    W6 m ρ c (Proc.devRef .tc main_arg4) = W5 m ρ c (Proc.devRef .tc main_arg4) :=
  W6_of_ne m ρ c main_arg4 (by decide)

/-- No operation of the host stretch `hostOps0_4` writes `main_arg4`. -/
theorem keep_arg4_5 (c : Dev nD) :
    W5 m ρ c (Proc.devRef .tc main_arg4) = W4 m ρ c (Proc.devRef .tc main_arg4) :=
  by host_keeps hostOps0_4

/-- No operation of the host stretch `hostOps0_3` writes `main_arg4`. -/
theorem keep_arg4_4 (c : Dev nD) :
    W4 m ρ c (Proc.devRef .tc main_arg4) = W3 m ρ c (Proc.devRef .tc main_arg4) :=
  by host_keeps hostOps0_3

/-- No operation of the host stretch `hostOps0_2` writes `main_arg4`. -/
theorem keep_arg4_3 (c : Dev nD) :
    W3 m ρ c (Proc.devRef .tc main_arg4) = W2 m ρ c (Proc.devRef .tc main_arg4) :=
  by host_keeps hostOps0_2

/-- No operation of the host stretch `hostOps0_1` writes `main_arg4`. -/
theorem keep_arg4_2 (c : Dev nD) :
    W2 m ρ c (Proc.devRef .tc main_arg4) = W1 m ρ c (Proc.devRef .tc main_arg4) :=
  by host_keeps hostOps0_1

/-- No operation of the host stretch `hostOps0` writes `main_arg4`. -/
theorem keep_arg4_1 (c : Dev nD) :
    W1 m ρ c (Proc.devRef .tc main_arg4) = W0 m ρ c (Proc.devRef .tc main_arg4) :=
  by host_keeps hostOps0

/-- Region 0 has no window on `main_arg5`. -/
theorem keep_arg5_6 (c : Dev nD) :
    W6 m ρ c (Proc.devRef .tc main_arg5) = W5 m ρ c (Proc.devRef .tc main_arg5) :=
  W6_of_ne m ρ c main_arg5 (by decide)

/-- No operation of the host stretch `hostOps0_4` writes `main_arg5`. -/
theorem keep_arg5_5 (c : Dev nD) :
    W5 m ρ c (Proc.devRef .tc main_arg5) = W4 m ρ c (Proc.devRef .tc main_arg5) :=
  by host_keeps hostOps0_4

/-- No operation of the host stretch `hostOps0_3` writes `main_arg5`. -/
theorem keep_arg5_4 (c : Dev nD) :
    W4 m ρ c (Proc.devRef .tc main_arg5) = W3 m ρ c (Proc.devRef .tc main_arg5) :=
  by host_keeps hostOps0_3

/-- No operation of the host stretch `hostOps0_2` writes `main_arg5`. -/
theorem keep_arg5_3 (c : Dev nD) :
    W3 m ρ c (Proc.devRef .tc main_arg5) = W2 m ρ c (Proc.devRef .tc main_arg5) :=
  by host_keeps hostOps0_2

/-- No operation of the host stretch `hostOps0_1` writes `main_arg5`. -/
theorem keep_arg5_2 (c : Dev nD) :
    W2 m ρ c (Proc.devRef .tc main_arg5) = W1 m ρ c (Proc.devRef .tc main_arg5) :=
  by host_keeps hostOps0_1

/-- No operation of the host stretch `hostOps0` writes `main_arg5`. -/
theorem keep_arg5_1 (c : Dev nD) :
    W1 m ρ c (Proc.devRef .tc main_arg5) = W0 m ρ c (Proc.devRef .tc main_arg5) :=
  by host_keeps hostOps0

/-- Region 1 has no window on `main_arg5`. -/
theorem keep_arg5_8 (c : Dev nD) :
    W8 m ρ c (Proc.devRef .tc main_arg5) = W7 m ρ c (Proc.devRef .tc main_arg5) :=
  W8_of_ne m ρ c main_arg5 (by decide)

/-- No operation of the host stretch `hostOps1` writes `main_arg5`. -/
theorem keep_arg5_7 (c : Dev nD) :
    W7 m ρ c (Proc.devRef .tc main_arg5) = W6 m ρ c (Proc.devRef .tc main_arg5) :=
  by host_keeps hostOps1

/-- Region 2 has no window on `main_arg5`. -/
theorem keep_arg5_10 (c : Dev nD) :
    W10 m ρ c (Proc.devRef .tc main_arg5) = W9 m ρ c (Proc.devRef .tc main_arg5) :=
  W10_of_ne m ρ c main_arg5 (by decide)

/-- No operation of the host stretch `hostOps2` writes `main_arg5`. -/
theorem keep_arg5_9 (c : Dev nD) :
    W9 m ρ c (Proc.devRef .tc main_arg5) = W8 m ρ c (Proc.devRef .tc main_arg5) :=
  by host_keeps hostOps2

/-- Region 3 has no window on `main_arg5`. -/
theorem keep_arg5_12 (c : Dev nD) :
    W12 m ρ c (Proc.devRef .tc main_arg5) = W11 m ρ c (Proc.devRef .tc main_arg5) :=
  W12_of_ne m ρ c main_arg5 (by decide)

/-- No operation of the host stretch `hostOps3` writes `main_arg5`. -/
theorem keep_arg5_11 (c : Dev nD) :
    W11 m ρ c (Proc.devRef .tc main_arg5) = W10 m ρ c (Proc.devRef .tc main_arg5) :=
  by host_keeps hostOps3

/-- Region 0 has no window on `main_arg6`. -/
theorem keep_arg6_6 (c : Dev nD) :
    W6 m ρ c (Proc.devRef .tc main_arg6) = W5 m ρ c (Proc.devRef .tc main_arg6) :=
  W6_of_ne m ρ c main_arg6 (by decide)

/-- No operation of the host stretch `hostOps0_4` writes `main_arg6`. -/
theorem keep_arg6_5 (c : Dev nD) :
    W5 m ρ c (Proc.devRef .tc main_arg6) = W4 m ρ c (Proc.devRef .tc main_arg6) :=
  by host_keeps hostOps0_4

/-- No operation of the host stretch `hostOps0_3` writes `main_arg6`. -/
theorem keep_arg6_4 (c : Dev nD) :
    W4 m ρ c (Proc.devRef .tc main_arg6) = W3 m ρ c (Proc.devRef .tc main_arg6) :=
  by host_keeps hostOps0_3

/-- No operation of the host stretch `hostOps0_2` writes `main_arg6`. -/
theorem keep_arg6_3 (c : Dev nD) :
    W3 m ρ c (Proc.devRef .tc main_arg6) = W2 m ρ c (Proc.devRef .tc main_arg6) :=
  by host_keeps hostOps0_2

/-- No operation of the host stretch `hostOps0_1` writes `main_arg6`. -/
theorem keep_arg6_2 (c : Dev nD) :
    W2 m ρ c (Proc.devRef .tc main_arg6) = W1 m ρ c (Proc.devRef .tc main_arg6) :=
  by host_keeps hostOps0_1

/-- No operation of the host stretch `hostOps0` writes `main_arg6`. -/
theorem keep_arg6_1 (c : Dev nD) :
    W1 m ρ c (Proc.devRef .tc main_arg6) = W0 m ρ c (Proc.devRef .tc main_arg6) :=
  by host_keeps hostOps0

/-- Region 1 has no window on `main_arg6`. -/
theorem keep_arg6_8 (c : Dev nD) :
    W8 m ρ c (Proc.devRef .tc main_arg6) = W7 m ρ c (Proc.devRef .tc main_arg6) :=
  W8_of_ne m ρ c main_arg6 (by decide)

/-- No operation of the host stretch `hostOps1` writes `main_arg6`. -/
theorem keep_arg6_7 (c : Dev nD) :
    W7 m ρ c (Proc.devRef .tc main_arg6) = W6 m ρ c (Proc.devRef .tc main_arg6) :=
  by host_keeps hostOps1

/-- Region 2 has no window on `main_arg6`. -/
theorem keep_arg6_10 (c : Dev nD) :
    W10 m ρ c (Proc.devRef .tc main_arg6) = W9 m ρ c (Proc.devRef .tc main_arg6) :=
  W10_of_ne m ρ c main_arg6 (by decide)

/-- No operation of the host stretch `hostOps2` writes `main_arg6`. -/
theorem keep_arg6_9 (c : Dev nD) :
    W9 m ρ c (Proc.devRef .tc main_arg6) = W8 m ρ c (Proc.devRef .tc main_arg6) :=
  by host_keeps hostOps2

/-- Region 3 has no window on `main_arg6`. -/
theorem keep_arg6_12 (c : Dev nD) :
    W12 m ρ c (Proc.devRef .tc main_arg6) = W11 m ρ c (Proc.devRef .tc main_arg6) :=
  W12_of_ne m ρ c main_arg6 (by decide)

/-- No operation of the host stretch `hostOps3` writes `main_arg6`. -/
theorem keep_arg6_11 (c : Dev nD) :
    W11 m ρ c (Proc.devRef .tc main_arg6) = W10 m ρ c (Proc.devRef .tc main_arg6) :=
  by host_keeps hostOps3

/-- Region 0 has no window on `main_arg7`. -/
theorem keep_arg7_6 (c : Dev nD) :
    W6 m ρ c (Proc.devRef .tc main_arg7) = W5 m ρ c (Proc.devRef .tc main_arg7) :=
  W6_of_ne m ρ c main_arg7 (by decide)

/-- No operation of the host stretch `hostOps0_4` writes `main_arg7`. -/
theorem keep_arg7_5 (c : Dev nD) :
    W5 m ρ c (Proc.devRef .tc main_arg7) = W4 m ρ c (Proc.devRef .tc main_arg7) :=
  by host_keeps hostOps0_4

/-- No operation of the host stretch `hostOps0_3` writes `main_arg7`. -/
theorem keep_arg7_4 (c : Dev nD) :
    W4 m ρ c (Proc.devRef .tc main_arg7) = W3 m ρ c (Proc.devRef .tc main_arg7) :=
  by host_keeps hostOps0_3

/-- No operation of the host stretch `hostOps0_2` writes `main_arg7`. -/
theorem keep_arg7_3 (c : Dev nD) :
    W3 m ρ c (Proc.devRef .tc main_arg7) = W2 m ρ c (Proc.devRef .tc main_arg7) :=
  by host_keeps hostOps0_2

/-- No operation of the host stretch `hostOps0_1` writes `main_arg7`. -/
theorem keep_arg7_2 (c : Dev nD) :
    W2 m ρ c (Proc.devRef .tc main_arg7) = W1 m ρ c (Proc.devRef .tc main_arg7) :=
  by host_keeps hostOps0_1

/-- No operation of the host stretch `hostOps0` writes `main_arg7`. -/
theorem keep_arg7_1 (c : Dev nD) :
    W1 m ρ c (Proc.devRef .tc main_arg7) = W0 m ρ c (Proc.devRef .tc main_arg7) :=
  by host_keeps hostOps0

/-- Region 1 has no window on `main_arg7`. -/
theorem keep_arg7_8 (c : Dev nD) :
    W8 m ρ c (Proc.devRef .tc main_arg7) = W7 m ρ c (Proc.devRef .tc main_arg7) :=
  W8_of_ne m ρ c main_arg7 (by decide)

/-- No operation of the host stretch `hostOps1` writes `main_arg7`. -/
theorem keep_arg7_7 (c : Dev nD) :
    W7 m ρ c (Proc.devRef .tc main_arg7) = W6 m ρ c (Proc.devRef .tc main_arg7) :=
  by host_keeps hostOps1

/-- Region 2 has no window on `main_arg7`. -/
theorem keep_arg7_10 (c : Dev nD) :
    W10 m ρ c (Proc.devRef .tc main_arg7) = W9 m ρ c (Proc.devRef .tc main_arg7) :=
  W10_of_ne m ρ c main_arg7 (by decide)

/-- No operation of the host stretch `hostOps2` writes `main_arg7`. -/
theorem keep_arg7_9 (c : Dev nD) :
    W9 m ρ c (Proc.devRef .tc main_arg7) = W8 m ρ c (Proc.devRef .tc main_arg7) :=
  by host_keeps hostOps2

/-- Region 3 has no window on `main_arg7`. -/
theorem keep_arg7_12 (c : Dev nD) :
    W12 m ρ c (Proc.devRef .tc main_arg7) = W11 m ρ c (Proc.devRef .tc main_arg7) :=
  W12_of_ne m ρ c main_arg7 (by decide)

/-- No operation of the host stretch `hostOps3` writes `main_arg7`. -/
theorem keep_arg7_11 (c : Dev nD) :
    W11 m ρ c (Proc.devRef .tc main_arg7) = W10 m ρ c (Proc.devRef .tc main_arg7) :=
  by host_keeps hostOps3

/-- Region 0 has no window on `main_arg8`. -/
theorem keep_arg8_6 (c : Dev nD) :
    W6 m ρ c (Proc.devRef .tc main_arg8) = W5 m ρ c (Proc.devRef .tc main_arg8) :=
  W6_of_ne m ρ c main_arg8 (by decide)

/-- No operation of the host stretch `hostOps0_4` writes `main_arg8`. -/
theorem keep_arg8_5 (c : Dev nD) :
    W5 m ρ c (Proc.devRef .tc main_arg8) = W4 m ρ c (Proc.devRef .tc main_arg8) :=
  by host_keeps hostOps0_4

/-- No operation of the host stretch `hostOps0_3` writes `main_arg8`. -/
theorem keep_arg8_4 (c : Dev nD) :
    W4 m ρ c (Proc.devRef .tc main_arg8) = W3 m ρ c (Proc.devRef .tc main_arg8) :=
  by host_keeps hostOps0_3

/-- No operation of the host stretch `hostOps0_2` writes `main_arg8`. -/
theorem keep_arg8_3 (c : Dev nD) :
    W3 m ρ c (Proc.devRef .tc main_arg8) = W2 m ρ c (Proc.devRef .tc main_arg8) :=
  by host_keeps hostOps0_2

/-- No operation of the host stretch `hostOps0_1` writes `main_arg8`. -/
theorem keep_arg8_2 (c : Dev nD) :
    W2 m ρ c (Proc.devRef .tc main_arg8) = W1 m ρ c (Proc.devRef .tc main_arg8) :=
  by host_keeps hostOps0_1

/-- No operation of the host stretch `hostOps0` writes `main_arg8`. -/
theorem keep_arg8_1 (c : Dev nD) :
    W1 m ρ c (Proc.devRef .tc main_arg8) = W0 m ρ c (Proc.devRef .tc main_arg8) :=
  by host_keeps hostOps0

/-- Region 1 has no window on `main_arg8`. -/
theorem keep_arg8_8 (c : Dev nD) :
    W8 m ρ c (Proc.devRef .tc main_arg8) = W7 m ρ c (Proc.devRef .tc main_arg8) :=
  W8_of_ne m ρ c main_arg8 (by decide)

/-- No operation of the host stretch `hostOps1` writes `main_arg8`. -/
theorem keep_arg8_7 (c : Dev nD) :
    W7 m ρ c (Proc.devRef .tc main_arg8) = W6 m ρ c (Proc.devRef .tc main_arg8) :=
  by host_keeps hostOps1

/-- Region 2 has no window on `main_arg8`. -/
theorem keep_arg8_10 (c : Dev nD) :
    W10 m ρ c (Proc.devRef .tc main_arg8) = W9 m ρ c (Proc.devRef .tc main_arg8) :=
  W10_of_ne m ρ c main_arg8 (by decide)

/-- No operation of the host stretch `hostOps2` writes `main_arg8`. -/
theorem keep_arg8_9 (c : Dev nD) :
    W9 m ρ c (Proc.devRef .tc main_arg8) = W8 m ρ c (Proc.devRef .tc main_arg8) :=
  by host_keeps hostOps2

/-- Region 3 has no window on `main_arg8`. -/
theorem keep_arg8_12 (c : Dev nD) :
    W12 m ρ c (Proc.devRef .tc main_arg8) = W11 m ρ c (Proc.devRef .tc main_arg8) :=
  W12_of_ne m ρ c main_arg8 (by decide)

/-- No operation of the host stretch `hostOps3` writes `main_arg8`. -/
theorem keep_arg8_11 (c : Dev nD) :
    W11 m ρ c (Proc.devRef .tc main_arg8) = W10 m ρ c (Proc.devRef .tc main_arg8) :=
  by host_keeps hostOps3

/-- Region 4 has no window on `main_arg9`. -/
theorem keep_arg9_14 (c : Dev nD) :
    W14 m ρ c (Proc.devRef .tc main_arg9) = W13 m ρ c (Proc.devRef .tc main_arg9) :=
  W14_of_ne m ρ c main_arg9 (by decide)

/-- No operation of the host stretch `hostOps4` writes `main_arg9`. -/
theorem keep_arg9_13 (c : Dev nD) :
    W13 m ρ c (Proc.devRef .tc main_arg9) = W12 m ρ c (Proc.devRef .tc main_arg9) :=
  by host_keeps hostOps4

/-- Region 3 has no window on `main_arg9`. -/
theorem keep_arg9_12 (c : Dev nD) :
    W12 m ρ c (Proc.devRef .tc main_arg9) = W11 m ρ c (Proc.devRef .tc main_arg9) :=
  W12_of_ne m ρ c main_arg9 (by decide)

/-- No operation of the host stretch `hostOps3` writes `main_arg9`. -/
theorem keep_arg9_11 (c : Dev nD) :
    W11 m ρ c (Proc.devRef .tc main_arg9) = W10 m ρ c (Proc.devRef .tc main_arg9) :=
  by host_keeps hostOps3

/-- Region 2 has no window on `main_arg9`. -/
theorem keep_arg9_10 (c : Dev nD) :
    W10 m ρ c (Proc.devRef .tc main_arg9) = W9 m ρ c (Proc.devRef .tc main_arg9) :=
  W10_of_ne m ρ c main_arg9 (by decide)

/-- No operation of the host stretch `hostOps2` writes `main_arg9`. -/
theorem keep_arg9_9 (c : Dev nD) :
    W9 m ρ c (Proc.devRef .tc main_arg9) = W8 m ρ c (Proc.devRef .tc main_arg9) :=
  by host_keeps hostOps2

/-- Region 1 has no window on `main_arg9`. -/
theorem keep_arg9_8 (c : Dev nD) :
    W8 m ρ c (Proc.devRef .tc main_arg9) = W7 m ρ c (Proc.devRef .tc main_arg9) :=
  W8_of_ne m ρ c main_arg9 (by decide)

/-- No operation of the host stretch `hostOps1` writes `main_arg9`. -/
theorem keep_arg9_7 (c : Dev nD) :
    W7 m ρ c (Proc.devRef .tc main_arg9) = W6 m ρ c (Proc.devRef .tc main_arg9) :=
  by host_keeps hostOps1

/-- Region 0 has no window on `main_arg9`. -/
theorem keep_arg9_6 (c : Dev nD) :
    W6 m ρ c (Proc.devRef .tc main_arg9) = W5 m ρ c (Proc.devRef .tc main_arg9) :=
  W6_of_ne m ρ c main_arg9 (by decide)

/-- No operation of the host stretch `hostOps0_4` writes `main_arg9`. -/
theorem keep_arg9_5 (c : Dev nD) :
    W5 m ρ c (Proc.devRef .tc main_arg9) = W4 m ρ c (Proc.devRef .tc main_arg9) :=
  by host_keeps hostOps0_4

/-- No operation of the host stretch `hostOps0_3` writes `main_arg9`. -/
theorem keep_arg9_4 (c : Dev nD) :
    W4 m ρ c (Proc.devRef .tc main_arg9) = W3 m ρ c (Proc.devRef .tc main_arg9) :=
  by host_keeps hostOps0_3

/-- No operation of the host stretch `hostOps0_2` writes `main_arg9`. -/
theorem keep_arg9_3 (c : Dev nD) :
    W3 m ρ c (Proc.devRef .tc main_arg9) = W2 m ρ c (Proc.devRef .tc main_arg9) :=
  by host_keeps hostOps0_2

/-- No operation of the host stretch `hostOps0_1` writes `main_arg9`. -/
theorem keep_arg9_2 (c : Dev nD) :
    W2 m ρ c (Proc.devRef .tc main_arg9) = W1 m ρ c (Proc.devRef .tc main_arg9) :=
  by host_keeps hostOps0_1

/-- No operation of the host stretch `hostOps0` writes `main_arg9`. -/
theorem keep_arg9_1 (c : Dev nD) :
    W1 m ρ c (Proc.devRef .tc main_arg9) = W0 m ρ c (Proc.devRef .tc main_arg9) :=
  by host_keeps hostOps0

/-- Region 4 has no window on `main_arg10`. -/
theorem keep_arg10_14 (c : Dev nD) :
    W14 m ρ c (Proc.devRef .tc main_arg10) = W13 m ρ c (Proc.devRef .tc main_arg10) :=
  W14_of_ne m ρ c main_arg10 (by decide)

/-- No operation of the host stretch `hostOps4` writes `main_arg10`. -/
theorem keep_arg10_13 (c : Dev nD) :
    W13 m ρ c (Proc.devRef .tc main_arg10) = W12 m ρ c (Proc.devRef .tc main_arg10) :=
  by host_keeps hostOps4

/-- Region 3 has no window on `main_arg10`. -/
theorem keep_arg10_12 (c : Dev nD) :
    W12 m ρ c (Proc.devRef .tc main_arg10) = W11 m ρ c (Proc.devRef .tc main_arg10) :=
  W12_of_ne m ρ c main_arg10 (by decide)

/-- No operation of the host stretch `hostOps3` writes `main_arg10`. -/
theorem keep_arg10_11 (c : Dev nD) :
    W11 m ρ c (Proc.devRef .tc main_arg10) = W10 m ρ c (Proc.devRef .tc main_arg10) :=
  by host_keeps hostOps3

/-- Region 2 has no window on `main_arg10`. -/
theorem keep_arg10_10 (c : Dev nD) :
    W10 m ρ c (Proc.devRef .tc main_arg10) = W9 m ρ c (Proc.devRef .tc main_arg10) :=
  W10_of_ne m ρ c main_arg10 (by decide)

/-- No operation of the host stretch `hostOps2` writes `main_arg10`. -/
theorem keep_arg10_9 (c : Dev nD) :
    W9 m ρ c (Proc.devRef .tc main_arg10) = W8 m ρ c (Proc.devRef .tc main_arg10) :=
  by host_keeps hostOps2

/-- Region 1 has no window on `main_arg10`. -/
theorem keep_arg10_8 (c : Dev nD) :
    W8 m ρ c (Proc.devRef .tc main_arg10) = W7 m ρ c (Proc.devRef .tc main_arg10) :=
  W8_of_ne m ρ c main_arg10 (by decide)

/-- No operation of the host stretch `hostOps1` writes `main_arg10`. -/
theorem keep_arg10_7 (c : Dev nD) :
    W7 m ρ c (Proc.devRef .tc main_arg10) = W6 m ρ c (Proc.devRef .tc main_arg10) :=
  by host_keeps hostOps1

/-- Region 0 has no window on `main_arg10`. -/
theorem keep_arg10_6 (c : Dev nD) :
    W6 m ρ c (Proc.devRef .tc main_arg10) = W5 m ρ c (Proc.devRef .tc main_arg10) :=
  W6_of_ne m ρ c main_arg10 (by decide)

/-- No operation of the host stretch `hostOps0_4` writes `main_arg10`. -/
theorem keep_arg10_5 (c : Dev nD) :
    W5 m ρ c (Proc.devRef .tc main_arg10) = W4 m ρ c (Proc.devRef .tc main_arg10) :=
  by host_keeps hostOps0_4

/-- No operation of the host stretch `hostOps0_3` writes `main_arg10`. -/
theorem keep_arg10_4 (c : Dev nD) :
    W4 m ρ c (Proc.devRef .tc main_arg10) = W3 m ρ c (Proc.devRef .tc main_arg10) :=
  by host_keeps hostOps0_3

/-- No operation of the host stretch `hostOps0_2` writes `main_arg10`. -/
theorem keep_arg10_3 (c : Dev nD) :
    W3 m ρ c (Proc.devRef .tc main_arg10) = W2 m ρ c (Proc.devRef .tc main_arg10) :=
  by host_keeps hostOps0_2

/-- No operation of the host stretch `hostOps0_1` writes `main_arg10`. -/
theorem keep_arg10_2 (c : Dev nD) :
    W2 m ρ c (Proc.devRef .tc main_arg10) = W1 m ρ c (Proc.devRef .tc main_arg10) :=
  by host_keeps hostOps0_1

/-- No operation of the host stretch `hostOps0` writes `main_arg10`. -/
theorem keep_arg10_1 (c : Dev nD) :
    W1 m ρ c (Proc.devRef .tc main_arg10) = W0 m ρ c (Proc.devRef .tc main_arg10) :=
  by host_keeps hostOps0

/-- Region 4 has no window on `main_arg11`. -/
theorem keep_arg11_14 (c : Dev nD) :
    W14 m ρ c (Proc.devRef .tc main_arg11) = W13 m ρ c (Proc.devRef .tc main_arg11) :=
  W14_of_ne m ρ c main_arg11 (by decide)

/-- No operation of the host stretch `hostOps4` writes `main_arg11`. -/
theorem keep_arg11_13 (c : Dev nD) :
    W13 m ρ c (Proc.devRef .tc main_arg11) = W12 m ρ c (Proc.devRef .tc main_arg11) :=
  by host_keeps hostOps4

/-- Region 3 has no window on `main_arg11`. -/
theorem keep_arg11_12 (c : Dev nD) :
    W12 m ρ c (Proc.devRef .tc main_arg11) = W11 m ρ c (Proc.devRef .tc main_arg11) :=
  W12_of_ne m ρ c main_arg11 (by decide)

/-- No operation of the host stretch `hostOps3` writes `main_arg11`. -/
theorem keep_arg11_11 (c : Dev nD) :
    W11 m ρ c (Proc.devRef .tc main_arg11) = W10 m ρ c (Proc.devRef .tc main_arg11) :=
  by host_keeps hostOps3

/-- Region 2 has no window on `main_arg11`. -/
theorem keep_arg11_10 (c : Dev nD) :
    W10 m ρ c (Proc.devRef .tc main_arg11) = W9 m ρ c (Proc.devRef .tc main_arg11) :=
  W10_of_ne m ρ c main_arg11 (by decide)

/-- No operation of the host stretch `hostOps2` writes `main_arg11`. -/
theorem keep_arg11_9 (c : Dev nD) :
    W9 m ρ c (Proc.devRef .tc main_arg11) = W8 m ρ c (Proc.devRef .tc main_arg11) :=
  by host_keeps hostOps2

/-- Region 1 has no window on `main_arg11`. -/
theorem keep_arg11_8 (c : Dev nD) :
    W8 m ρ c (Proc.devRef .tc main_arg11) = W7 m ρ c (Proc.devRef .tc main_arg11) :=
  W8_of_ne m ρ c main_arg11 (by decide)

/-- No operation of the host stretch `hostOps1` writes `main_arg11`. -/
theorem keep_arg11_7 (c : Dev nD) :
    W7 m ρ c (Proc.devRef .tc main_arg11) = W6 m ρ c (Proc.devRef .tc main_arg11) :=
  by host_keeps hostOps1

/-- Region 0 has no window on `main_arg11`. -/
theorem keep_arg11_6 (c : Dev nD) :
    W6 m ρ c (Proc.devRef .tc main_arg11) = W5 m ρ c (Proc.devRef .tc main_arg11) :=
  W6_of_ne m ρ c main_arg11 (by decide)

/-- No operation of the host stretch `hostOps0_4` writes `main_arg11`. -/
theorem keep_arg11_5 (c : Dev nD) :
    W5 m ρ c (Proc.devRef .tc main_arg11) = W4 m ρ c (Proc.devRef .tc main_arg11) :=
  by host_keeps hostOps0_4

/-- No operation of the host stretch `hostOps0_3` writes `main_arg11`. -/
theorem keep_arg11_4 (c : Dev nD) :
    W4 m ρ c (Proc.devRef .tc main_arg11) = W3 m ρ c (Proc.devRef .tc main_arg11) :=
  by host_keeps hostOps0_3

/-- No operation of the host stretch `hostOps0_2` writes `main_arg11`. -/
theorem keep_arg11_3 (c : Dev nD) :
    W3 m ρ c (Proc.devRef .tc main_arg11) = W2 m ρ c (Proc.devRef .tc main_arg11) :=
  by host_keeps hostOps0_2

/-- No operation of the host stretch `hostOps0_1` writes `main_arg11`. -/
theorem keep_arg11_2 (c : Dev nD) :
    W2 m ρ c (Proc.devRef .tc main_arg11) = W1 m ρ c (Proc.devRef .tc main_arg11) :=
  by host_keeps hostOps0_1

/-- No operation of the host stretch `hostOps0` writes `main_arg11`. -/
theorem keep_arg11_1 (c : Dev nD) :
    W1 m ρ c (Proc.devRef .tc main_arg11) = W0 m ρ c (Proc.devRef .tc main_arg11) :=
  by host_keeps hostOps0

/-- Region 4 has no window on `main_arg12`. -/
theorem keep_arg12_14 (c : Dev nD) :
    W14 m ρ c (Proc.devRef .tc main_arg12) = W13 m ρ c (Proc.devRef .tc main_arg12) :=
  W14_of_ne m ρ c main_arg12 (by decide)

/-- No operation of the host stretch `hostOps4` writes `main_arg12`. -/
theorem keep_arg12_13 (c : Dev nD) :
    W13 m ρ c (Proc.devRef .tc main_arg12) = W12 m ρ c (Proc.devRef .tc main_arg12) :=
  by host_keeps hostOps4

/-- Region 3 has no window on `main_arg12`. -/
theorem keep_arg12_12 (c : Dev nD) :
    W12 m ρ c (Proc.devRef .tc main_arg12) = W11 m ρ c (Proc.devRef .tc main_arg12) :=
  W12_of_ne m ρ c main_arg12 (by decide)

/-- No operation of the host stretch `hostOps3` writes `main_arg12`. -/
theorem keep_arg12_11 (c : Dev nD) :
    W11 m ρ c (Proc.devRef .tc main_arg12) = W10 m ρ c (Proc.devRef .tc main_arg12) :=
  by host_keeps hostOps3

/-- Region 2 has no window on `main_arg12`. -/
theorem keep_arg12_10 (c : Dev nD) :
    W10 m ρ c (Proc.devRef .tc main_arg12) = W9 m ρ c (Proc.devRef .tc main_arg12) :=
  W10_of_ne m ρ c main_arg12 (by decide)

/-- No operation of the host stretch `hostOps2` writes `main_arg12`. -/
theorem keep_arg12_9 (c : Dev nD) :
    W9 m ρ c (Proc.devRef .tc main_arg12) = W8 m ρ c (Proc.devRef .tc main_arg12) :=
  by host_keeps hostOps2

/-- Region 1 has no window on `main_arg12`. -/
theorem keep_arg12_8 (c : Dev nD) :
    W8 m ρ c (Proc.devRef .tc main_arg12) = W7 m ρ c (Proc.devRef .tc main_arg12) :=
  W8_of_ne m ρ c main_arg12 (by decide)

/-- No operation of the host stretch `hostOps1` writes `main_arg12`. -/
theorem keep_arg12_7 (c : Dev nD) :
    W7 m ρ c (Proc.devRef .tc main_arg12) = W6 m ρ c (Proc.devRef .tc main_arg12) :=
  by host_keeps hostOps1

/-- Region 0 has no window on `main_arg12`. -/
theorem keep_arg12_6 (c : Dev nD) :
    W6 m ρ c (Proc.devRef .tc main_arg12) = W5 m ρ c (Proc.devRef .tc main_arg12) :=
  W6_of_ne m ρ c main_arg12 (by decide)

/-- No operation of the host stretch `hostOps0_4` writes `main_arg12`. -/
theorem keep_arg12_5 (c : Dev nD) :
    W5 m ρ c (Proc.devRef .tc main_arg12) = W4 m ρ c (Proc.devRef .tc main_arg12) :=
  by host_keeps hostOps0_4

/-- No operation of the host stretch `hostOps0_3` writes `main_arg12`. -/
theorem keep_arg12_4 (c : Dev nD) :
    W4 m ρ c (Proc.devRef .tc main_arg12) = W3 m ρ c (Proc.devRef .tc main_arg12) :=
  by host_keeps hostOps0_3

/-- No operation of the host stretch `hostOps0_2` writes `main_arg12`. -/
theorem keep_arg12_3 (c : Dev nD) :
    W3 m ρ c (Proc.devRef .tc main_arg12) = W2 m ρ c (Proc.devRef .tc main_arg12) :=
  by host_keeps hostOps0_2

/-- No operation of the host stretch `hostOps0_1` writes `main_arg12`. -/
theorem keep_arg12_2 (c : Dev nD) :
    W2 m ρ c (Proc.devRef .tc main_arg12) = W1 m ρ c (Proc.devRef .tc main_arg12) :=
  by host_keeps hostOps0_1

/-- No operation of the host stretch `hostOps0` writes `main_arg12`. -/
theorem keep_arg12_1 (c : Dev nD) :
    W1 m ρ c (Proc.devRef .tc main_arg12) = W0 m ρ c (Proc.devRef .tc main_arg12) :=
  by host_keeps hostOps0

/-- Region 4 has no window on `main_arg13`. -/
theorem keep_arg13_14 (c : Dev nD) :
    W14 m ρ c (Proc.devRef .tc main_arg13) = W13 m ρ c (Proc.devRef .tc main_arg13) :=
  W14_of_ne m ρ c main_arg13 (by decide)

/-- No operation of the host stretch `hostOps4` writes `main_arg13`. -/
theorem keep_arg13_13 (c : Dev nD) :
    W13 m ρ c (Proc.devRef .tc main_arg13) = W12 m ρ c (Proc.devRef .tc main_arg13) :=
  by host_keeps hostOps4

/-- Region 3 has no window on `main_arg13`. -/
theorem keep_arg13_12 (c : Dev nD) :
    W12 m ρ c (Proc.devRef .tc main_arg13) = W11 m ρ c (Proc.devRef .tc main_arg13) :=
  W12_of_ne m ρ c main_arg13 (by decide)

/-- No operation of the host stretch `hostOps3` writes `main_arg13`. -/
theorem keep_arg13_11 (c : Dev nD) :
    W11 m ρ c (Proc.devRef .tc main_arg13) = W10 m ρ c (Proc.devRef .tc main_arg13) :=
  by host_keeps hostOps3

/-- Region 2 has no window on `main_arg13`. -/
theorem keep_arg13_10 (c : Dev nD) :
    W10 m ρ c (Proc.devRef .tc main_arg13) = W9 m ρ c (Proc.devRef .tc main_arg13) :=
  W10_of_ne m ρ c main_arg13 (by decide)

/-- No operation of the host stretch `hostOps2` writes `main_arg13`. -/
theorem keep_arg13_9 (c : Dev nD) :
    W9 m ρ c (Proc.devRef .tc main_arg13) = W8 m ρ c (Proc.devRef .tc main_arg13) :=
  by host_keeps hostOps2

/-- Region 1 has no window on `main_arg13`. -/
theorem keep_arg13_8 (c : Dev nD) :
    W8 m ρ c (Proc.devRef .tc main_arg13) = W7 m ρ c (Proc.devRef .tc main_arg13) :=
  W8_of_ne m ρ c main_arg13 (by decide)

/-- No operation of the host stretch `hostOps1` writes `main_arg13`. -/
theorem keep_arg13_7 (c : Dev nD) :
    W7 m ρ c (Proc.devRef .tc main_arg13) = W6 m ρ c (Proc.devRef .tc main_arg13) :=
  by host_keeps hostOps1

/-- Region 0 has no window on `main_arg13`. -/
theorem keep_arg13_6 (c : Dev nD) :
    W6 m ρ c (Proc.devRef .tc main_arg13) = W5 m ρ c (Proc.devRef .tc main_arg13) :=
  W6_of_ne m ρ c main_arg13 (by decide)

/-- No operation of the host stretch `hostOps0_4` writes `main_arg13`. -/
theorem keep_arg13_5 (c : Dev nD) :
    W5 m ρ c (Proc.devRef .tc main_arg13) = W4 m ρ c (Proc.devRef .tc main_arg13) :=
  by host_keeps hostOps0_4

/-- No operation of the host stretch `hostOps0_3` writes `main_arg13`. -/
theorem keep_arg13_4 (c : Dev nD) :
    W4 m ρ c (Proc.devRef .tc main_arg13) = W3 m ρ c (Proc.devRef .tc main_arg13) :=
  by host_keeps hostOps0_3

/-- No operation of the host stretch `hostOps0_2` writes `main_arg13`. -/
theorem keep_arg13_3 (c : Dev nD) :
    W3 m ρ c (Proc.devRef .tc main_arg13) = W2 m ρ c (Proc.devRef .tc main_arg13) :=
  by host_keeps hostOps0_2

/-- No operation of the host stretch `hostOps0_1` writes `main_arg13`. -/
theorem keep_arg13_2 (c : Dev nD) :
    W2 m ρ c (Proc.devRef .tc main_arg13) = W1 m ρ c (Proc.devRef .tc main_arg13) :=
  by host_keeps hostOps0_1

/-- No operation of the host stretch `hostOps0` writes `main_arg13`. -/
theorem keep_arg13_1 (c : Dev nD) :
    W1 m ρ c (Proc.devRef .tc main_arg13) = W0 m ρ c (Proc.devRef .tc main_arg13) :=
  by host_keeps hostOps0

/-- Region 4 has no window on `main_arg14`. -/
theorem keep_arg14_14 (c : Dev nD) :
    W14 m ρ c (Proc.devRef .tc main_arg14) = W13 m ρ c (Proc.devRef .tc main_arg14) :=
  W14_of_ne m ρ c main_arg14 (by decide)

/-- No operation of the host stretch `hostOps4` writes `main_arg14`. -/
theorem keep_arg14_13 (c : Dev nD) :
    W13 m ρ c (Proc.devRef .tc main_arg14) = W12 m ρ c (Proc.devRef .tc main_arg14) :=
  by host_keeps hostOps4

/-- Region 3 has no window on `main_arg14`. -/
theorem keep_arg14_12 (c : Dev nD) :
    W12 m ρ c (Proc.devRef .tc main_arg14) = W11 m ρ c (Proc.devRef .tc main_arg14) :=
  W12_of_ne m ρ c main_arg14 (by decide)

/-- No operation of the host stretch `hostOps3` writes `main_arg14`. -/
theorem keep_arg14_11 (c : Dev nD) :
    W11 m ρ c (Proc.devRef .tc main_arg14) = W10 m ρ c (Proc.devRef .tc main_arg14) :=
  by host_keeps hostOps3

/-- Region 2 has no window on `main_arg14`. -/
theorem keep_arg14_10 (c : Dev nD) :
    W10 m ρ c (Proc.devRef .tc main_arg14) = W9 m ρ c (Proc.devRef .tc main_arg14) :=
  W10_of_ne m ρ c main_arg14 (by decide)

/-- No operation of the host stretch `hostOps2` writes `main_arg14`. -/
theorem keep_arg14_9 (c : Dev nD) :
    W9 m ρ c (Proc.devRef .tc main_arg14) = W8 m ρ c (Proc.devRef .tc main_arg14) :=
  by host_keeps hostOps2

/-- Region 1 has no window on `main_arg14`. -/
theorem keep_arg14_8 (c : Dev nD) :
    W8 m ρ c (Proc.devRef .tc main_arg14) = W7 m ρ c (Proc.devRef .tc main_arg14) :=
  W8_of_ne m ρ c main_arg14 (by decide)

/-- No operation of the host stretch `hostOps1` writes `main_arg14`. -/
theorem keep_arg14_7 (c : Dev nD) :
    W7 m ρ c (Proc.devRef .tc main_arg14) = W6 m ρ c (Proc.devRef .tc main_arg14) :=
  by host_keeps hostOps1

/-- Region 0 has no window on `main_arg14`. -/
theorem keep_arg14_6 (c : Dev nD) :
    W6 m ρ c (Proc.devRef .tc main_arg14) = W5 m ρ c (Proc.devRef .tc main_arg14) :=
  W6_of_ne m ρ c main_arg14 (by decide)

/-- No operation of the host stretch `hostOps0_4` writes `main_arg14`. -/
theorem keep_arg14_5 (c : Dev nD) :
    W5 m ρ c (Proc.devRef .tc main_arg14) = W4 m ρ c (Proc.devRef .tc main_arg14) :=
  by host_keeps hostOps0_4

/-- No operation of the host stretch `hostOps0_3` writes `main_arg14`. -/
theorem keep_arg14_4 (c : Dev nD) :
    W4 m ρ c (Proc.devRef .tc main_arg14) = W3 m ρ c (Proc.devRef .tc main_arg14) :=
  by host_keeps hostOps0_3

/-- No operation of the host stretch `hostOps0_2` writes `main_arg14`. -/
theorem keep_arg14_3 (c : Dev nD) :
    W3 m ρ c (Proc.devRef .tc main_arg14) = W2 m ρ c (Proc.devRef .tc main_arg14) :=
  by host_keeps hostOps0_2

/-- No operation of the host stretch `hostOps0_1` writes `main_arg14`. -/
theorem keep_arg14_2 (c : Dev nD) :
    W2 m ρ c (Proc.devRef .tc main_arg14) = W1 m ρ c (Proc.devRef .tc main_arg14) :=
  by host_keeps hostOps0_1

/-- No operation of the host stretch `hostOps0` writes `main_arg14`. -/
theorem keep_arg14_1 (c : Dev nD) :
    W1 m ρ c (Proc.devRef .tc main_arg14) = W0 m ρ c (Proc.devRef .tc main_arg14) :=
  by host_keeps hostOps0

/-- No operation of the host stretch `hostOps6` writes `main_arg15`. -/
theorem keep_arg15_17 (c : Dev nD) :
    W17 m ρ c (Proc.devRef .tc main_arg15) = W16 m ρ c (Proc.devRef .tc main_arg15) :=
  by host_keeps hostOps6

/-- Region 5 has no window on `main_arg15`. -/
theorem keep_arg15_16 (c : Dev nD) :
    W16 m ρ c (Proc.devRef .tc main_arg15) = W15 m ρ c (Proc.devRef .tc main_arg15) :=
  W16_of_ne m ρ c main_arg15 (by decide)

/-- No operation of the host stretch `hostOps5` writes `main_arg15`. -/
theorem keep_arg15_15 (c : Dev nD) :
    W15 m ρ c (Proc.devRef .tc main_arg15) = W14 m ρ c (Proc.devRef .tc main_arg15) :=
  by host_keeps hostOps5

/-- Region 4 has no window on `main_arg15`. -/
theorem keep_arg15_14 (c : Dev nD) :
    W14 m ρ c (Proc.devRef .tc main_arg15) = W13 m ρ c (Proc.devRef .tc main_arg15) :=
  W14_of_ne m ρ c main_arg15 (by decide)

/-- No operation of the host stretch `hostOps4` writes `main_arg15`. -/
theorem keep_arg15_13 (c : Dev nD) :
    W13 m ρ c (Proc.devRef .tc main_arg15) = W12 m ρ c (Proc.devRef .tc main_arg15) :=
  by host_keeps hostOps4

/-- Region 3 has no window on `main_arg15`. -/
theorem keep_arg15_12 (c : Dev nD) :
    W12 m ρ c (Proc.devRef .tc main_arg15) = W11 m ρ c (Proc.devRef .tc main_arg15) :=
  W12_of_ne m ρ c main_arg15 (by decide)

/-- No operation of the host stretch `hostOps3` writes `main_arg15`. -/
theorem keep_arg15_11 (c : Dev nD) :
    W11 m ρ c (Proc.devRef .tc main_arg15) = W10 m ρ c (Proc.devRef .tc main_arg15) :=
  by host_keeps hostOps3

/-- Region 2 has no window on `main_arg15`. -/
theorem keep_arg15_10 (c : Dev nD) :
    W10 m ρ c (Proc.devRef .tc main_arg15) = W9 m ρ c (Proc.devRef .tc main_arg15) :=
  W10_of_ne m ρ c main_arg15 (by decide)

/-- No operation of the host stretch `hostOps2` writes `main_arg15`. -/
theorem keep_arg15_9 (c : Dev nD) :
    W9 m ρ c (Proc.devRef .tc main_arg15) = W8 m ρ c (Proc.devRef .tc main_arg15) :=
  by host_keeps hostOps2

/-- Region 1 has no window on `main_arg15`. -/
theorem keep_arg15_8 (c : Dev nD) :
    W8 m ρ c (Proc.devRef .tc main_arg15) = W7 m ρ c (Proc.devRef .tc main_arg15) :=
  W8_of_ne m ρ c main_arg15 (by decide)

/-- No operation of the host stretch `hostOps1` writes `main_arg15`. -/
theorem keep_arg15_7 (c : Dev nD) :
    W7 m ρ c (Proc.devRef .tc main_arg15) = W6 m ρ c (Proc.devRef .tc main_arg15) :=
  by host_keeps hostOps1

/-- Region 0 has no window on `main_arg15`. -/
theorem keep_arg15_6 (c : Dev nD) :
    W6 m ρ c (Proc.devRef .tc main_arg15) = W5 m ρ c (Proc.devRef .tc main_arg15) :=
  W6_of_ne m ρ c main_arg15 (by decide)

/-- No operation of the host stretch `hostOps0_4` writes `main_arg15`. -/
theorem keep_arg15_5 (c : Dev nD) :
    W5 m ρ c (Proc.devRef .tc main_arg15) = W4 m ρ c (Proc.devRef .tc main_arg15) :=
  by host_keeps hostOps0_4

/-- No operation of the host stretch `hostOps0_3` writes `main_arg15`. -/
theorem keep_arg15_4 (c : Dev nD) :
    W4 m ρ c (Proc.devRef .tc main_arg15) = W3 m ρ c (Proc.devRef .tc main_arg15) :=
  by host_keeps hostOps0_3

/-- No operation of the host stretch `hostOps0_2` writes `main_arg15`. -/
theorem keep_arg15_3 (c : Dev nD) :
    W3 m ρ c (Proc.devRef .tc main_arg15) = W2 m ρ c (Proc.devRef .tc main_arg15) :=
  by host_keeps hostOps0_2

/-- No operation of the host stretch `hostOps0_1` writes `main_arg15`. -/
theorem keep_arg15_2 (c : Dev nD) :
    W2 m ρ c (Proc.devRef .tc main_arg15) = W1 m ρ c (Proc.devRef .tc main_arg15) :=
  by host_keeps hostOps0_1

/-- No operation of the host stretch `hostOps0` writes `main_arg15`. -/
theorem keep_arg15_1 (c : Dev nD) :
    W1 m ρ c (Proc.devRef .tc main_arg15) = W0 m ρ c (Proc.devRef .tc main_arg15) :=
  by host_keeps hostOps0

/-- Region 5 has no window on `main_arg16`. -/
theorem keep_arg16_16 (c : Dev nD) :
    W16 m ρ c (Proc.devRef .tc main_arg16) = W15 m ρ c (Proc.devRef .tc main_arg16) :=
  W16_of_ne m ρ c main_arg16 (by decide)

/-- No operation of the host stretch `hostOps5` writes `main_arg16`. -/
theorem keep_arg16_15 (c : Dev nD) :
    W15 m ρ c (Proc.devRef .tc main_arg16) = W14 m ρ c (Proc.devRef .tc main_arg16) :=
  by host_keeps hostOps5

/-- Region 4 has no window on `main_arg16`. -/
theorem keep_arg16_14 (c : Dev nD) :
    W14 m ρ c (Proc.devRef .tc main_arg16) = W13 m ρ c (Proc.devRef .tc main_arg16) :=
  W14_of_ne m ρ c main_arg16 (by decide)

/-- No operation of the host stretch `hostOps4` writes `main_arg16`. -/
theorem keep_arg16_13 (c : Dev nD) :
    W13 m ρ c (Proc.devRef .tc main_arg16) = W12 m ρ c (Proc.devRef .tc main_arg16) :=
  by host_keeps hostOps4

/-- Region 3 has no window on `main_arg16`. -/
theorem keep_arg16_12 (c : Dev nD) :
    W12 m ρ c (Proc.devRef .tc main_arg16) = W11 m ρ c (Proc.devRef .tc main_arg16) :=
  W12_of_ne m ρ c main_arg16 (by decide)

/-- No operation of the host stretch `hostOps3` writes `main_arg16`. -/
theorem keep_arg16_11 (c : Dev nD) :
    W11 m ρ c (Proc.devRef .tc main_arg16) = W10 m ρ c (Proc.devRef .tc main_arg16) :=
  by host_keeps hostOps3

/-- Region 2 has no window on `main_arg16`. -/
theorem keep_arg16_10 (c : Dev nD) :
    W10 m ρ c (Proc.devRef .tc main_arg16) = W9 m ρ c (Proc.devRef .tc main_arg16) :=
  W10_of_ne m ρ c main_arg16 (by decide)

/-- No operation of the host stretch `hostOps2` writes `main_arg16`. -/
theorem keep_arg16_9 (c : Dev nD) :
    W9 m ρ c (Proc.devRef .tc main_arg16) = W8 m ρ c (Proc.devRef .tc main_arg16) :=
  by host_keeps hostOps2

/-- Region 1 has no window on `main_arg16`. -/
theorem keep_arg16_8 (c : Dev nD) :
    W8 m ρ c (Proc.devRef .tc main_arg16) = W7 m ρ c (Proc.devRef .tc main_arg16) :=
  W8_of_ne m ρ c main_arg16 (by decide)

/-- No operation of the host stretch `hostOps1` writes `main_arg16`. -/
theorem keep_arg16_7 (c : Dev nD) :
    W7 m ρ c (Proc.devRef .tc main_arg16) = W6 m ρ c (Proc.devRef .tc main_arg16) :=
  by host_keeps hostOps1

/-- Region 0 has no window on `main_arg16`. -/
theorem keep_arg16_6 (c : Dev nD) :
    W6 m ρ c (Proc.devRef .tc main_arg16) = W5 m ρ c (Proc.devRef .tc main_arg16) :=
  W6_of_ne m ρ c main_arg16 (by decide)

/-- No operation of the host stretch `hostOps0_4` writes `main_arg16`. -/
theorem keep_arg16_5 (c : Dev nD) :
    W5 m ρ c (Proc.devRef .tc main_arg16) = W4 m ρ c (Proc.devRef .tc main_arg16) :=
  by host_keeps hostOps0_4

/-- No operation of the host stretch `hostOps0_3` writes `main_arg16`. -/
theorem keep_arg16_4 (c : Dev nD) :
    W4 m ρ c (Proc.devRef .tc main_arg16) = W3 m ρ c (Proc.devRef .tc main_arg16) :=
  by host_keeps hostOps0_3

/-- No operation of the host stretch `hostOps0_2` writes `main_arg16`. -/
theorem keep_arg16_3 (c : Dev nD) :
    W3 m ρ c (Proc.devRef .tc main_arg16) = W2 m ρ c (Proc.devRef .tc main_arg16) :=
  by host_keeps hostOps0_2

/-- No operation of the host stretch `hostOps0_1` writes `main_arg16`. -/
theorem keep_arg16_2 (c : Dev nD) :
    W2 m ρ c (Proc.devRef .tc main_arg16) = W1 m ρ c (Proc.devRef .tc main_arg16) :=
  by host_keeps hostOps0_1

/-- No operation of the host stretch `hostOps0` writes `main_arg16`. -/
theorem keep_arg16_1 (c : Dev nD) :
    W1 m ρ c (Proc.devRef .tc main_arg16) = W0 m ρ c (Proc.devRef .tc main_arg16) :=
  by host_keeps hostOps0

/-- No operation of the host stretch `hostOps1` writes `main_v10`. -/
theorem keep_v10_7 (c : Dev nD) :
    W7 m ρ c (Proc.devRef .tc main_v10) = W6 m ρ c (Proc.devRef .tc main_v10) :=
  by host_keeps hostOps1

/-- Region 0 only reads `main_v10` (its input window 1). -/
theorem keep_v10_6 (c : Dev nD) :
    W6 m ρ c (Proc.devRef .tc main_v10) = W5 m ρ c (Proc.devRef .tc main_v10) :=
  (W6_arr m ρ c 1).trans (((dat0 (V5 m ρ) c).arrAt_in 1 rfl _).trans (A_eq0 (V5 m ρ) c 1))

/-- No operation of the host stretch `hostOps2` writes `main_v10`. -/
theorem keep_v10_9 (c : Dev nD) :
    W9 m ρ c (Proc.devRef .tc main_v10) = W8 m ρ c (Proc.devRef .tc main_v10) :=
  by host_keeps hostOps2

/-- Region 1 only reads `main_v10` (its input window 2). -/
theorem keep_v10_8 (c : Dev nD) :
    W8 m ρ c (Proc.devRef .tc main_v10) = W7 m ρ c (Proc.devRef .tc main_v10) :=
  (W8_arr m ρ c 2).trans (((dat1 (V7 m ρ) c).arrAt_in 2 rfl _).trans (A_eq1 (V7 m ρ) c 2))

/-- No operation of the host stretch `hostOps3` writes `main_v10`. -/
theorem keep_v10_11 (c : Dev nD) :
    W11 m ρ c (Proc.devRef .tc main_v10) = W10 m ρ c (Proc.devRef .tc main_v10) :=
  by host_keeps hostOps3

/-- Region 2 only reads `main_v10` (its input window 2). -/
theorem keep_v10_10 (c : Dev nD) :
    W10 m ρ c (Proc.devRef .tc main_v10) = W9 m ρ c (Proc.devRef .tc main_v10) :=
  (W10_arr m ρ c 2).trans (((dat2 (V9 m ρ) c).arrAt_in 2 rfl _).trans (A_eq2 (V9 m ρ) c 2))

/-- No operation of the host stretch `hostOps1` writes `main_v12`. -/
theorem keep_v12_7 (c : Dev nD) :
    W7 m ρ c (Proc.devRef .tc main_v12) = W6 m ρ c (Proc.devRef .tc main_v12) :=
  by host_keeps hostOps1

/-- Region 0 has no window on `main_v12`. -/
theorem keep_v12_6 (c : Dev nD) :
    W6 m ρ c (Proc.devRef .tc main_v12) = W5 m ρ c (Proc.devRef .tc main_v12) :=
  W6_of_ne m ρ c main_v12 (by decide)

/-- No operation of the host stretch `hostOps2` writes `main_v12`. -/
theorem keep_v12_9 (c : Dev nD) :
    W9 m ρ c (Proc.devRef .tc main_v12) = W8 m ρ c (Proc.devRef .tc main_v12) :=
  by host_keeps hostOps2

/-- Region 1 only reads `main_v12` (its input window 1). -/
theorem keep_v12_8 (c : Dev nD) :
    W8 m ρ c (Proc.devRef .tc main_v12) = W7 m ρ c (Proc.devRef .tc main_v12) :=
  (W8_arr m ρ c 1).trans (((dat1 (V7 m ρ) c).arrAt_in 1 rfl _).trans (A_eq1 (V7 m ρ) c 1))

/-- No operation of the host stretch `hostOps3` writes `main_v12`. -/
theorem keep_v12_11 (c : Dev nD) :
    W11 m ρ c (Proc.devRef .tc main_v12) = W10 m ρ c (Proc.devRef .tc main_v12) :=
  by host_keeps hostOps3

/-- Region 2 only reads `main_v12` (its input window 1). -/
theorem keep_v12_10 (c : Dev nD) :
    W10 m ρ c (Proc.devRef .tc main_v12) = W9 m ρ c (Proc.devRef .tc main_v12) :=
  (W10_arr m ρ c 1).trans (((dat2 (V9 m ρ) c).arrAt_in 1 rfl _).trans (A_eq2 (V9 m ρ) c 1))

/-- No operation of the host stretch `hostOps4` writes `main_v12`. -/
theorem keep_v12_13 (c : Dev nD) :
    W13 m ρ c (Proc.devRef .tc main_v12) = W12 m ρ c (Proc.devRef .tc main_v12) :=
  by host_keeps hostOps4

/-- Region 3 only reads `main_v12` (its input window 1). -/
theorem keep_v12_12 (c : Dev nD) :
    W12 m ρ c (Proc.devRef .tc main_v12) = W11 m ρ c (Proc.devRef .tc main_v12) :=
  (W12_arr m ρ c 1).trans (((dat3 (V11 m ρ) c).arrAt_in 1 rfl _).trans (A_eq3 (V11 m ρ) c 1))

/-- Region 0 has no window on `main_v13`. -/
theorem keep_v13_6 (c : Dev nD) :
    W6 m ρ c (Proc.devRef .tc main_v13) = W5 m ρ c (Proc.devRef .tc main_v13) :=
  W6_of_ne m ρ c main_v13 (by decide)

/-- Region 1 has no window on `main_v13`. -/
theorem keep_v13_8 (c : Dev nD) :
    W8 m ρ c (Proc.devRef .tc main_v13) = W7 m ρ c (Proc.devRef .tc main_v13) :=
  W8_of_ne m ρ c main_v13 (by decide)

/-- No operation of the host stretch `hostOps1` writes `main_v13`. -/
theorem keep_v13_7 (c : Dev nD) :
    W7 m ρ c (Proc.devRef .tc main_v13) = W6 m ρ c (Proc.devRef .tc main_v13) :=
  by host_keeps hostOps1

/-- Region 2 has no window on `main_v13`. -/
theorem keep_v13_10 (c : Dev nD) :
    W10 m ρ c (Proc.devRef .tc main_v13) = W9 m ρ c (Proc.devRef .tc main_v13) :=
  W10_of_ne m ρ c main_v13 (by decide)

/-- No operation of the host stretch `hostOps2` writes `main_v13`. -/
theorem keep_v13_9 (c : Dev nD) :
    W9 m ρ c (Proc.devRef .tc main_v13) = W8 m ρ c (Proc.devRef .tc main_v13) :=
  by host_keeps hostOps2

/-- No operation of the host stretch `hostOps5` writes `main_v43_0`. -/
theorem keep_v43_0_15 (c : Dev nD) :
    W15 m ρ c (Proc.devRef .tc main_v43_0) = W14 m ρ c (Proc.devRef .tc main_v43_0) :=
  by host_keeps hostOps5

/-- Region 4 has no window on `main_v43_0`. -/
theorem keep_v43_0_14 (c : Dev nD) :
    W14 m ρ c (Proc.devRef .tc main_v43_0) = W13 m ρ c (Proc.devRef .tc main_v43_0) :=
  W14_of_ne m ρ c main_v43_0 (by decide)

/-- No operation of the host stretch `hostOps4` writes `main_v43_0`. -/
theorem keep_v43_0_13 (c : Dev nD) :
    W13 m ρ c (Proc.devRef .tc main_v43_0) = W12 m ρ c (Proc.devRef .tc main_v43_0) :=
  by host_keeps hostOps4

/-- Region 3 has no window on `main_v43_0`. -/
theorem keep_v43_0_12 (c : Dev nD) :
    W12 m ρ c (Proc.devRef .tc main_v43_0) = W11 m ρ c (Proc.devRef .tc main_v43_0) :=
  W12_of_ne m ρ c main_v43_0 (by decide)

/-- No operation of the host stretch `hostOps3` writes `main_v43_0`. -/
theorem keep_v43_0_11 (c : Dev nD) :
    W11 m ρ c (Proc.devRef .tc main_v43_0) = W10 m ρ c (Proc.devRef .tc main_v43_0) :=
  by host_keeps hostOps3

/-- Region 2 has no window on `main_v43_0`. -/
theorem keep_v43_0_10 (c : Dev nD) :
    W10 m ρ c (Proc.devRef .tc main_v43_0) = W9 m ρ c (Proc.devRef .tc main_v43_0) :=
  W10_of_ne m ρ c main_v43_0 (by decide)

/-- No operation of the host stretch `hostOps2` writes `main_v43_0`. -/
theorem keep_v43_0_9 (c : Dev nD) :
    W9 m ρ c (Proc.devRef .tc main_v43_0) = W8 m ρ c (Proc.devRef .tc main_v43_0) :=
  by host_keeps hostOps2

/-- No operation of the host stretch `hostOps5` writes `main_v70_0`. -/
theorem keep_v70_0_15 (c : Dev nD) :
    W15 m ρ c (Proc.devRef .tc main_v70_0) = W14 m ρ c (Proc.devRef .tc main_v70_0) :=
  by host_keeps hostOps5

/-- Region 4 has no window on `main_v70_0`. -/
theorem keep_v70_0_14 (c : Dev nD) :
    W14 m ρ c (Proc.devRef .tc main_v70_0) = W13 m ρ c (Proc.devRef .tc main_v70_0) :=
  W14_of_ne m ρ c main_v70_0 (by decide)

/-- No operation of the host stretch `hostOps4` writes `main_v70_0`. -/
theorem keep_v70_0_13 (c : Dev nD) :
    W13 m ρ c (Proc.devRef .tc main_v70_0) = W12 m ρ c (Proc.devRef .tc main_v70_0) :=
  by host_keeps hostOps4

/-- Region 3 has no window on `main_v70_0`. -/
theorem keep_v70_0_12 (c : Dev nD) :
    W12 m ρ c (Proc.devRef .tc main_v70_0) = W11 m ρ c (Proc.devRef .tc main_v70_0) :=
  W12_of_ne m ρ c main_v70_0 (by decide)

/-- No operation of the host stretch `hostOps3` writes `main_v70_0`. -/
theorem keep_v70_0_11 (c : Dev nD) :
    W11 m ρ c (Proc.devRef .tc main_v70_0) = W10 m ρ c (Proc.devRef .tc main_v70_0) :=
  by host_keeps hostOps3

/-- No operation of the host stretch `hostOps5` writes `main_v97_0`. -/
theorem keep_v97_0_15 (c : Dev nD) :
    W15 m ρ c (Proc.devRef .tc main_v97_0) = W14 m ρ c (Proc.devRef .tc main_v97_0) :=
  by host_keeps hostOps5

/-- Region 4 has no window on `main_v97_0`. -/
theorem keep_v97_0_14 (c : Dev nD) :
    W14 m ρ c (Proc.devRef .tc main_v97_0) = W13 m ρ c (Proc.devRef .tc main_v97_0) :=
  W14_of_ne m ρ c main_v97_0 (by decide)

/-- No operation of the host stretch `hostOps4` writes `main_v97_0`. -/
theorem keep_v97_0_13 (c : Dev nD) :
    W13 m ρ c (Proc.devRef .tc main_v97_0) = W12 m ρ c (Proc.devRef .tc main_v97_0) :=
  by host_keeps hostOps4

/-- No operation of the host stretch `hostOps5` writes `main_v122`. -/
theorem keep_v122_15 (c : Dev nD) :
    W15 m ρ c (Proc.devRef .tc main_v122) = W14 m ρ c (Proc.devRef .tc main_v122) :=
  by host_keeps hostOps5

/-- No operation of the host stretch `hostOps6` writes `main_v132`. -/
theorem keep_v132_17 (c : Dev nD) :
    W17 m ρ c (Proc.devRef .tc main_v132) = W16 m ρ c (Proc.devRef .tc main_v132) :=
  by host_keeps hostOps6

/-- No operation of the host stretch `hostOps0_1` writes `main_v0`. -/
theorem keep_v0_2 (c : Dev nD) :
    W2 m ρ c (Proc.devRef .tc main_v0) = W1 m ρ c (Proc.devRef .tc main_v0) :=
  by host_keeps hostOps0_1

/-- No operation of the host stretch `hostOps0_3` writes `main_v4`. -/
theorem keep_v4_4 (c : Dev nD) :
    W4 m ρ c (Proc.devRef .tc main_v4) = W3 m ρ c (Proc.devRef .tc main_v4) :=
  by host_keeps hostOps0_3

/-- No operation of the host stretch `hostOps0_2` writes `main_v4`. -/
theorem keep_v4_3 (c : Dev nD) :
    W3 m ρ c (Proc.devRef .tc main_v4) = W2 m ρ c (Proc.devRef .tc main_v4) :=
  by host_keeps hostOps0_2

/-! ## The argument arrays read back to the launch memory -/

/-- At boundary 5 the argument `main_arg0` still holds its launch contents. -/
theorem arg0_at5 (c : Dev nD) :
    W5 m ρ c (Proc.devRef .tc main_arg0) = m ((c : Thread nD τ).loc main_arg0) :=
  (keep_arg0_5 m ρ c).trans ((keep_arg0_4 m ρ c).trans ((keep_arg0_3 m ρ c).trans ((keep_arg0_2 m ρ c).trans ((keep_arg0_1 m ρ c).trans ((rfl : W0 m ρ c (Proc.devRef .tc main_arg0) = m ((c : Thread nD τ).loc main_arg0)))))))

/-- At boundary 6 the argument `main_arg1` still holds its launch contents. -/
theorem arg1_at6 (c : Dev nD) :
    W6 m ρ c (Proc.devRef .tc main_arg1) = m ((c : Thread nD τ).loc main_arg1) :=
  (keep_arg1_6 m ρ c).trans ((keep_arg1_5 m ρ c).trans ((keep_arg1_4 m ρ c).trans ((keep_arg1_3 m ρ c).trans ((keep_arg1_2 m ρ c).trans ((keep_arg1_1 m ρ c).trans ((rfl : W0 m ρ c (Proc.devRef .tc main_arg1) = m ((c : Thread nD τ).loc main_arg1))))))))

/-- At boundary 8 the argument `main_arg1` still holds its launch contents. -/
theorem arg1_at8 (c : Dev nD) :
    W8 m ρ c (Proc.devRef .tc main_arg1) = m ((c : Thread nD τ).loc main_arg1) :=
  (keep_arg1_8 m ρ c).trans ((keep_arg1_7 m ρ c).trans ((arg1_at6 m ρ c)))

/-- At boundary 10 the argument `main_arg1` still holds its launch contents. -/
theorem arg1_at10 (c : Dev nD) :
    W10 m ρ c (Proc.devRef .tc main_arg1) = m ((c : Thread nD τ).loc main_arg1) :=
  (keep_arg1_10 m ρ c).trans ((keep_arg1_9 m ρ c).trans ((arg1_at8 m ρ c)))

/-- At boundary 12 the argument `main_arg1` still holds its launch contents. -/
theorem arg1_at12 (c : Dev nD) :
    W12 m ρ c (Proc.devRef .tc main_arg1) = m ((c : Thread nD τ).loc main_arg1) :=
  (keep_arg1_12 m ρ c).trans ((keep_arg1_11 m ρ c).trans ((arg1_at10 m ρ c)))

/-- At boundary 2 the argument `main_arg2` still holds its launch contents. -/
theorem arg2_at2 (c : Dev nD) :
    W2 m ρ c (Proc.devRef .tc main_arg2) = m ((c : Thread nD τ).loc main_arg2) :=
  (keep_arg2_2 m ρ c).trans ((keep_arg2_1 m ρ c).trans ((rfl : W0 m ρ c (Proc.devRef .tc main_arg2) = m ((c : Thread nD τ).loc main_arg2))))

/-- At boundary 6 the argument `main_arg2` still holds its launch contents. -/
theorem arg2_at6 (c : Dev nD) :
    W6 m ρ c (Proc.devRef .tc main_arg2) = m ((c : Thread nD τ).loc main_arg2) :=
  (keep_arg2_6 m ρ c).trans ((keep_arg2_5 m ρ c).trans ((keep_arg2_4 m ρ c).trans ((keep_arg2_3 m ρ c).trans ((arg2_at2 m ρ c)))))

/-- At boundary 8 the argument `main_arg2` still holds its launch contents. -/
theorem arg2_at8 (c : Dev nD) :
    W8 m ρ c (Proc.devRef .tc main_arg2) = m ((c : Thread nD τ).loc main_arg2) :=
  (keep_arg2_8 m ρ c).trans ((keep_arg2_7 m ρ c).trans ((arg2_at6 m ρ c)))

/-- At boundary 10 the argument `main_arg2` still holds its launch contents. -/
theorem arg2_at10 (c : Dev nD) :
    W10 m ρ c (Proc.devRef .tc main_arg2) = m ((c : Thread nD τ).loc main_arg2) :=
  (keep_arg2_10 m ρ c).trans ((keep_arg2_9 m ρ c).trans ((arg2_at8 m ρ c)))

/-- At boundary 12 the argument `main_arg2` still holds its launch contents. -/
theorem arg2_at12 (c : Dev nD) :
    W12 m ρ c (Proc.devRef .tc main_arg2) = m ((c : Thread nD τ).loc main_arg2) :=
  (keep_arg2_12 m ρ c).trans ((keep_arg2_11 m ρ c).trans ((arg2_at10 m ρ c)))

/-- At boundary 4 the argument `main_arg3` still holds its launch contents. -/
theorem arg3_at4 (c : Dev nD) :
    W4 m ρ c (Proc.devRef .tc main_arg3) = m ((c : Thread nD τ).loc main_arg3) :=
  (keep_arg3_4 m ρ c).trans ((keep_arg3_3 m ρ c).trans ((keep_arg3_2 m ρ c).trans ((keep_arg3_1 m ρ c).trans ((rfl : W0 m ρ c (Proc.devRef .tc main_arg3) = m ((c : Thread nD τ).loc main_arg3))))))

/-- At boundary 6 the argument `main_arg3` still holds its launch contents. -/
theorem arg3_at6 (c : Dev nD) :
    W6 m ρ c (Proc.devRef .tc main_arg3) = m ((c : Thread nD τ).loc main_arg3) :=
  (keep_arg3_6 m ρ c).trans ((keep_arg3_5 m ρ c).trans ((arg3_at4 m ρ c)))

/-- At boundary 8 the argument `main_arg3` still holds its launch contents. -/
theorem arg3_at8 (c : Dev nD) :
    W8 m ρ c (Proc.devRef .tc main_arg3) = m ((c : Thread nD τ).loc main_arg3) :=
  (keep_arg3_8 m ρ c).trans ((keep_arg3_7 m ρ c).trans ((arg3_at6 m ρ c)))

/-- At boundary 10 the argument `main_arg3` still holds its launch contents. -/
theorem arg3_at10 (c : Dev nD) :
    W10 m ρ c (Proc.devRef .tc main_arg3) = m ((c : Thread nD τ).loc main_arg3) :=
  (keep_arg3_10 m ρ c).trans ((keep_arg3_9 m ρ c).trans ((arg3_at8 m ρ c)))

/-- At boundary 12 the argument `main_arg4` still holds its launch contents. -/
theorem arg4_at12 (c : Dev nD) :
    W12 m ρ c (Proc.devRef .tc main_arg4) = m ((c : Thread nD τ).loc main_arg4) :=
  (keep_arg4_12 m ρ c).trans ((keep_arg4_11 m ρ c).trans ((keep_arg4_10 m ρ c).trans ((keep_arg4_9 m ρ c).trans ((keep_arg4_8 m ρ c).trans ((keep_arg4_7 m ρ c).trans ((keep_arg4_6 m ρ c).trans ((keep_arg4_5 m ρ c).trans ((keep_arg4_4 m ρ c).trans ((keep_arg4_3 m ρ c).trans ((keep_arg4_2 m ρ c).trans ((keep_arg4_1 m ρ c).trans ((rfl : W0 m ρ c (Proc.devRef .tc main_arg4) = m ((c : Thread nD τ).loc main_arg4))))))))))))))

/-- At boundary 6 the argument `main_arg5` still holds its launch contents. -/
theorem arg5_at6 (c : Dev nD) :
    W6 m ρ c (Proc.devRef .tc main_arg5) = m ((c : Thread nD τ).loc main_arg5) :=
  (keep_arg5_6 m ρ c).trans ((keep_arg5_5 m ρ c).trans ((keep_arg5_4 m ρ c).trans ((keep_arg5_3 m ρ c).trans ((keep_arg5_2 m ρ c).trans ((keep_arg5_1 m ρ c).trans ((rfl : W0 m ρ c (Proc.devRef .tc main_arg5) = m ((c : Thread nD τ).loc main_arg5))))))))

/-- At boundary 8 the argument `main_arg5` still holds its launch contents. -/
theorem arg5_at8 (c : Dev nD) :
    W8 m ρ c (Proc.devRef .tc main_arg5) = m ((c : Thread nD τ).loc main_arg5) :=
  (keep_arg5_8 m ρ c).trans ((keep_arg5_7 m ρ c).trans ((arg5_at6 m ρ c)))

/-- At boundary 10 the argument `main_arg5` still holds its launch contents. -/
theorem arg5_at10 (c : Dev nD) :
    W10 m ρ c (Proc.devRef .tc main_arg5) = m ((c : Thread nD τ).loc main_arg5) :=
  (keep_arg5_10 m ρ c).trans ((keep_arg5_9 m ρ c).trans ((arg5_at8 m ρ c)))

/-- At boundary 12 the argument `main_arg5` still holds its launch contents. -/
theorem arg5_at12 (c : Dev nD) :
    W12 m ρ c (Proc.devRef .tc main_arg5) = m ((c : Thread nD τ).loc main_arg5) :=
  (keep_arg5_12 m ρ c).trans ((keep_arg5_11 m ρ c).trans ((arg5_at10 m ρ c)))

/-- At boundary 6 the argument `main_arg6` still holds its launch contents. -/
theorem arg6_at6 (c : Dev nD) :
    W6 m ρ c (Proc.devRef .tc main_arg6) = m ((c : Thread nD τ).loc main_arg6) :=
  (keep_arg6_6 m ρ c).trans ((keep_arg6_5 m ρ c).trans ((keep_arg6_4 m ρ c).trans ((keep_arg6_3 m ρ c).trans ((keep_arg6_2 m ρ c).trans ((keep_arg6_1 m ρ c).trans ((rfl : W0 m ρ c (Proc.devRef .tc main_arg6) = m ((c : Thread nD τ).loc main_arg6))))))))

/-- At boundary 8 the argument `main_arg6` still holds its launch contents. -/
theorem arg6_at8 (c : Dev nD) :
    W8 m ρ c (Proc.devRef .tc main_arg6) = m ((c : Thread nD τ).loc main_arg6) :=
  (keep_arg6_8 m ρ c).trans ((keep_arg6_7 m ρ c).trans ((arg6_at6 m ρ c)))

/-- At boundary 10 the argument `main_arg6` still holds its launch contents. -/
theorem arg6_at10 (c : Dev nD) :
    W10 m ρ c (Proc.devRef .tc main_arg6) = m ((c : Thread nD τ).loc main_arg6) :=
  (keep_arg6_10 m ρ c).trans ((keep_arg6_9 m ρ c).trans ((arg6_at8 m ρ c)))

/-- At boundary 12 the argument `main_arg6` still holds its launch contents. -/
theorem arg6_at12 (c : Dev nD) :
    W12 m ρ c (Proc.devRef .tc main_arg6) = m ((c : Thread nD τ).loc main_arg6) :=
  (keep_arg6_12 m ρ c).trans ((keep_arg6_11 m ρ c).trans ((arg6_at10 m ρ c)))

/-- At boundary 6 the argument `main_arg7` still holds its launch contents. -/
theorem arg7_at6 (c : Dev nD) :
    W6 m ρ c (Proc.devRef .tc main_arg7) = m ((c : Thread nD τ).loc main_arg7) :=
  (keep_arg7_6 m ρ c).trans ((keep_arg7_5 m ρ c).trans ((keep_arg7_4 m ρ c).trans ((keep_arg7_3 m ρ c).trans ((keep_arg7_2 m ρ c).trans ((keep_arg7_1 m ρ c).trans ((rfl : W0 m ρ c (Proc.devRef .tc main_arg7) = m ((c : Thread nD τ).loc main_arg7))))))))

/-- At boundary 8 the argument `main_arg7` still holds its launch contents. -/
theorem arg7_at8 (c : Dev nD) :
    W8 m ρ c (Proc.devRef .tc main_arg7) = m ((c : Thread nD τ).loc main_arg7) :=
  (keep_arg7_8 m ρ c).trans ((keep_arg7_7 m ρ c).trans ((arg7_at6 m ρ c)))

/-- At boundary 10 the argument `main_arg7` still holds its launch contents. -/
theorem arg7_at10 (c : Dev nD) :
    W10 m ρ c (Proc.devRef .tc main_arg7) = m ((c : Thread nD τ).loc main_arg7) :=
  (keep_arg7_10 m ρ c).trans ((keep_arg7_9 m ρ c).trans ((arg7_at8 m ρ c)))

/-- At boundary 12 the argument `main_arg7` still holds its launch contents. -/
theorem arg7_at12 (c : Dev nD) :
    W12 m ρ c (Proc.devRef .tc main_arg7) = m ((c : Thread nD τ).loc main_arg7) :=
  (keep_arg7_12 m ρ c).trans ((keep_arg7_11 m ρ c).trans ((arg7_at10 m ρ c)))

/-- At boundary 6 the argument `main_arg8` still holds its launch contents. -/
theorem arg8_at6 (c : Dev nD) :
    W6 m ρ c (Proc.devRef .tc main_arg8) = m ((c : Thread nD τ).loc main_arg8) :=
  (keep_arg8_6 m ρ c).trans ((keep_arg8_5 m ρ c).trans ((keep_arg8_4 m ρ c).trans ((keep_arg8_3 m ρ c).trans ((keep_arg8_2 m ρ c).trans ((keep_arg8_1 m ρ c).trans ((rfl : W0 m ρ c (Proc.devRef .tc main_arg8) = m ((c : Thread nD τ).loc main_arg8))))))))

/-- At boundary 8 the argument `main_arg8` still holds its launch contents. -/
theorem arg8_at8 (c : Dev nD) :
    W8 m ρ c (Proc.devRef .tc main_arg8) = m ((c : Thread nD τ).loc main_arg8) :=
  (keep_arg8_8 m ρ c).trans ((keep_arg8_7 m ρ c).trans ((arg8_at6 m ρ c)))

/-- At boundary 10 the argument `main_arg8` still holds its launch contents. -/
theorem arg8_at10 (c : Dev nD) :
    W10 m ρ c (Proc.devRef .tc main_arg8) = m ((c : Thread nD τ).loc main_arg8) :=
  (keep_arg8_10 m ρ c).trans ((keep_arg8_9 m ρ c).trans ((arg8_at8 m ρ c)))

/-- At boundary 12 the argument `main_arg8` still holds its launch contents. -/
theorem arg8_at12 (c : Dev nD) :
    W12 m ρ c (Proc.devRef .tc main_arg8) = m ((c : Thread nD τ).loc main_arg8) :=
  (keep_arg8_12 m ρ c).trans ((keep_arg8_11 m ρ c).trans ((arg8_at10 m ρ c)))

/-- At boundary 14 the argument `main_arg9` still holds its launch contents. -/
theorem arg9_at14 (c : Dev nD) :
    W14 m ρ c (Proc.devRef .tc main_arg9) = m ((c : Thread nD τ).loc main_arg9) :=
  (keep_arg9_14 m ρ c).trans ((keep_arg9_13 m ρ c).trans ((keep_arg9_12 m ρ c).trans ((keep_arg9_11 m ρ c).trans ((keep_arg9_10 m ρ c).trans ((keep_arg9_9 m ρ c).trans ((keep_arg9_8 m ρ c).trans ((keep_arg9_7 m ρ c).trans ((keep_arg9_6 m ρ c).trans ((keep_arg9_5 m ρ c).trans ((keep_arg9_4 m ρ c).trans ((keep_arg9_3 m ρ c).trans ((keep_arg9_2 m ρ c).trans ((keep_arg9_1 m ρ c).trans ((rfl : W0 m ρ c (Proc.devRef .tc main_arg9) = m ((c : Thread nD τ).loc main_arg9))))))))))))))))

/-- At boundary 14 the argument `main_arg10` still holds its launch contents. -/
theorem arg10_at14 (c : Dev nD) :
    W14 m ρ c (Proc.devRef .tc main_arg10) = m ((c : Thread nD τ).loc main_arg10) :=
  (keep_arg10_14 m ρ c).trans ((keep_arg10_13 m ρ c).trans ((keep_arg10_12 m ρ c).trans ((keep_arg10_11 m ρ c).trans ((keep_arg10_10 m ρ c).trans ((keep_arg10_9 m ρ c).trans ((keep_arg10_8 m ρ c).trans ((keep_arg10_7 m ρ c).trans ((keep_arg10_6 m ρ c).trans ((keep_arg10_5 m ρ c).trans ((keep_arg10_4 m ρ c).trans ((keep_arg10_3 m ρ c).trans ((keep_arg10_2 m ρ c).trans ((keep_arg10_1 m ρ c).trans ((rfl : W0 m ρ c (Proc.devRef .tc main_arg10) = m ((c : Thread nD τ).loc main_arg10))))))))))))))))

/-- At boundary 14 the argument `main_arg11` still holds its launch contents. -/
theorem arg11_at14 (c : Dev nD) :
    W14 m ρ c (Proc.devRef .tc main_arg11) = m ((c : Thread nD τ).loc main_arg11) :=
  (keep_arg11_14 m ρ c).trans ((keep_arg11_13 m ρ c).trans ((keep_arg11_12 m ρ c).trans ((keep_arg11_11 m ρ c).trans ((keep_arg11_10 m ρ c).trans ((keep_arg11_9 m ρ c).trans ((keep_arg11_8 m ρ c).trans ((keep_arg11_7 m ρ c).trans ((keep_arg11_6 m ρ c).trans ((keep_arg11_5 m ρ c).trans ((keep_arg11_4 m ρ c).trans ((keep_arg11_3 m ρ c).trans ((keep_arg11_2 m ρ c).trans ((keep_arg11_1 m ρ c).trans ((rfl : W0 m ρ c (Proc.devRef .tc main_arg11) = m ((c : Thread nD τ).loc main_arg11))))))))))))))))

/-- At boundary 14 the argument `main_arg12` still holds its launch contents. -/
theorem arg12_at14 (c : Dev nD) :
    W14 m ρ c (Proc.devRef .tc main_arg12) = m ((c : Thread nD τ).loc main_arg12) :=
  (keep_arg12_14 m ρ c).trans ((keep_arg12_13 m ρ c).trans ((keep_arg12_12 m ρ c).trans ((keep_arg12_11 m ρ c).trans ((keep_arg12_10 m ρ c).trans ((keep_arg12_9 m ρ c).trans ((keep_arg12_8 m ρ c).trans ((keep_arg12_7 m ρ c).trans ((keep_arg12_6 m ρ c).trans ((keep_arg12_5 m ρ c).trans ((keep_arg12_4 m ρ c).trans ((keep_arg12_3 m ρ c).trans ((keep_arg12_2 m ρ c).trans ((keep_arg12_1 m ρ c).trans ((rfl : W0 m ρ c (Proc.devRef .tc main_arg12) = m ((c : Thread nD τ).loc main_arg12))))))))))))))))

/-- At boundary 14 the argument `main_arg13` still holds its launch contents. -/
theorem arg13_at14 (c : Dev nD) :
    W14 m ρ c (Proc.devRef .tc main_arg13) = m ((c : Thread nD τ).loc main_arg13) :=
  (keep_arg13_14 m ρ c).trans ((keep_arg13_13 m ρ c).trans ((keep_arg13_12 m ρ c).trans ((keep_arg13_11 m ρ c).trans ((keep_arg13_10 m ρ c).trans ((keep_arg13_9 m ρ c).trans ((keep_arg13_8 m ρ c).trans ((keep_arg13_7 m ρ c).trans ((keep_arg13_6 m ρ c).trans ((keep_arg13_5 m ρ c).trans ((keep_arg13_4 m ρ c).trans ((keep_arg13_3 m ρ c).trans ((keep_arg13_2 m ρ c).trans ((keep_arg13_1 m ρ c).trans ((rfl : W0 m ρ c (Proc.devRef .tc main_arg13) = m ((c : Thread nD τ).loc main_arg13))))))))))))))))

/-- At boundary 14 the argument `main_arg14` still holds its launch contents. -/
theorem arg14_at14 (c : Dev nD) :
    W14 m ρ c (Proc.devRef .tc main_arg14) = m ((c : Thread nD τ).loc main_arg14) :=
  (keep_arg14_14 m ρ c).trans ((keep_arg14_13 m ρ c).trans ((keep_arg14_12 m ρ c).trans ((keep_arg14_11 m ρ c).trans ((keep_arg14_10 m ρ c).trans ((keep_arg14_9 m ρ c).trans ((keep_arg14_8 m ρ c).trans ((keep_arg14_7 m ρ c).trans ((keep_arg14_6 m ρ c).trans ((keep_arg14_5 m ρ c).trans ((keep_arg14_4 m ρ c).trans ((keep_arg14_3 m ρ c).trans ((keep_arg14_2 m ρ c).trans ((keep_arg14_1 m ρ c).trans ((rfl : W0 m ρ c (Proc.devRef .tc main_arg14) = m ((c : Thread nD τ).loc main_arg14))))))))))))))))

/-- At boundary 17 the argument `main_arg15` still holds its launch contents. -/
theorem arg15_at17 (c : Dev nD) :
    W17 m ρ c (Proc.devRef .tc main_arg15) = m ((c : Thread nD τ).loc main_arg15) :=
  (keep_arg15_17 m ρ c).trans ((keep_arg15_16 m ρ c).trans ((keep_arg15_15 m ρ c).trans ((keep_arg15_14 m ρ c).trans ((keep_arg15_13 m ρ c).trans ((keep_arg15_12 m ρ c).trans ((keep_arg15_11 m ρ c).trans ((keep_arg15_10 m ρ c).trans ((keep_arg15_9 m ρ c).trans ((keep_arg15_8 m ρ c).trans ((keep_arg15_7 m ρ c).trans ((keep_arg15_6 m ρ c).trans ((keep_arg15_5 m ρ c).trans ((keep_arg15_4 m ρ c).trans ((keep_arg15_3 m ρ c).trans ((keep_arg15_2 m ρ c).trans ((keep_arg15_1 m ρ c).trans ((rfl : W0 m ρ c (Proc.devRef .tc main_arg15) = m ((c : Thread nD τ).loc main_arg15)))))))))))))))))))

/-- At boundary 16 the argument `main_arg16` still holds its launch contents. -/
theorem arg16_at16 (c : Dev nD) :
    W16 m ρ c (Proc.devRef .tc main_arg16) = m ((c : Thread nD τ).loc main_arg16) :=
  (keep_arg16_16 m ρ c).trans ((keep_arg16_15 m ρ c).trans ((keep_arg16_14 m ρ c).trans ((keep_arg16_13 m ρ c).trans ((keep_arg16_12 m ρ c).trans ((keep_arg16_11 m ρ c).trans ((keep_arg16_10 m ρ c).trans ((keep_arg16_9 m ρ c).trans ((keep_arg16_8 m ρ c).trans ((keep_arg16_7 m ρ c).trans ((keep_arg16_6 m ρ c).trans ((keep_arg16_5 m ρ c).trans ((keep_arg16_4 m ρ c).trans ((keep_arg16_3 m ρ c).trans ((keep_arg16_2 m ρ c).trans ((keep_arg16_1 m ρ c).trans ((rfl : W0 m ρ c (Proc.devRef .tc main_arg16) = m ((c : Thread nD τ).loc main_arg16))))))))))))))))))

/-! ## Intermediate arrays carried to where they are read -/

/-- `main_v10` is carried unchanged from boundary 5 to boundary 7. -/
theorem v10_5_7 (c : Dev nD) :
    W7 m ρ c (Proc.devRef .tc main_v10) = W5 m ρ c (Proc.devRef .tc main_v10) :=
  (keep_v10_7 m ρ c).trans ((keep_v10_6 m ρ c))

/-- `main_v10` is carried unchanged from boundary 7 to boundary 9. -/
theorem v10_7_9 (c : Dev nD) :
    W9 m ρ c (Proc.devRef .tc main_v10) = W7 m ρ c (Proc.devRef .tc main_v10) :=
  (keep_v10_9 m ρ c).trans ((keep_v10_8 m ρ c))

/-- `main_v10` is carried unchanged from boundary 9 to boundary 11. -/
theorem v10_9_11 (c : Dev nD) :
    W11 m ρ c (Proc.devRef .tc main_v10) = W9 m ρ c (Proc.devRef .tc main_v10) :=
  (keep_v10_11 m ρ c).trans ((keep_v10_10 m ρ c))

/-- `main_v12` is carried unchanged from boundary 5 to boundary 7. -/
theorem v12_5_7 (c : Dev nD) :
    W7 m ρ c (Proc.devRef .tc main_v12) = W5 m ρ c (Proc.devRef .tc main_v12) :=
  (keep_v12_7 m ρ c).trans ((keep_v12_6 m ρ c))

/-- `main_v12` is carried unchanged from boundary 7 to boundary 9. -/
theorem v12_7_9 (c : Dev nD) :
    W9 m ρ c (Proc.devRef .tc main_v12) = W7 m ρ c (Proc.devRef .tc main_v12) :=
  (keep_v12_9 m ρ c).trans ((keep_v12_8 m ρ c))

/-- `main_v12` is carried unchanged from boundary 9 to boundary 11. -/
theorem v12_9_11 (c : Dev nD) :
    W11 m ρ c (Proc.devRef .tc main_v12) = W9 m ρ c (Proc.devRef .tc main_v12) :=
  (keep_v12_11 m ρ c).trans ((keep_v12_10 m ρ c))

/-- `main_v12` is carried unchanged from boundary 11 to boundary 13. -/
theorem v12_11_13 (c : Dev nD) :
    W13 m ρ c (Proc.devRef .tc main_v12) = W11 m ρ c (Proc.devRef .tc main_v12) :=
  (keep_v12_13 m ρ c).trans ((keep_v12_12 m ρ c))

/-- `main_v13` is carried unchanged from boundary 5 to boundary 6. -/
theorem v13_5_6 (c : Dev nD) :
    W6 m ρ c (Proc.devRef .tc main_v13) = W5 m ρ c (Proc.devRef .tc main_v13) :=
  (keep_v13_6 m ρ c)

/-- `main_v13` is carried unchanged from boundary 6 to boundary 8. -/
theorem v13_6_8 (c : Dev nD) :
    W8 m ρ c (Proc.devRef .tc main_v13) = W6 m ρ c (Proc.devRef .tc main_v13) :=
  (keep_v13_8 m ρ c).trans ((keep_v13_7 m ρ c))

/-- `main_v13` is carried unchanged from boundary 8 to boundary 10. -/
theorem v13_8_10 (c : Dev nD) :
    W10 m ρ c (Proc.devRef .tc main_v13) = W8 m ρ c (Proc.devRef .tc main_v13) :=
  (keep_v13_10 m ρ c).trans ((keep_v13_9 m ρ c))

/-- `main_v43_0` is carried unchanged from boundary 8 to boundary 15. -/
theorem v43_0_8_15 (c : Dev nD) :
    W15 m ρ c (Proc.devRef .tc main_v43_0) = W8 m ρ c (Proc.devRef .tc main_v43_0) :=
  (keep_v43_0_15 m ρ c).trans ((keep_v43_0_14 m ρ c).trans ((keep_v43_0_13 m ρ c).trans ((keep_v43_0_12 m ρ c).trans ((keep_v43_0_11 m ρ c).trans ((keep_v43_0_10 m ρ c).trans ((keep_v43_0_9 m ρ c)))))))

/-- `main_v70_0` is carried unchanged from boundary 10 to boundary 15. -/
theorem v70_0_10_15 (c : Dev nD) :
    W15 m ρ c (Proc.devRef .tc main_v70_0) = W10 m ρ c (Proc.devRef .tc main_v70_0) :=
  (keep_v70_0_15 m ρ c).trans ((keep_v70_0_14 m ρ c).trans ((keep_v70_0_13 m ρ c).trans ((keep_v70_0_12 m ρ c).trans ((keep_v70_0_11 m ρ c)))))

/-- `main_v97_0` is carried unchanged from boundary 12 to boundary 15. -/
theorem v97_0_12_15 (c : Dev nD) :
    W15 m ρ c (Proc.devRef .tc main_v97_0) = W12 m ρ c (Proc.devRef .tc main_v97_0) :=
  (keep_v97_0_15 m ρ c).trans ((keep_v97_0_14 m ρ c).trans ((keep_v97_0_13 m ρ c)))

/-- `main_v122` is carried unchanged from boundary 14 to boundary 15. -/
theorem v122_14_15 (c : Dev nD) :
    W15 m ρ c (Proc.devRef .tc main_v122) = W14 m ρ c (Proc.devRef .tc main_v122) :=
  (keep_v122_15 m ρ c)

/-- `main_v132` is carried unchanged from boundary 16 to boundary 17. -/
theorem v132_16_17 (c : Dev nD) :
    W17 m ρ c (Proc.devRef .tc main_v132) = W16 m ρ c (Proc.devRef .tc main_v132) :=
  (keep_v132_17 m ρ c)

/-- `main_v0` is carried unchanged from boundary 1 to boundary 2. -/
theorem v0_1_2 (c : Dev nD) :
    W2 m ρ c (Proc.devRef .tc main_v0) = W1 m ρ c (Proc.devRef .tc main_v0) :=
  (keep_v0_2 m ρ c)

/-- `main_v4` is carried unchanged from boundary 2 to boundary 4. -/
theorem v4_2_4 (c : Dev nD) :
    W4 m ρ c (Proc.devRef .tc main_v4) = W2 m ρ c (Proc.devRef .tc main_v4) :=
  (keep_v4_4 m ρ c).trans ((keep_v4_3 m ρ c))

end Cert.Carry

end
-- ==== Proof.Layout.lean ====
/-
  The small re-layings by which the kernel's host side cuts its per-layer operands out of the argument arrays,
  read at an index: row j of a 4 x 128 table (sliced, flattened, made a row again), matrix j of a stack of four
  128 x 128 matrices (sliced, the unit axis dropped), a vector made a row, rows 128 j .. 128 j + 127 of a 512 x 128
  matrix. A reshape keeps the row-major position; a slice adds its offset.
-/
import Idealize.ShloMosaic.Lib.Pipeline.Value
import Idealize.ShloMosaic.Lib.ValueIdx
import proofs.«159722_j12695923327568_2_alg».proof.Proof.Net

noncomputable section

namespace Cert.Layout

open Idealize.ShloMosaic Idealize.ShloMosaic.ValueIdx Cert.Net

/-- A 128-vector reshaped to a 1 x 128 row. -/
theorem row_of_vec (v : (⟨1, ![128]⟩ : Shape).Idx → EReal) (h : (⟨1, ![128]⟩ : Shape).ShapeCasts ⟨2, ![1, 128]⟩) :
    shapeCast ⟨2, ![1, 128]⟩ v h = vecRow v := by
  funext i
  refine shapeCast_apply v h i (ix1 (i 1)) ?_
  rw [Shape.rowMajor_val_one, Shape.rowMajor_val_two]
  have h0 : (i 0).val < 1 := idx2_lt0 i
  show (i 1).val = (i 0).val * 128 + (i 1).val
  omega

/-- A 47-vector reshaped to a 1 x 47 row. -/
theorem row_of_vec47 (v : (⟨1, ![47]⟩ : Shape).Idx → EReal) (h : (⟨1, ![47]⟩ : Shape).ShapeCasts ⟨2, ![1, 47]⟩) :
    shapeCast ⟨2, ![1, 47]⟩ v h = vecRow47 v := by
  funext i
  refine shapeCast_apply v h i (ix1 (i 1)) ?_
  rw [Shape.rowMajor_val_one, Shape.rowMajor_val_two]
  have h0 : (i 0).val < 1 := idx2_lt0 i
  show (i 1).val = (i 0).val * 47 + (i 1).val
  omega

/-- Row j of a 4 x 128 table: the 1 x 128 slice at row offset j, flattened to a vector. -/
theorem vec_of_slice (j : Fin 4) (off : Fin 2 → Nat) (h0 : off 0 = j.val) (h1 : off 1 = 0)
    (x : (⟨2, ![4, 128]⟩ : Shape).Idx → EReal) (hs : (⟨2, ![4, 128]⟩ : Shape).Slices off ⟨2, ![1, 128]⟩)
    (hc : (⟨2, ![1, 128]⟩ : Shape).ShapeCasts ⟨1, ![128]⟩) :
    vecRow (shapeCast ⟨1, ![128]⟩ (extractStridedSlice ⟨2, ![1, 128]⟩ off x hs) hc) = rowOf j x := by
  funext i
  show shapeCast ⟨1, ![128]⟩ (extractStridedSlice ⟨2, ![1, 128]⟩ off x hs) hc (ix1 (i 1)) = x (ix2 j (i 1))
  rw [shapeCast_apply _ hc (ix1 (i 1)) (ix2 0 (i 1)) (by
    rw [Shape.rowMajor_val_one, Shape.rowMajor_val_two]
    show 0 * 128 + (i 1).val = (i 1).val
    omega)]
  exact extractStridedSlice_apply off x hs (ix2 0 (i 1)) (ix2 j (i 1)) (fun a => match a with
    | ⟨0, _⟩ => by show j.val = off 0 + 0; omega
    | ⟨1, _⟩ => by show (i 1).val = off 1 + (i 1).val; omega)

/-- Matrix j of a stack of four: the 1 x 128 x 128 slice at offset j with its unit axis dropped. -/
theorem slab_of_slice (j : Fin 4) (off : Fin 3 → Nat) (h0 : off 0 = j.val) (h1 : off 1 = 0) (h2 : off 2 = 0)
    (x : (⟨3, ![4, 128, 128]⟩ : Shape).Idx → EReal) (hs : (⟨3, ![4, 128, 128]⟩ : Shape).Slices off ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ off x hs) hc = slab j x := by
  funext i
  rw [shapeCast_apply _ hc i (ix3 0 (i 0) (i 1)) (by
    rw [Shape.rowMajor_val_two, Shape.rowMajor_val_three]
    show (0 * 128 + (i 0).val) * 128 + (i 1).val = (i 0).val * 128 + (i 1).val
    omega)]
  exact extractStridedSlice_apply off x hs (ix3 0 (i 0) (i 1)) (ix3 j (i 0) (i 1)) (fun a => match a with
    | ⟨0, _⟩ => by show j.val = off 0 + 0; omega
    | ⟨1, _⟩ => by show (i 0).val = off 1 + (i 0).val; omega
    | ⟨2, _⟩ => by show (i 1).val = off 2 + (i 1).val; omega)

/-- Rows 128 j .. 128 j + 127 of a 512 x 128 matrix: the slice at row offset 128 j. -/
theorem rows_of_slice (j : Fin 4) (off : Fin 2 → Nat) (h0 : off 0 = 128 * j.val) (h1 : off 1 = 0)
    (x : (⟨2, ![512, 128]⟩ : Shape).Idx → EReal) (hs : (⟨2, ![512, 128]⟩ : Shape).Slices off ⟨2, ![128, 128]⟩) :
    extractStridedSlice ⟨2, ![128, 128]⟩ off x hs = rows128 j x := by
  funext i
  exact extractStridedSlice_apply off x hs i _ (fun a => match a with
    | ⟨0, _⟩ => by show 128 * j.val + (i 0).val = off 0 + (i 0).val; omega
    | ⟨1, _⟩ => by show (i 1).val = off 1 + (i 1).val; omega)

end Cert.Layout

end
-- ==== Proof.HostKDefs.lean ====
/-
  The functions the kernel's host operations spell, named: the edge counts, their clipping at one, the degree
  factors, the aggregation along the edges and the zero bias vector. Each is the literal composition of the
  operations' own functions, so that reading a buffer after a host stretch gives one of these terms applied to the
  argument arrays.
-/
import proofs.«159722_j12695923327568_2_alg».proof.Proof.Gen.KernelIdeal.Frame
import Idealize.ShloMosaic.PureOps.Ideal

noncomputable section

namespace Cert.HostK

open Cert.KernelIdeal Cert.KernelIdeal.Gen
open Idealize.ShloMosaic

/-! ## The host side's functions, as the program spells them -/

/-- How many edges end (or start) at each node: ones scattered to the endpoints `x` and summed. -/
def cntK (x : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 x)
    (broadcastInDim S800000 ![] bcast_S_S800000 (constant (F := Ideal) S_ .f32 0x3F800000#32))

/-- The count clipped below at one. -/
def clipK (x : (⟨S800000, .i32⟩ : BufTy).Contents (Elt Ideal)) : (⟨S50000, .f32⟩ : BufTy).Contents (Elt Ideal) :=
  maximumf (broadcastInDim S50000 ![] bcast_S_S50000 (id (constant (F := Ideal) S_ .f32 0x3F800000#32))) (cntK x)

/-- The degree factor of every node, as a column: the reciprocal square root of the clipped count. -/
def normK (x : (⟨S800000, .i32⟩ : BufTy).Contents (Elt Ideal)) : (⟨S50000x1, .f32⟩ : BufTy).Contents (Elt Ideal) :=
  broadcastInDim S50000x1 ![0] bcast_S50000_S50000x1_0
    (Host.rsqrt (F := Ideal) (s := S50000) (φ := .f32) (clipK x))

/-- The aggregation: row `x1 e` of `h` (a negative index counted from the end) gathered for every edge `e`, widened,
    and summed into row `x2 e` of a zero array. -/
def aggK (x1 x2 : (⟨S800000, .i32⟩ : BufTy).Contents (Elt Ideal)) (h : (⟨S50000x128, .bf16⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 x2)
    (extf .f32 (Host.gather gather_S50000x128_S800000x1_S800000x128_1_0_n_n_0_1_1128 h
      (broadcastInDim S800000x1 ![0] bcast_S800000_S800000x1_0
        (select (cmpi .slt x1 (broadcastInDim S800000 ![] bcast_S_S800000 (constantI S_ 32 0#32)))
          (addi x1 (broadcastInDim S800000 ![] bcast_S_S800000 (constantI S_ 32 50000#32))) x1))) bitsLt_bf16_f32)

/-- The all-zero vector of 128 entries (the bias of the first three layers). -/
def zeroVecK : (⟨S128, .f32⟩ : BufTy).Contents (Elt Ideal) :=
  broadcastInDim S128 ![] bcast_S_S128 (constant (F := Ideal) S_ .f32 0x00000000#32 : (⟨S_, .f32⟩ : BufTy).Contents (Elt Ideal))

end Cert.HostK

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.HostK.lean ====
/-
  What the kernel's host operations compute at each region's entry.

  Between the regions the program runs short lines of host operations: they count the edges at every node and turn
  the counts into the two degree factors, gather and sum the transformed features along the edges, and cut each
  layer's operands (a weight matrix, a bias row, the four rows of the normalisation tables) out of the argument
  arrays. Each fact below reads one buffer at one boundary as the function the operations spell, applied to the
  launch contents of the argument arrays (and, for the aggregation, to the features the previous region left).
-/
import proofs.«159722_j12695923327568_2_alg».proof.Proof.Gen.KernelIdeal.Frame
import proofs.«159722_j12695923327568_2_alg».proof.Proof.Net
import proofs.«159722_j12695923327568_2_alg».proof.Proof.Layout
import proofs.«159722_j12695923327568_2_alg».proof.Proof.Carry
import proofs.«159722_j12695923327568_2_alg».proof.Proof.HostKDefs
import proofs.«159722_j12695923327568_2_alg».proof.Proof.LibAfterAssign
import Idealize.ShloMosaic.PureOps.Ideal
import Idealize.ShloMosaic.Lib.StableHlo.Run

set_option maxRecDepth 16384

noncomputable section

namespace Cert.HostK

open Cert.KernelIdeal Cert.KernelIdeal.Gen
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## Two re-layings composed -/

/-- Row `j` of a 4 x 128 table, cut out as a 1 x 128 slice, flattened and made a row again. -/
theorem row_slice (j : Fin 4) (off : Fin 2 → Nat) (h0 : off 0 = j.val) (h1 : off 1 = 0)
    (x : (⟨2, ![4, 128]⟩ : Shape).Idx → EReal) (hs : (⟨2, ![4, 128]⟩ : Shape).Slices off ⟨2, ![1, 128]⟩)
    (hc : (⟨2, ![1, 128]⟩ : Shape).ShapeCasts ⟨1, ![128]⟩) (hc' : (⟨1, ![128]⟩ : Shape).ShapeCasts ⟨2, ![1, 128]⟩) :
    shapeCast ⟨2, ![1, 128]⟩ (shapeCast ⟨1, ![128]⟩ (extractStridedSlice ⟨2, ![1, 128]⟩ off x hs) hc) hc' = Cert.Net.rowOf j x :=
  (Cert.Layout.row_of_vec _ hc').trans (Cert.Layout.vec_of_slice j off h0 h1 x hs hc)

/-- The zero vector made a row is the zero row. -/
theorem zero_row (hc : (⟨1, ![128]⟩ : Shape).ShapeCasts ⟨2, ![1, 128]⟩) :
    shapeCast ⟨2, ![1, 128]⟩ zeroVecK hc = Cert.Net.zeroRow := by
  funext i; rfl

/-! ## Contents moved along a reference's type equation and back -/

/-- Contents read at the value's type are the buffer's contents. -/
theorem tref_ofBuf {T : BufTy} (x : StableHlo.TRef sig T) (v : x.ref.ty.Contents (Elt Ideal)) (w : T.Contents (Elt Ideal))
    (h : HEq v w) : x.ofBuf v = w :=
  eq_of_heq ((cast_heq _ v).trans h)

/-- Contents stored at the buffer's type are the value's contents. -/
theorem tref_toBuf {T : BufTy} (x : StableHlo.TRef sig T) (v : T.Contents (Elt Ideal)) (w : x.ref.ty.Contents (Elt Ideal))
    (h : HEq v w) : x.toBuf v = w :=
  eq_of_heq ((cast_heq _ v).trans h)

/-- Stored and read back. -/
theorem tref_ofBuf_toBuf {T : BufTy} (x : StableHlo.TRef sig T) (v : T.Contents (Elt Ideal)) : x.ofBuf (x.toBuf v) = v :=
  eq_of_heq ((cast_heq _ _).trans (cast_heq _ v))

/-! ## Boundaries 1 to 5: the degree factors, the zero bias and the first weight matrix -/

/-- The constant one, for the first clip. -/
theorem cst1_1 (c : Dev nD) :
    W1 m ρ c (Proc.devRef .tc main_cst_1) = (constant (F := Ideal) S_ .f32 0x3F800000#32 : (⟨S_, .f32⟩ : BufTy).Contents (Elt Ideal)) := by
  show StableHlo.after hostOps0 (W0 m ρ c) (Proc.devRef .tc main_cst_1) = _
  after_results

/-- One per edge. -/
theorem v0_1 (c : Dev nD) :
    W1 m ρ c (Proc.devRef .tc main_v0) = (broadcastInDim S800000 ![] bcast_S_S800000 (constant (F := Ideal) S_ .f32 0x3F800000#32 : (⟨S_, .f32⟩ : BufTy).Contents (Elt Ideal)) : (⟨S800000, .f32⟩ : BufTy).Contents (Elt Ideal)) := by
  show StableHlo.after hostOps0 (W0 m ρ c) (Proc.devRef .tc main_v0) = _
  after_results

/-- The count of edges by their first endpoint. -/
theorem v3_1 (c : Dev nD) :
    W1 m ρ c (Proc.devRef .tc main_v3) = cntK (m ((c : Thread nD τ).loc main_arg1)) := by
  show StableHlo.after hostOps0 (W0 m ρ c) (Proc.devRef .tc main_v3) = _
  after_results
  rfl

/-- That count clipped below at one. -/
theorem v4_2 (c : Dev nD) :
    W2 m ρ c (Proc.devRef .tc main_v4) = clipK (m ((c : Thread nD τ).loc main_arg1)) := by
  show StableHlo.after hostOps0_1 (W1 m ρ c) (Proc.devRef .tc main_v4) = _
  generalize hV : W1 m ρ c = V
  after_results
  subst hV
  refine tref_toBuf _ _ _ (heq_of_eq ?_)
  rw [tref_ofBuf_toBuf, tref_ofBuf_toBuf,
    tref_ofBuf (StableHlo.TRef.of main_cst_1 : StableHlo.TRef sig ⟨S_, .f32⟩) _ _ (heq_of_eq (cst1_1 m ρ c)),
    tref_ofBuf (StableHlo.TRef.of main_v3 : StableHlo.TRef sig ⟨S50000, .f32⟩) _ _ (heq_of_eq (v3_1 m ρ c))]
  rfl

/-- The count of edges by their second endpoint. -/
theorem v7_3 (c : Dev nD) :
    W3 m ρ c (Proc.devRef .tc main_v7) = cntK (m ((c : Thread nD τ).loc main_arg2)) := by
  show StableHlo.after hostOps0_2 (W2 m ρ c) (Proc.devRef .tc main_v7) = _
  generalize hV : W2 m ρ c = V
  after_results
  subst hV
  rw [Carry.arg2_at2 m ρ c, Carry.v0_1_2 m ρ c, v0_1 m ρ c]
  rfl

/-- The constant one, for the second clip. -/
theorem cst3_3 (c : Dev nD) :
    W3 m ρ c (Proc.devRef .tc main_cst_3) = (constant (F := Ideal) S_ .f32 0x3F800000#32 : (⟨S_, .f32⟩ : BufTy).Contents (Elt Ideal)) := by
  show StableHlo.after hostOps0_2 (W2 m ρ c) (Proc.devRef .tc main_cst_3) = _
  generalize hV : W2 m ρ c = V
  after_results

/-- That count clipped below at one. -/
theorem v8_4 (c : Dev nD) :
    W4 m ρ c (Proc.devRef .tc main_v8) = clipK (m ((c : Thread nD τ).loc main_arg2)) := by
  show StableHlo.after hostOps0_3 (W3 m ρ c) (Proc.devRef .tc main_v8) = _
  generalize hV : W3 m ρ c = V
  after_results
  subst hV
  refine tref_toBuf _ _ _ (heq_of_eq ?_)
  rw [tref_ofBuf_toBuf, tref_ofBuf_toBuf,
    tref_ofBuf (StableHlo.TRef.of main_cst_3 : StableHlo.TRef sig ⟨S_, .f32⟩) _ _ (heq_of_eq (cst3_3 m ρ c)),
    tref_ofBuf (StableHlo.TRef.of main_v7 : StableHlo.TRef sig ⟨S50000, .f32⟩) _ _ (heq_of_eq (v7_3 m ρ c))]
  rfl

/-- The source-degree factors. -/
theorem ns5 (c : Dev nD) :
    W5 m ρ c (Proc.devRef .tc main_v10) = normK (m ((c : Thread nD τ).loc main_arg1)) := by
  show StableHlo.after hostOps0_4 (W4 m ρ c) (Proc.devRef .tc main_v10) = _
  generalize hV : W4 m ρ c = V
  after_results
  subst hV
  rw [Carry.v4_2_4 m ρ c, v4_2 m ρ c]
  rfl

/-- The destination-degree factors. -/
theorem nd5 (c : Dev nD) :
    W5 m ρ c (Proc.devRef .tc main_v12) = normK (m ((c : Thread nD τ).loc main_arg2)) := by
  show StableHlo.after hostOps0_4 (W4 m ρ c) (Proc.devRef .tc main_v12) = _
  generalize hV : W4 m ρ c = V
  after_results
  subst hV
  rw [v8_4 m ρ c]
  rfl

/-- The zero bias vector. -/
theorem z5 (c : Dev nD) :
    W5 m ρ c (Proc.devRef .tc main_v13) = zeroVecK := by
  show StableHlo.after hostOps0_4 (W4 m ρ c) (Proc.devRef .tc main_v13) = _
  generalize hV : W4 m ρ c = V
  after_results
  rfl

/-- The first layer's weight matrix. -/
theorem w5 (c : Dev nD) :
    W5 m ρ c (Proc.devRef .tc main_v15) = Cert.Net.slab 0 (m ((c : Thread nD τ).loc main_arg3)) := by
  show StableHlo.after hostOps0_4 (W4 m ρ c) (Proc.devRef .tc main_v15) = _
  generalize hV : W4 m ρ c = V
  after_results
  subst hV
  rw [Carry.arg3_at4 m ρ c]
  exact Cert.Layout.slab_of_slice 0 ![0, 0, 0] rfl rfl rfl (m ((c : Thread nD τ).loc main_arg3)) _ _

/-! ## Boundary 7: the operands of layer 0's finish and of layer 1's transform -/

/-- The aggregation of the transformed features. -/
theorem agg7 (c : Dev nD) :
    W7 m ρ c (Proc.devRef .tc main_v27) = aggK (m ((c : Thread nD τ).loc main_arg1)) (m ((c : Thread nD τ).loc main_arg2)) (W6 m ρ c (Proc.devRef .tc main_v16)) := by
  show StableHlo.after hostOps1 (W6 m ρ c) (Proc.devRef .tc main_v27) = _
  after_results_simp
  rw [Carry.arg1_at6 m ρ c, Carry.arg2_at6 m ρ c]
  rfl

/-- The bias row: zero. -/
theorem b7 (c : Dev nD) :
    W7 m ρ c (Proc.devRef .tc main_v38) = Cert.Net.zeroRow := by
  show StableHlo.after hostOps1 (W6 m ρ c) (Proc.devRef .tc main_v38) = _
  after_results
  rw [Carry.v13_5_6 m ρ c, z5 m ρ c]
  exact zero_row _

/-- Row 0 of the scale table. -/
theorem g7 (c : Dev nD) :
    W7 m ρ c (Proc.devRef .tc main_v39) = Cert.Net.rowOf 0 (m ((c : Thread nD τ).loc main_arg5)) := by
  show StableHlo.after hostOps1 (W6 m ρ c) (Proc.devRef .tc main_v39) = _
  after_results
  rw [Carry.arg5_at6 m ρ c]
  exact row_slice 0 ![0, 0] rfl rfl (m ((c : Thread nD τ).loc main_arg5)) _ _ _

/-- Row 0 of the shift table. -/
theorem be7 (c : Dev nD) :
    W7 m ρ c (Proc.devRef .tc main_v40) = Cert.Net.rowOf 0 (m ((c : Thread nD τ).loc main_arg6)) := by
  show StableHlo.after hostOps1 (W6 m ρ c) (Proc.devRef .tc main_v40) = _
  after_results
  rw [Carry.arg6_at6 m ρ c]
  exact row_slice 0 ![0, 0] rfl rfl (m ((c : Thread nD τ).loc main_arg6)) _ _ _

/-- Row 0 of the mean table. -/
theorem mu7 (c : Dev nD) :
    W7 m ρ c (Proc.devRef .tc main_v41) = Cert.Net.rowOf 0 (m ((c : Thread nD τ).loc main_arg7)) := by
  show StableHlo.after hostOps1 (W6 m ρ c) (Proc.devRef .tc main_v41) = _
  after_results
  rw [Carry.arg7_at6 m ρ c]
  exact row_slice 0 ![0, 0] rfl rfl (m ((c : Thread nD τ).loc main_arg7)) _ _ _

/-- Row 0 of the variance table. -/
theorem va7 (c : Dev nD) :
    W7 m ρ c (Proc.devRef .tc main_v42) = Cert.Net.rowOf 0 (m ((c : Thread nD τ).loc main_arg8)) := by
  show StableHlo.after hostOps1 (W6 m ρ c) (Proc.devRef .tc main_v42) = _
  after_results
  rw [Carry.arg8_at6 m ρ c]
  exact row_slice 0 ![0, 0] rfl rfl (m ((c : Thread nD τ).loc main_arg8)) _ _ _

/-- The next layer's weight matrix. -/
theorem w7 (c : Dev nD) :
    W7 m ρ c (Proc.devRef .tc main_v37) = Cert.Net.slab 1 (m ((c : Thread nD τ).loc main_arg3)) := by
  show StableHlo.after hostOps1 (W6 m ρ c) (Proc.devRef .tc main_v37) = _
  after_results
  rw [Carry.arg3_at6 m ρ c]
  exact Cert.Layout.slab_of_slice 1 ![1, 0, 0] rfl rfl rfl (m ((c : Thread nD τ).loc main_arg3)) _ _

/-! ## Boundary 9: the operands of layer 1's finish and of layer 2's transform -/

/-- The aggregation of the transformed features. -/
theorem agg9 (c : Dev nD) :
    W9 m ρ c (Proc.devRef .tc main_v54) = aggK (m ((c : Thread nD τ).loc main_arg1)) (m ((c : Thread nD τ).loc main_arg2)) (W8 m ρ c (Proc.devRef .tc main_v43_1)) := by
  show StableHlo.after hostOps2 (W8 m ρ c) (Proc.devRef .tc main_v54) = _
  after_results_simp
  rw [Carry.arg1_at8 m ρ c, Carry.arg2_at8 m ρ c]
  rfl

/-- The bias row: zero. -/
theorem b9 (c : Dev nD) :
    W9 m ρ c (Proc.devRef .tc main_v65) = Cert.Net.zeroRow := by
  show StableHlo.after hostOps2 (W8 m ρ c) (Proc.devRef .tc main_v65) = _
  after_results
  rw [Carry.v13_6_8 m ρ c, Carry.v13_5_6 m ρ c, z5 m ρ c]
  exact zero_row _

/-- Row 1 of the scale table. -/
theorem g9 (c : Dev nD) :
    W9 m ρ c (Proc.devRef .tc main_v66) = Cert.Net.rowOf 1 (m ((c : Thread nD τ).loc main_arg5)) := by
  show StableHlo.after hostOps2 (W8 m ρ c) (Proc.devRef .tc main_v66) = _
  after_results
  rw [Carry.arg5_at8 m ρ c]
  exact row_slice 1 ![1, 0] rfl rfl (m ((c : Thread nD τ).loc main_arg5)) _ _ _

/-- Row 1 of the shift table. -/
theorem be9 (c : Dev nD) :
    W9 m ρ c (Proc.devRef .tc main_v67) = Cert.Net.rowOf 1 (m ((c : Thread nD τ).loc main_arg6)) := by
  show StableHlo.after hostOps2 (W8 m ρ c) (Proc.devRef .tc main_v67) = _
  after_results
  rw [Carry.arg6_at8 m ρ c]
  exact row_slice 1 ![1, 0] rfl rfl (m ((c : Thread nD τ).loc main_arg6)) _ _ _

/-- Row 1 of the mean table. -/
theorem mu9 (c : Dev nD) :
    W9 m ρ c (Proc.devRef .tc main_v68) = Cert.Net.rowOf 1 (m ((c : Thread nD τ).loc main_arg7)) := by
  show StableHlo.after hostOps2 (W8 m ρ c) (Proc.devRef .tc main_v68) = _
  after_results
  rw [Carry.arg7_at8 m ρ c]
  exact row_slice 1 ![1, 0] rfl rfl (m ((c : Thread nD τ).loc main_arg7)) _ _ _

/-- Row 1 of the variance table. -/
theorem va9 (c : Dev nD) :
    W9 m ρ c (Proc.devRef .tc main_v69) = Cert.Net.rowOf 1 (m ((c : Thread nD τ).loc main_arg8)) := by
  show StableHlo.after hostOps2 (W8 m ρ c) (Proc.devRef .tc main_v69) = _
  after_results
  rw [Carry.arg8_at8 m ρ c]
  exact row_slice 1 ![1, 0] rfl rfl (m ((c : Thread nD τ).loc main_arg8)) _ _ _

/-- The next layer's weight matrix. -/
theorem w9 (c : Dev nD) :
    W9 m ρ c (Proc.devRef .tc main_v64) = Cert.Net.slab 2 (m ((c : Thread nD τ).loc main_arg3)) := by
  show StableHlo.after hostOps2 (W8 m ρ c) (Proc.devRef .tc main_v64) = _
  after_results
  rw [Carry.arg3_at8 m ρ c]
  exact Cert.Layout.slab_of_slice 2 ![2, 0, 0] rfl rfl rfl (m ((c : Thread nD τ).loc main_arg3)) _ _

/-! ## Boundary 11: the operands of layer 2's finish and of layer 3's transform -/

/-- The aggregation of the transformed features. -/
theorem agg11 (c : Dev nD) :
    W11 m ρ c (Proc.devRef .tc main_v81) = aggK (m ((c : Thread nD τ).loc main_arg1)) (m ((c : Thread nD τ).loc main_arg2)) (W10 m ρ c (Proc.devRef .tc main_v70_1)) := by
  show StableHlo.after hostOps3 (W10 m ρ c) (Proc.devRef .tc main_v81) = _
  after_results_simp
  rw [Carry.arg1_at10 m ρ c, Carry.arg2_at10 m ρ c]
  rfl

/-- The bias row: zero. -/
theorem b11 (c : Dev nD) :
    W11 m ρ c (Proc.devRef .tc main_v92) = Cert.Net.zeroRow := by
  show StableHlo.after hostOps3 (W10 m ρ c) (Proc.devRef .tc main_v92) = _
  after_results
  rw [Carry.v13_8_10 m ρ c, Carry.v13_6_8 m ρ c, Carry.v13_5_6 m ρ c, z5 m ρ c]
  exact zero_row _

/-- Row 2 of the scale table. -/
theorem g11 (c : Dev nD) :
    W11 m ρ c (Proc.devRef .tc main_v93) = Cert.Net.rowOf 2 (m ((c : Thread nD τ).loc main_arg5)) := by
  show StableHlo.after hostOps3 (W10 m ρ c) (Proc.devRef .tc main_v93) = _
  after_results
  rw [Carry.arg5_at10 m ρ c]
  exact row_slice 2 ![2, 0] rfl rfl (m ((c : Thread nD τ).loc main_arg5)) _ _ _

/-- Row 2 of the shift table. -/
theorem be11 (c : Dev nD) :
    W11 m ρ c (Proc.devRef .tc main_v94) = Cert.Net.rowOf 2 (m ((c : Thread nD τ).loc main_arg6)) := by
  show StableHlo.after hostOps3 (W10 m ρ c) (Proc.devRef .tc main_v94) = _
  after_results
  rw [Carry.arg6_at10 m ρ c]
  exact row_slice 2 ![2, 0] rfl rfl (m ((c : Thread nD τ).loc main_arg6)) _ _ _

/-- Row 2 of the mean table. -/
theorem mu11 (c : Dev nD) :
    W11 m ρ c (Proc.devRef .tc main_v95) = Cert.Net.rowOf 2 (m ((c : Thread nD τ).loc main_arg7)) := by
  show StableHlo.after hostOps3 (W10 m ρ c) (Proc.devRef .tc main_v95) = _
  after_results
  rw [Carry.arg7_at10 m ρ c]
  exact row_slice 2 ![2, 0] rfl rfl (m ((c : Thread nD τ).loc main_arg7)) _ _ _

/-- Row 2 of the variance table. -/
theorem va11 (c : Dev nD) :
    W11 m ρ c (Proc.devRef .tc main_v96) = Cert.Net.rowOf 2 (m ((c : Thread nD τ).loc main_arg8)) := by
  show StableHlo.after hostOps3 (W10 m ρ c) (Proc.devRef .tc main_v96) = _
  after_results
  rw [Carry.arg8_at10 m ρ c]
  exact row_slice 2 ![2, 0] rfl rfl (m ((c : Thread nD τ).loc main_arg8)) _ _ _

/-- The next layer's weight matrix. -/
theorem w11 (c : Dev nD) :
    W11 m ρ c (Proc.devRef .tc main_v91) = Cert.Net.slab 3 (m ((c : Thread nD τ).loc main_arg3)) := by
  show StableHlo.after hostOps3 (W10 m ρ c) (Proc.devRef .tc main_v91) = _
  after_results
  rw [Carry.arg3_at10 m ρ c]
  exact Cert.Layout.slab_of_slice 3 ![3, 0, 0] rfl rfl rfl (m ((c : Thread nD τ).loc main_arg3)) _ _

/-! ## Boundary 13: the operands of layer 3's finish and of layer 4's transform -/

/-- The aggregation of the transformed features. -/
theorem agg13 (c : Dev nD) :
    W13 m ρ c (Proc.devRef .tc main_v108) = aggK (m ((c : Thread nD τ).loc main_arg1)) (m ((c : Thread nD τ).loc main_arg2)) (W12 m ρ c (Proc.devRef .tc main_v97_1)) := by
  show StableHlo.after hostOps4 (W12 m ρ c) (Proc.devRef .tc main_v108) = _
  after_results_simp
  rw [Carry.arg1_at12 m ρ c, Carry.arg2_at12 m ρ c]
  rfl

/-- The bias row. -/
theorem b13 (c : Dev nD) :
    W13 m ρ c (Proc.devRef .tc main_v117) = Cert.Net.vecRow (m ((c : Thread nD τ).loc main_arg4)) := by
  show StableHlo.after hostOps4 (W12 m ρ c) (Proc.devRef .tc main_v117) = _
  after_results
  rw [Carry.arg4_at12 m ρ c]
  exact Cert.Layout.row_of_vec (m ((c : Thread nD τ).loc main_arg4)) _

/-- Row 3 of the scale table. -/
theorem g13 (c : Dev nD) :
    W13 m ρ c (Proc.devRef .tc main_v118) = Cert.Net.rowOf 3 (m ((c : Thread nD τ).loc main_arg5)) := by
  show StableHlo.after hostOps4 (W12 m ρ c) (Proc.devRef .tc main_v118) = _
  after_results
  rw [Carry.arg5_at12 m ρ c]
  exact row_slice 3 ![3, 0] rfl rfl (m ((c : Thread nD τ).loc main_arg5)) _ _ _

/-- Row 3 of the shift table. -/
theorem be13 (c : Dev nD) :
    W13 m ρ c (Proc.devRef .tc main_v119) = Cert.Net.rowOf 3 (m ((c : Thread nD τ).loc main_arg6)) := by
  show StableHlo.after hostOps4 (W12 m ρ c) (Proc.devRef .tc main_v119) = _
  after_results
  rw [Carry.arg6_at12 m ρ c]
  exact row_slice 3 ![3, 0] rfl rfl (m ((c : Thread nD τ).loc main_arg6)) _ _ _

/-- Row 3 of the mean table. -/
theorem mu13 (c : Dev nD) :
    W13 m ρ c (Proc.devRef .tc main_v120) = Cert.Net.rowOf 3 (m ((c : Thread nD τ).loc main_arg7)) := by
  show StableHlo.after hostOps4 (W12 m ρ c) (Proc.devRef .tc main_v120) = _
  after_results
  rw [Carry.arg7_at12 m ρ c]
  exact row_slice 3 ![3, 0] rfl rfl (m ((c : Thread nD τ).loc main_arg7)) _ _ _

/-- Row 3 of the variance table. -/
theorem va13 (c : Dev nD) :
    W13 m ρ c (Proc.devRef .tc main_v121) = Cert.Net.rowOf 3 (m ((c : Thread nD τ).loc main_arg8)) := by
  show StableHlo.after hostOps4 (W12 m ρ c) (Proc.devRef .tc main_v121) = _
  after_results
  rw [Carry.arg8_at12 m ρ c]
  exact row_slice 3 ![3, 0] rfl rfl (m ((c : Thread nD τ).loc main_arg8)) _ _ _

/-! ## Boundary 15: the classifier's operands -/

/-- Rows 0 to 127 of the classifier's first weight matrix. -/
theorem cw0_15 (c : Dev nD) :
    W15 m ρ c (Proc.devRef .tc main_v123) = Cert.Net.rows128 0 (m ((c : Thread nD τ).loc main_arg9)) := by
  show StableHlo.after hostOps5 (W14 m ρ c) (Proc.devRef .tc main_v123) = _
  after_results
  rw [Carry.arg9_at14 m ρ c]
  exact Cert.Layout.rows_of_slice 0 ![0, 0] rfl rfl (m ((c : Thread nD τ).loc main_arg9)) _

/-- Rows 128 to 255 of the classifier's first weight matrix. -/
theorem cw1_15 (c : Dev nD) :
    W15 m ρ c (Proc.devRef .tc main_v124) = Cert.Net.rows128 1 (m ((c : Thread nD τ).loc main_arg9)) := by
  show StableHlo.after hostOps5 (W14 m ρ c) (Proc.devRef .tc main_v124) = _
  after_results
  rw [Carry.arg9_at14 m ρ c]
  exact Cert.Layout.rows_of_slice 1 ![128, 0] rfl rfl (m ((c : Thread nD τ).loc main_arg9)) _

/-- Rows 256 to 383 of the classifier's first weight matrix. -/
theorem cw2_15 (c : Dev nD) :
    W15 m ρ c (Proc.devRef .tc main_v125) = Cert.Net.rows128 2 (m ((c : Thread nD τ).loc main_arg9)) := by
  show StableHlo.after hostOps5 (W14 m ρ c) (Proc.devRef .tc main_v125) = _
  after_results
  rw [Carry.arg9_at14 m ρ c]
  exact Cert.Layout.rows_of_slice 2 ![256, 0] rfl rfl (m ((c : Thread nD τ).loc main_arg9)) _

/-- Rows 384 to 511 of the classifier's first weight matrix. -/
theorem cw3_15 (c : Dev nD) :
    W15 m ρ c (Proc.devRef .tc main_v126) = Cert.Net.rows128 3 (m ((c : Thread nD τ).loc main_arg9)) := by
  show StableHlo.after hostOps5 (W14 m ρ c) (Proc.devRef .tc main_v126) = _
  after_results
  rw [Carry.arg9_at14 m ρ c]
  exact Cert.Layout.rows_of_slice 3 ![384, 0] rfl rfl (m ((c : Thread nD τ).loc main_arg9)) _

/-- The classifier's bias as a row. -/
theorem cb15 (c : Dev nD) :
    W15 m ρ c (Proc.devRef .tc main_v127) = Cert.Net.vecRow (m ((c : Thread nD τ).loc main_arg10)) := by
  show StableHlo.after hostOps5 (W14 m ρ c) (Proc.devRef .tc main_v127) = _
  after_results
  rw [Carry.arg10_at14 m ρ c]
  exact Cert.Layout.row_of_vec (m ((c : Thread nD τ).loc main_arg10)) _

/-- The classifier's scale as a row. -/
theorem cg15 (c : Dev nD) :
    W15 m ρ c (Proc.devRef .tc main_v128) = Cert.Net.vecRow (m ((c : Thread nD τ).loc main_arg11)) := by
  show StableHlo.after hostOps5 (W14 m ρ c) (Proc.devRef .tc main_v128) = _
  after_results
  rw [Carry.arg11_at14 m ρ c]
  exact Cert.Layout.row_of_vec (m ((c : Thread nD τ).loc main_arg11)) _

/-- The classifier's shift as a row. -/
theorem cbe15 (c : Dev nD) :
    W15 m ρ c (Proc.devRef .tc main_v129) = Cert.Net.vecRow (m ((c : Thread nD τ).loc main_arg12)) := by
  show StableHlo.after hostOps5 (W14 m ρ c) (Proc.devRef .tc main_v129) = _
  after_results
  rw [Carry.arg12_at14 m ρ c]
  exact Cert.Layout.row_of_vec (m ((c : Thread nD τ).loc main_arg12)) _

/-- The classifier's mean as a row. -/
theorem cmu15 (c : Dev nD) :
    W15 m ρ c (Proc.devRef .tc main_v130) = Cert.Net.vecRow (m ((c : Thread nD τ).loc main_arg13)) := by
  show StableHlo.after hostOps5 (W14 m ρ c) (Proc.devRef .tc main_v130) = _
  after_results
  rw [Carry.arg13_at14 m ρ c]
  exact Cert.Layout.row_of_vec (m ((c : Thread nD τ).loc main_arg13)) _

/-- The classifier's variance as a row. -/
theorem cva15 (c : Dev nD) :
    W15 m ρ c (Proc.devRef .tc main_v131) = Cert.Net.vecRow (m ((c : Thread nD τ).loc main_arg14)) := by
  show StableHlo.after hostOps5 (W14 m ρ c) (Proc.devRef .tc main_v131) = _
  after_results
  rw [Carry.arg14_at14 m ρ c]
  exact Cert.Layout.row_of_vec (m ((c : Thread nD τ).loc main_arg14)) _

/-! ## Boundary 17: the last bias -/

/-- The last bias as a row. -/
theorem cb1_17 (c : Dev nD) :
    W17 m ρ c (Proc.devRef .tc main_v133) = Cert.Net.vecRow47 (m ((c : Thread nD τ).loc main_arg16)) := by
  show StableHlo.after hostOps6 (W16 m ρ c) (Proc.devRef .tc main_v133) = _
  after_results
  rw [Carry.arg16_at16 m ρ c]
  exact Cert.Layout.row_of_vec47 (m ((c : Thread nD τ).loc main_arg16)) _

end Cert.HostK

end
-- ==== Proof.Rows.lean ====
/-
  Row p of the block of rows that grid point t handles is row 2000 t + p of the array: 25 points, 2000 rows each,
  50000 rows in all.
-/
import Idealize.ShloMosaic.Lib.ValueIdx

namespace Cert.Rows

/-- The array row that row `p` of block `t` is. -/
def row (t : Fin 25) (p : Fin 2000) : Fin 50000 := ⟨2000 * t.val + p.val, by have := t.isLt; have := p.isLt; omega⟩

theorem row_val (t : Fin 25) (p : Fin 2000) : (row t p).val = 2000 * t.val + p.val := rfl

end Cert.Rows
-- ==== Proof.Region0.lean ====
/-
  Region 0 of the idealized kernel, read as a value. The grid has 25 points; point t handles rows
  2000 t .. 2000 t + 1999 of every row-indexed operand (its block index is (t, 0)) and the whole of every other
  operand (block index (0, 0)). So the block of a row-indexed array at point t, at (p, k), is the array at
  (2000 t + p, k); a whole-array block is the array. Since the body's result at row p depends on row p of its
  row-indexed operands only, what point t writes back is block t of the same function of the whole arrays, and the
  25 blocks tile the result array: the array after the region is that function of the arrays at entry.
-/
import proofs.«159722_j12695923327568_2_alg».proof.Proof.Gen.KernelIdeal.Frame
import proofs.«159722_j12695923327568_2_alg».proof.Proof.Net
import proofs.«159722_j12695923327568_2_alg».proof.Proof.Rows
import Idealize.ShloMosaic.Lib.Pipeline.Value
import Idealize.ShloMosaic.Lib.ValueIdx

set_option maxRecDepth 16384

noncomputable section

namespace Cert.Region0

open Cert.KernelIdeal Cert.KernelIdeal.Gen Cert.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: a row-indexed window's block index at point t is (t, 0), a whole-array
    window's is (0, 0). -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block t of window 0's array, at (p, k), is the array at (2000 t + p, k). -/
theorem emb_0 (t : Fin cfg0.N) (y : S2000x128.Idx) :
    ((cfg0.win 0).blk t).view.emb y = ix2 (row (Fin.cast N_0 t) (y 0)) (y 1) := by
  obtain ⟨e0, e1, -, -, -, -, -, -⟩ := idx t
  funext a; apply Fin.ext
  match a with
  | ⟨0, _⟩ => show win0_0.index t (0 : Fin 2) * 2000 + 1 * (y 0).val = 2000 * t.val + (y 0).val; omega
  | ⟨1, _⟩ => show win0_0.index t (1 : Fin 2) * 128 + 1 * (y 1).val = (y 1).val; omega

theorem blk_0 (c : Dev nD) (t : Fin cfg0.N) :
    iblk0 V c 0 t = fun y : S2000x128.Idx => V c (Pipeline.arrRef spec0 0) (ix2 (row (Fin.cast N_0 t) (y 0)) (y 1)) :=
  funext fun y => congrArg (V c (Pipeline.arrRef spec0 0)) (emb_0 t y)

/-- Block t of window 1's array, at (p, k), is the array at (2000 t + p, k). -/
theorem emb_1 (t : Fin cfg0.N) (y : S2000x1.Idx) :
    ((cfg0.win 1).blk t).view.emb y = ix2 (row (Fin.cast N_0 t) (y 0)) (y 1) := by
  obtain ⟨-, -, e0, e1, -, -, -, -⟩ := idx t
  funext a; apply Fin.ext
  match a with
  | ⟨0, _⟩ => show win0_1.index t (0 : Fin 2) * 2000 + 1 * (y 0).val = 2000 * t.val + (y 0).val; omega
  | ⟨1, _⟩ => show win0_1.index t (1 : Fin 2) * 1 + 1 * (y 1).val = (y 1).val; omega

theorem blk_1 (c : Dev nD) (t : Fin cfg0.N) :
    iblk0 V c 1 t = fun y : S2000x1.Idx => V c (Pipeline.arrRef spec0 1) (ix2 (row (Fin.cast N_0 t) (y 0)) (y 1)) :=
  funext fun y => congrArg (V c (Pipeline.arrRef spec0 1)) (emb_1 t y)

/-- Window 2's block is the whole array. -/
theorem emb_2 (t : Fin cfg0.N) (y : S128x128.Idx) : ((cfg0.win 2).blk t).view.emb y = y := by
  obtain ⟨-, -, -, -, e0, e1, -, -⟩ := idx t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk_2 (c : Dev nD) (t : Fin cfg0.N) : iblk0 V c 2 t = V c (Pipeline.arrRef spec0 2) :=
  funext fun y => congrArg (V c (Pipeline.arrRef spec0 2)) (emb_2 t y)

/-- Block t of window 3's array, at (p, k), is the array at (2000 t + p, k). -/
theorem emb_3 (t : Fin cfg0.N) (y : S2000x128.Idx) :
    ((cfg0.win 3).blk t).view.emb y = ix2 (row (Fin.cast N_0 t) (y 0)) (y 1) := by
  obtain ⟨-, -, -, -, -, -, e0, e1⟩ := idx t
  funext a; apply Fin.ext
  match a with
  | ⟨0, _⟩ => show win0_3.index t (0 : Fin 2) * 2000 + 1 * (y 0).val = 2000 * t.val + (y 0).val; omega
  | ⟨1, _⟩ => show win0_3.index t (1 : Fin 2) * 128 + 1 * (y 1).val = (y 1).val; omega

/-! ## Output window 3 -/

/-- What point t writes back is block t of the whole-array function. -/
theorem flushed_3 (hbody : ∀ x0 x1 x2, out0_3 (F := Ideal) x0 x1 x2 = Cert.Net.pre x0 x1 x2)
    (c : Dev nD) (t : Fin cfg0.N) :
    (dat0 V c).flushed 3 t = ((cfg0.win 3).blk t).view.read (Elt Ideal) (Cert.Net.pre (V c (Pipeline.arrRef spec0 0)) (V c (Pipeline.arrRef spec0 1)) (V c (Pipeline.arrRef spec0 2))) := by
  show (cfg0.win 3).cut (grid0.coords t) ((dat0 V c).after 3 t) = _
  rw [after0_3, hbody, blk_0 V c t, blk_1 V c t, blk_2 V c t]
  funext y
  show _ = Cert.Net.pre (V c (Pipeline.arrRef spec0 0)) (V c (Pipeline.arrRef spec0 1)) (V c (Pipeline.arrRef spec0 2)) (((cfg0.win 3).blk t).view.emb y)
  rw [emb_3 t y]
  rfl

/-- An index of the result array is in point t's block iff each coordinate is in the block's range. -/
theorem mem_blk_3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v16).slice (win0_3.rect t)).set ↔ _
  rw [View.set_slice_whole, Rect.mem_set_unit]
  exact Iff.rfl

/-- Row r of the result array is in the block of point r / 2000. -/
theorem covered_3 (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  have hN : (i 0).val / 2000 < cfg0.N := by rw [show cfg0.N = 25 from N_0]; omega
  obtain ⟨t, ht⟩ : ∃ t : Fin cfg0.N, t.val = (i 0).val / 2000 := ⟨⟨(i 0).val / 2000, hN⟩, rfl⟩
  obtain ⟨-, -, -, -, -, -, e0, e1⟩ := idx t
  refine ⟨t, flush0_3 t, ?_⟩
  rw [mem_blk_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The array after the region. -/
theorem final_3 (hbody : ∀ x0 x1 x2, out0_3 (F := Ideal) x0 x1 x2 = Cert.Net.pre x0 x1 x2) (c : Dev nD) :
    (dat0 V c).arrAt 3 cfg0.N = Cert.Net.pre (V c (Pipeline.arrRef spec0 0)) (V c (Pipeline.arrRef spec0 1)) (V c (Pipeline.arrRef spec0 2)) :=
  (dat0 V c).arrAt_eq_of_cover 3 _ (fun t _ => flushed_3 V hbody c t) covered_3

end Cert.Region0

end
-- ==== Proof.NetRows.lean ====
/-
  Each function of the network reads row p of its result from row p of its row-indexed operands. So if the
  operands of a block are the rows e p of the operands of the whole (and the per-column operands are the same),
  the function of the block, at row p, is the function of the whole at row e p.
-/
import proofs.«159722_j12695923327568_2_alg».proof.Proof.Net

noncomputable section

open scoped BigOperators

namespace Cert.Net

open Idealize.ShloMosaic Idealize.ShloMosaic.ValueIdx

variable {R R' : Nat} (e : Fin R' → Fin R)

theorem pre_blk {h : Mat R 128} {ns : Mat R 1} {w : Mat 128 128} {h' : Mat R' 128} {ns' : Mat R' 1} {w' : Mat 128 128}
    (hh : ∀ y, h' y = h (ix2 (e (y 0)) (y 1))) (hns : ∀ y, ns' y = ns (ix2 (e (y 0)) (y 1))) (hw : w' = w)
    (y : (⟨2, ![R', 128]⟩ : Shape).Idx) : pre h' ns' w' y = pre h ns w (ix2 (e (y 0)) (y 1)) := by
  subst hw
  unfold pre
  refine Finset.sum_congr rfl fun k _ => ?_
  rw [hh, hns]
  rfl

theorem post_blk {a : Mat R 128} {nd : Mat R 1} {b g be mu va : Mat 1 128} {a' : Mat R' 128} {nd' : Mat R' 1}
    {b' g' be' mu' va' : Mat 1 128}
    (ha : ∀ y, a' y = a (ix2 (e (y 0)) (y 1))) (hnd : ∀ y, nd' y = nd (ix2 (e (y 0)) (y 1)))
    (hb : b' = b) (hg : g' = g) (hbe : be' = be) (hmu : mu' = mu) (hva : va' = va)
    (y : (⟨2, ![R', 128]⟩ : Shape).Idx) :
    post a' nd' b' g' be' mu' va' y = post a nd b g be mu va (ix2 (e (y 0)) (y 1)) := by
  subst hb hg hbe hmu hva
  unfold post
  rw [ha, hnd]
  rfl

theorem cls0_blk {h0 h1 h2 h3 : Mat R 128} {w0 w1 w2 w3 : Mat 128 128} {b g be mu va : Mat 1 128}
    {h0' h1' h2' h3' : Mat R' 128} {w0' w1' w2' w3' : Mat 128 128} {b' g' be' mu' va' : Mat 1 128}
    (e0 : ∀ y, h0' y = h0 (ix2 (e (y 0)) (y 1))) (e1 : ∀ y, h1' y = h1 (ix2 (e (y 0)) (y 1)))
    (e2 : ∀ y, h2' y = h2 (ix2 (e (y 0)) (y 1))) (e3 : ∀ y, h3' y = h3 (ix2 (e (y 0)) (y 1)))
    (f0 : w0' = w0) (f1 : w1' = w1) (f2 : w2' = w2) (f3 : w3' = w3)
    (hb : b' = b) (hg : g' = g) (hbe : be' = be) (hmu : mu' = mu) (hva : va' = va)
    (y : (⟨2, ![R', 128]⟩ : Shape).Idx) :
    cls0 h0' h1' h2' h3' w0' w1' w2' w3' b' g' be' mu' va' y
      = cls0 h0 h1 h2 h3 w0 w1 w2 w3 b g be mu va (ix2 (e (y 0)) (y 1)) := by
  subst f0 f1 f2 f3 hb hg hbe hmu hva
  unfold cls0
  have s0 : (∑ k : Fin 128, h0' (ix2 (y 0) k) * w0' (ix2 k (y 1))) = ∑ k : Fin 128, h0 (ix2 (e (y 0)) k) * w0' (ix2 k (y 1)) :=
    Finset.sum_congr rfl fun k _ => by rw [e0]; rfl
  have s1 : (∑ k : Fin 128, h1' (ix2 (y 0) k) * w1' (ix2 k (y 1))) = ∑ k : Fin 128, h1 (ix2 (e (y 0)) k) * w1' (ix2 k (y 1)) :=
    Finset.sum_congr rfl fun k _ => by rw [e1]; rfl
  have s2 : (∑ k : Fin 128, h2' (ix2 (y 0) k) * w2' (ix2 k (y 1))) = ∑ k : Fin 128, h2 (ix2 (e (y 0)) k) * w2' (ix2 k (y 1)) :=
    Finset.sum_congr rfl fun k _ => by rw [e2]; rfl
  have s3 : (∑ k : Fin 128, h3' (ix2 (y 0) k) * w3' (ix2 k (y 1))) = ∑ k : Fin 128, h3 (ix2 (e (y 0)) k) * w3' (ix2 k (y 1)) :=
    Finset.sum_congr rfl fun k _ => by rw [e3]; rfl
  rw [s0, s1, s2, s3]
  rfl

theorem cls1_blk {x : Mat R 128} {w : Mat 128 47} {b : Mat 1 47} {x' : Mat R' 128} {w' : Mat 128 47} {b' : Mat 1 47}
    (hx : ∀ y, x' y = x (ix2 (e (y 0)) (y 1))) (hw : w' = w) (hb : b' = b)
    (y : (⟨2, ![R', 47]⟩ : Shape).Idx) : cls1 x' w' b' y = cls1 x w b (ix2 (e (y 0)) (y 1)) := by
  subst hw hb
  unfold cls1
  have s : (∑ k : Fin 128, x' (ix2 (y 0) k) * w' (ix2 k (y 1))) = ∑ k : Fin 128, x (ix2 (e (y 0)) k) * w' (ix2 k (y 1)) :=
    Finset.sum_congr rfl fun k _ => by rw [hx]; rfl
  rw [s]
  rfl

end Cert.Net

end
-- ==== Proof.Region1.lean ====
/-
  Region 1 of the idealized kernel, read as a value. The grid has 25 points; point t handles rows
  2000 t .. 2000 t + 1999 of every row-indexed operand (its block index is (t, 0)) and the whole of every other
  operand (block index (0, 0)). So the block of a row-indexed array at point t, at (p, k), is the array at
  (2000 t + p, k); a whole-array block is the array. Since the body's result at row p depends on row p of its
  row-indexed operands only, what point t writes back is block t of the same function of the whole arrays, and the
  25 blocks tile the result array: the array after the region is that function of the arrays at entry.
-/
import proofs.«159722_j12695923327568_2_alg».proof.Proof.Gen.KernelIdeal.Frame
import proofs.«159722_j12695923327568_2_alg».proof.Proof.Net
import proofs.«159722_j12695923327568_2_alg».proof.Proof.NetRows
import proofs.«159722_j12695923327568_2_alg».proof.Proof.Rows
import Idealize.ShloMosaic.Lib.Pipeline.Value
import Idealize.ShloMosaic.Lib.ValueIdx

set_option maxRecDepth 16384

noncomputable section

namespace Cert.Region1

open Cert.KernelIdeal Cert.KernelIdeal.Gen Cert.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: a row-indexed window's block index at point t is (t, 0), a whole-array
    window's is (0, 0). -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- Block t of window 0's array, at (p, k), is the array at (2000 t + p, k). -/
theorem emb_0 (t : Fin cfg1.N) (y : S2000x128.Idx) :
    ((cfg1.win 0).blk t).view.emb y = ix2 (row (Fin.cast N_1 t) (y 0)) (y 1) := by
  obtain ⟨e0, e1, -, -, -, -, -, -, -, -, -, -, -, -, -, -, -, -, -, -, -, -⟩ := idx t
  funext a; apply Fin.ext
  match a with
  | ⟨0, _⟩ => show win1_0.index t (0 : Fin 2) * 2000 + 1 * (y 0).val = 2000 * t.val + (y 0).val; omega
  | ⟨1, _⟩ => show win1_0.index t (1 : Fin 2) * 128 + 1 * (y 1).val = (y 1).val; omega

theorem blk_0 (c : Dev nD) (t : Fin cfg1.N) :
    iblk1 V c 0 t = fun y : S2000x128.Idx => V c (Pipeline.arrRef spec1 0) (ix2 (row (Fin.cast N_1 t) (y 0)) (y 1)) :=
  funext fun y => congrArg (V c (Pipeline.arrRef spec1 0)) (emb_0 t y)

/-- Block t of window 1's array, at (p, k), is the array at (2000 t + p, k). -/
theorem emb_1 (t : Fin cfg1.N) (y : S2000x1.Idx) :
    ((cfg1.win 1).blk t).view.emb y = ix2 (row (Fin.cast N_1 t) (y 0)) (y 1) := by
  obtain ⟨-, -, e0, e1, -, -, -, -, -, -, -, -, -, -, -, -, -, -, -, -, -, -⟩ := idx t
  funext a; apply Fin.ext
  match a with
  | ⟨0, _⟩ => show win1_1.index t (0 : Fin 2) * 2000 + 1 * (y 0).val = 2000 * t.val + (y 0).val; omega
  | ⟨1, _⟩ => show win1_1.index t (1 : Fin 2) * 1 + 1 * (y 1).val = (y 1).val; omega

theorem blk_1 (c : Dev nD) (t : Fin cfg1.N) :
    iblk1 V c 1 t = fun y : S2000x1.Idx => V c (Pipeline.arrRef spec1 1) (ix2 (row (Fin.cast N_1 t) (y 0)) (y 1)) :=
  funext fun y => congrArg (V c (Pipeline.arrRef spec1 1)) (emb_1 t y)

/-- Block t of window 2's array, at (p, k), is the array at (2000 t + p, k). -/
theorem emb_2 (t : Fin cfg1.N) (y : S2000x1.Idx) :
    ((cfg1.win 2).blk t).view.emb y = ix2 (row (Fin.cast N_1 t) (y 0)) (y 1) := by
  obtain ⟨-, -, -, -, e0, e1, -, -, -, -, -, -, -, -, -, -, -, -, -, -, -, -⟩ := idx t
  funext a; apply Fin.ext
  match a with
  | ⟨0, _⟩ => show win1_2.index t (0 : Fin 2) * 2000 + 1 * (y 0).val = 2000 * t.val + (y 0).val; omega
  | ⟨1, _⟩ => show win1_2.index t (1 : Fin 2) * 1 + 1 * (y 1).val = (y 1).val; omega

theorem blk_2 (c : Dev nD) (t : Fin cfg1.N) :
    iblk1 V c 2 t = fun y : S2000x1.Idx => V c (Pipeline.arrRef spec1 2) (ix2 (row (Fin.cast N_1 t) (y 0)) (y 1)) :=
  funext fun y => congrArg (V c (Pipeline.arrRef spec1 2)) (emb_2 t y)

/-- Window 3's block is the whole array. -/
theorem emb_3 (t : Fin cfg1.N) (y : S1x128.Idx) : ((cfg1.win 3).blk t).view.emb y = y := by
  obtain ⟨-, -, -, -, -, -, e0, e1, -, -, -, -, -, -, -, -, -, -, -, -, -, -⟩ := idx t
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem blk_3 (c : Dev nD) (t : Fin cfg1.N) : iblk1 V c 3 t = V c (Pipeline.arrRef spec1 3) :=
  funext fun y => congrArg (V c (Pipeline.arrRef spec1 3)) (emb_3 t y)

/-- Window 4's block is the whole array. -/
theorem emb_4 (t : Fin cfg1.N) (y : S1x128.Idx) : ((cfg1.win 4).blk t).view.emb y = y := by
  obtain ⟨-, -, -, -, -, -, -, -, e0, e1, -, -, -, -, -, -, -, -, -, -, -, -⟩ := idx t
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem blk_4 (c : Dev nD) (t : Fin cfg1.N) : iblk1 V c 4 t = V c (Pipeline.arrRef spec1 4) :=
  funext fun y => congrArg (V c (Pipeline.arrRef spec1 4)) (emb_4 t y)

/-- Window 5's block is the whole array. -/
theorem emb_5 (t : Fin cfg1.N) (y : S1x128.Idx) : ((cfg1.win 5).blk t).view.emb y = y := by
  obtain ⟨-, -, -, -, -, -, -, -, -, -, e0, e1, -, -, -, -, -, -, -, -, -, -⟩ := idx t
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem blk_5 (c : Dev nD) (t : Fin cfg1.N) : iblk1 V c 5 t = V c (Pipeline.arrRef spec1 5) :=
  funext fun y => congrArg (V c (Pipeline.arrRef spec1 5)) (emb_5 t y)

/-- Window 6's block is the whole array. -/
theorem emb_6 (t : Fin cfg1.N) (y : S1x128.Idx) : ((cfg1.win 6).blk t).view.emb y = y := by
  obtain ⟨-, -, -, -, -, -, -, -, -, -, -, -, e0, e1, -, -, -, -, -, -, -, -⟩ := idx t
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

theorem blk_6 (c : Dev nD) (t : Fin cfg1.N) : iblk1 V c 6 t = V c (Pipeline.arrRef spec1 6) :=
  funext fun y => congrArg (V c (Pipeline.arrRef spec1 6)) (emb_6 t y)

/-- Window 7's block is the whole array. -/
theorem emb_7 (t : Fin cfg1.N) (y : S1x128.Idx) : ((cfg1.win 7).blk t).view.emb y = y := by
  obtain ⟨-, -, -, -, -, -, -, -, -, -, -, -, -, -, e0, e1, -, -, -, -, -, -⟩ := idx t
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

theorem blk_7 (c : Dev nD) (t : Fin cfg1.N) : iblk1 V c 7 t = V c (Pipeline.arrRef spec1 7) :=
  funext fun y => congrArg (V c (Pipeline.arrRef spec1 7)) (emb_7 t y)

/-- Window 8's block is the whole array. -/
theorem emb_8 (t : Fin cfg1.N) (y : S128x128.Idx) : ((cfg1.win 8).blk t).view.emb y = y := by
  obtain ⟨-, -, -, -, -, -, -, -, -, -, -, -, -, -, -, -, e0, e1, -, -, -, -⟩ := idx t
  funext a; apply Fin.ext
  match a with
  | ⟨0, _⟩ => show win1_8.index t (0 : Fin 2) * 128 + 1 * (y 0).val = (y 0).val; omega
  | ⟨1, _⟩ => show win1_8.index t (1 : Fin 2) * 128 + 1 * (y 1).val = (y 1).val; omega

theorem blk_8 (c : Dev nD) (t : Fin cfg1.N) : iblk1 V c 8 t = V c (Pipeline.arrRef spec1 8) :=
  funext fun y => congrArg (V c (Pipeline.arrRef spec1 8)) (emb_8 t y)

/-- Block t of window 9's array, at (p, k), is the array at (2000 t + p, k). -/
theorem emb_9 (t : Fin cfg1.N) (y : S2000x128.Idx) :
    ((cfg1.win 9).blk t).view.emb y = ix2 (row (Fin.cast N_1 t) (y 0)) (y 1) := by
  obtain ⟨-, -, -, -, -, -, -, -, -, -, -, -, -, -, -, -, -, -, e0, e1, -, -⟩ := idx t
  funext a; apply Fin.ext
  match a with
  | ⟨0, _⟩ => show win1_9.index t (0 : Fin 2) * 2000 + 1 * (y 0).val = 2000 * t.val + (y 0).val; omega
  | ⟨1, _⟩ => show win1_9.index t (1 : Fin 2) * 128 + 1 * (y 1).val = (y 1).val; omega

/-- Block t of window 10's array, at (p, k), is the array at (2000 t + p, k). -/
theorem emb_10 (t : Fin cfg1.N) (y : S2000x128.Idx) :
    ((cfg1.win 10).blk t).view.emb y = ix2 (row (Fin.cast N_1 t) (y 0)) (y 1) := by
  obtain ⟨-, -, -, -, -, -, -, -, -, -, -, -, -, -, -, -, -, -, -, -, e0, e1⟩ := idx t
  funext a; apply Fin.ext
  match a with
  | ⟨0, _⟩ => show win1_10.index t (0 : Fin 2) * 2000 + 1 * (y 0).val = 2000 * t.val + (y 0).val; omega
  | ⟨1, _⟩ => show win1_10.index t (1 : Fin 2) * 128 + 1 * (y 1).val = (y 1).val; omega

/-! ## Output window 9 -/

set_option maxHeartbeats 4000000 in
/-- What point t writes back is block t of the whole-array function. -/
theorem flushed_9 (hbody : ∀ x0 x1 x2 x3 x4 x5 x6 x7 x8, out1_9 (F := Ideal) x0 x1 x2 x3 x4 x5 x6 x7 x8 = Cert.Net.post x0 x1 x3 x4 x5 x6 x7)
    (c : Dev nD) (t : Fin cfg1.N) :
    (dat1 V c).flushed 9 t = ((cfg1.win 9).blk t).view.read (Elt Ideal) (Cert.Net.post (V c (Pipeline.arrRef spec1 0)) (V c (Pipeline.arrRef spec1 1)) (V c (Pipeline.arrRef spec1 3)) (V c (Pipeline.arrRef spec1 4)) (V c (Pipeline.arrRef spec1 5)) (V c (Pipeline.arrRef spec1 6)) (V c (Pipeline.arrRef spec1 7))) := by
  show (cfg1.win 9).cut (grid1.coords t) ((dat1 V c).after 9 t) = _
  rw [after1_9, hbody]
  funext y
  show _ = Cert.Net.post (V c (Pipeline.arrRef spec1 0)) (V c (Pipeline.arrRef spec1 1)) (V c (Pipeline.arrRef spec1 3)) (V c (Pipeline.arrRef spec1 4)) (V c (Pipeline.arrRef spec1 5)) (V c (Pipeline.arrRef spec1 6)) (V c (Pipeline.arrRef spec1 7)) (((cfg1.win 9).blk t).view.emb y)
  rw [emb_9 t y]
  exact Cert.Net.post_blk (row (Fin.cast N_1 t)) (fun y => congrArg (V c (Pipeline.arrRef spec1 0)) (emb_0 t y)) (fun y => congrArg (V c (Pipeline.arrRef spec1 1)) (emb_1 t y)) (blk_3 V c t) (blk_4 V c t) (blk_5 V c t) (blk_6 V c t) (blk_7 V c t) y

/-- An index of the result array is in point t's block iff each coordinate is in the block's range. -/
theorem mem_blk_9 (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v43_0).slice (win1_9.rect t)).set ↔ _
  rw [View.set_slice_whole, Rect.mem_set_unit]
  exact Iff.rfl

/-- Row r of the result array is in the block of point r / 2000. -/
theorem covered_9 (i : S50000x128.Idx) : ∃ t : Fin cfg1.N, (cfg1.win 9).flush t = true ∧ i ∈ ((cfg1.win 9).blk t).view.set := by
  have hi0 : (i 0).val < 50000 := idx2_lt0 i
  have hi1 : (i 1).val < 128 := idx2_lt1 i
  have hN : (i 0).val / 2000 < cfg1.N := by rw [show cfg1.N = 25 from N_1]; omega
  obtain ⟨t, ht⟩ : ∃ t : Fin cfg1.N, t.val = (i 0).val / 2000 := ⟨⟨(i 0).val / 2000, hN⟩, rfl⟩
  obtain ⟨-, -, -, -, -, -, -, -, -, -, -, -, -, -, -, -, -, -, e0, e1, -, -⟩ := idx t
  refine ⟨t, flush1_9 t, ?_⟩
  rw [mem_blk_9]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

/-- The array after the region. -/
theorem final_9 (hbody : ∀ x0 x1 x2 x3 x4 x5 x6 x7 x8, out1_9 (F := Ideal) x0 x1 x2 x3 x4 x5 x6 x7 x8 = Cert.Net.post x0 x1 x3 x4 x5 x6 x7) (c : Dev nD) :
    (dat1 V c).arrAt 9 cfg1.N = Cert.Net.post (V c (Pipeline.arrRef spec1 0)) (V c (Pipeline.arrRef spec1 1)) (V c (Pipeline.arrRef spec1 3)) (V c (Pipeline.arrRef spec1 4)) (V c (Pipeline.arrRef spec1 5)) (V c (Pipeline.arrRef spec1 6)) (V c (Pipeline.arrRef spec1 7)) :=
  (dat1 V c).arrAt_eq_of_cover 9 _ (fun t _ => flushed_9 V hbody c t) covered_9

/-! ## Output window 10 -/

set_option maxHeartbeats 4000000 in
/-- What point t writes back is block t of the whole-array function. -/
theorem flushed_10 (hbody : ∀ x0 x1 x2 x3 x4 x5 x6 x7 x8, out1_10 (F := Ideal) x0 x1 x2 x3 x4 x5 x6 x7 x8 = Cert.Net.pre (Cert.Net.post x0 x1 x3 x4 x5 x6 x7) x2 x8)
    (c : Dev nD) (t : Fin cfg1.N) :
    (dat1 V c).flushed 10 t = ((cfg1.win 10).blk t).view.read (Elt Ideal) (Cert.Net.pre (Cert.Net.post (V c (Pipeline.arrRef spec1 0)) (V c (Pipeline.arrRef spec1 1)) (V c (Pipeline.arrRef spec1 3)) (V c (Pipeline.arrRef spec1 4)) (V c (Pipeline.arrRef spec1 5)) (V c (Pipeline.arrRef spec1 6)) (V c (Pipeline.arrRef spec1 7))) (V c (Pipeline.arrRef spec1 2)) (V c (Pipeline.arrRef spec1 8))) := by
  show (cfg1.win 10).cut (grid1.coords t) ((dat1 V c).after 10 t) = _
  rw [after1_10, hbody]
  funext y
  show _ = Cert.Net.pre (Cert.Net.post (V c (Pipeline.arrRef spec1 0)) (V c (Pipeline.arrRef spec1 1)) (V c (Pipeline.arrRef spec1 3)) (V c (Pipeline.arrRef spec1 4)) (V c (Pipeline.arrRef spec1 5)) (V c (Pipeline.arrRef spec1 6)) (V c (Pipeline.arrRef spec1 7))) (V c (Pipeline.arrRef spec1 2)) (V c (Pipeline.arrRef spec1 8)) (((cfg1.win 10).blk t).view.emb y)
  rw [emb_10 t y]
  exact Cert.Net.pre_blk (row (Fin.cast N_1 t)) (fun y => Cert.Net.post_blk (row (Fin.cast N_1 t)) (fun y => congrArg (V c (Pipeline.arrRef spec1 0)) (emb_0 t y)) (fun y => congrArg (V c (Pipeline.arrRef spec1 1)) (emb_1 t y)) (blk_3 V c t) (blk_4 V c t) (blk_5 V c t) (blk_6 V c t) (blk_7 V c t) y) (fun y => congrArg (V c (Pipeline.arrRef spec1 2)) (emb_2 t y)) (blk_8 V c t) y

/-- An index of the result array is in point t's block iff each coordinate is in the block's range. -/
theorem mem_blk_10 (t : Fin cfg1.N) (i : S50000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v43_1).slice (win1_10.rect t)).set ↔ _
  rw [View.set_slice_whole, Rect.mem_set_unit]
  exact Iff.rfl

/-- Row r of the result array is in the block of point r / 2000. -/
theorem covered_10 (i : S50000x128.Idx) : ∃ t : Fin cfg1.N, (cfg1.win 10).flush t = true ∧ i ∈ ((cfg1.win 10).blk t).view.set := by
  have hi0 : (i 0).val < 50000 := idx2_lt0 i
  have hi1 : (i 1).val < 128 := idx2_lt1 i
  have hN : (i 0).val / 2000 < cfg1.N := by rw [show cfg1.N = 25 from N_1]; omega
  obtain ⟨t, ht⟩ : ∃ t : Fin cfg1.N, t.val = (i 0).val / 2000 := ⟨⟨(i 0).val / 2000, hN⟩, rfl⟩
  obtain ⟨-, -, -, -, -, -, -, -, -, -, -, -, -, -, -, -, -, -, -, -, e0, e1⟩ := idx t
  refine ⟨t, flush1_10 t, ?_⟩
  rw [mem_blk_10]
  intro a
  match a with
  | ⟨0, _⟩ => show win1_10.index t (0 : Fin 2) * 2000 ≤ (i 0).val ∧ (i 0).val < win1_10.index t (0 : Fin 2) * 2000 + 2000; omega
  | ⟨1, _⟩ => show win1_10.index t (1 : Fin 2) * 128 ≤ (i 1).val ∧ (i 1).val < win1_10.index t (1 : Fin 2) * 128 + 128; omega

/-- The array after the region. -/
theorem final_10 (hbody : ∀ x0 x1 x2 x3 x4 x5 x6 x7 x8, out1_10 (F := Ideal) x0 x1 x2 x3 x4 x5 x6 x7 x8 = Cert.Net.pre (Cert.Net.post x0 x1 x3 x4 x5 x6 x7) x2 x8) (c : Dev nD) :
    (dat1 V c).arrAt 10 cfg1.N = Cert.Net.pre (Cert.Net.post (V c (Pipeline.arrRef spec1 0)) (V c (Pipeline.arrRef spec1 1)) (V c (Pipeline.arrRef spec1 3)) (V c (Pipeline.arrRef spec1 4)) (V c (Pipeline.arrRef spec1 5)) (V c (Pipeline.arrRef spec1 6)) (V c (Pipeline.arrRef spec1 7))) (V c (Pipeline.arrRef spec1 2)) (V c (Pipeline.arrRef spec1 8)) :=
  (dat1 V c).arrAt_eq_of_cover 10 _ (fun t _ => flushed_10 V hbody c t) covered_10

end Cert.Region1

end
-- ==== Proof.Region2.lean ====
/-
  Region 2 of the idealized kernel, read as a value. The grid has 25 points; point t handles rows
  2000 t .. 2000 t + 1999 of every row-indexed operand (its block index is (t, 0)) and the whole of every other
  operand (block index (0, 0)). So the block of a row-indexed array at point t, at (p, k), is the array at
  (2000 t + p, k); a whole-array block is the array. Since the body's result at row p depends on row p of its
  row-indexed operands only, what point t writes back is block t of the same function of the whole arrays, and the
  25 blocks tile the result array: the array after the region is that function of the arrays at entry.
-/
import proofs.«159722_j12695923327568_2_alg».proof.Proof.Gen.KernelIdeal.Frame
import proofs.«159722_j12695923327568_2_alg».proof.Proof.Net
import proofs.«159722_j12695923327568_2_alg».proof.Proof.NetRows
import proofs.«159722_j12695923327568_2_alg».proof.Proof.Rows
import Idealize.ShloMosaic.Lib.Pipeline.Value
import Idealize.ShloMosaic.Lib.ValueIdx

set_option maxRecDepth 16384

noncomputable section

namespace Cert.Region2

open Cert.KernelIdeal Cert.KernelIdeal.Gen Cert.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: a row-indexed window's block index at point t is (t, 0), a whole-array
    window's is (0, 0). -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0
    ∧ win2_10.index t (0 : Fin 2) = t.val ∧ win2_10.index t (1 : Fin 2) = 0 :=
  (by decide +kernel : ∀ t : Fin grid2.N, _)

/-- Block t of window 0's array, at (p, k), is the array at (2000 t + p, k). -/
theorem emb_0 (t : Fin cfg2.N) (y : S2000x128.Idx) :
    ((cfg2.win 0).blk t).view.emb y = ix2 (row (Fin.cast N_2 t) (y 0)) (y 1) := by
  obtain ⟨e0, e1, -, -, -, -, -, -, -, -, -, -, -, -, -, -, -, -, -, -, -, -⟩ := idx t
  funext a; apply Fin.ext
  match a with
  | ⟨0, _⟩ => show win2_0.index t (0 : Fin 2) * 2000 + 1 * (y 0).val = 2000 * t.val + (y 0).val; omega
  | ⟨1, _⟩ => show win2_0.index t (1 : Fin 2) * 128 + 1 * (y 1).val = (y 1).val; omega

theorem blk_0 (c : Dev nD) (t : Fin cfg2.N) :
    iblk2 V c 0 t = fun y : S2000x128.Idx => V c (Pipeline.arrRef spec2 0) (ix2 (row (Fin.cast N_2 t) (y 0)) (y 1)) :=
  funext fun y => congrArg (V c (Pipeline.arrRef spec2 0)) (emb_0 t y)

/-- Block t of window 1's array, at (p, k), is the array at (2000 t + p, k). -/
theorem emb_1 (t : Fin cfg2.N) (y : S2000x1.Idx) :
    ((cfg2.win 1).blk t).view.emb y = ix2 (row (Fin.cast N_2 t) (y 0)) (y 1) := by
  obtain ⟨-, -, e0, e1, -, -, -, -, -, -, -, -, -, -, -, -, -, -, -, -, -, -⟩ := idx t
  funext a; apply Fin.ext
  match a with
  | ⟨0, _⟩ => show win2_1.index t (0 : Fin 2) * 2000 + 1 * (y 0).val = 2000 * t.val + (y 0).val; omega
  | ⟨1, _⟩ => show win2_1.index t (1 : Fin 2) * 1 + 1 * (y 1).val = (y 1).val; omega

theorem blk_1 (c : Dev nD) (t : Fin cfg2.N) :
    iblk2 V c 1 t = fun y : S2000x1.Idx => V c (Pipeline.arrRef spec2 1) (ix2 (row (Fin.cast N_2 t) (y 0)) (y 1)) :=
  funext fun y => congrArg (V c (Pipeline.arrRef spec2 1)) (emb_1 t y)

/-- Block t of window 2's array, at (p, k), is the array at (2000 t + p, k). -/
theorem emb_2 (t : Fin cfg2.N) (y : S2000x1.Idx) :
    ((cfg2.win 2).blk t).view.emb y = ix2 (row (Fin.cast N_2 t) (y 0)) (y 1) := by
  obtain ⟨-, -, -, -, e0, e1, -, -, -, -, -, -, -, -, -, -, -, -, -, -, -, -⟩ := idx t
  funext a; apply Fin.ext
  match a with
  | ⟨0, _⟩ => show win2_2.index t (0 : Fin 2) * 2000 + 1 * (y 0).val = 2000 * t.val + (y 0).val; omega
  | ⟨1, _⟩ => show win2_2.index t (1 : Fin 2) * 1 + 1 * (y 1).val = (y 1).val; omega

theorem blk_2 (c : Dev nD) (t : Fin cfg2.N) :
    iblk2 V c 2 t = fun y : S2000x1.Idx => V c (Pipeline.arrRef spec2 2) (ix2 (row (Fin.cast N_2 t) (y 0)) (y 1)) :=
  funext fun y => congrArg (V c (Pipeline.arrRef spec2 2)) (emb_2 t y)

/-- Window 3's block is the whole array. -/
theorem emb_3 (t : Fin cfg2.N) (y : S1x128.Idx) : ((cfg2.win 3).blk t).view.emb y = y := by
  obtain ⟨-, -, -, -, -, -, e0, e1, -, -, -, -, -, -, -, -, -, -, -, -, -, -⟩ := idx t
  funext a; apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

theorem blk_3 (c : Dev nD) (t : Fin cfg2.N) : iblk2 V c 3 t = V c (Pipeline.arrRef spec2 3) :=
  funext fun y => congrArg (V c (Pipeline.arrRef spec2 3)) (emb_3 t y)

/-- Window 4's block is the whole array. -/
theorem emb_4 (t : Fin cfg2.N) (y : S1x128.Idx) : ((cfg2.win 4).blk t).view.emb y = y := by
  obtain ⟨-, -, -, -, -, -, -, -, e0, e1, -, -, -, -, -, -, -, -, -, -, -, -⟩ := idx t
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

theorem blk_4 (c : Dev nD) (t : Fin cfg2.N) : iblk2 V c 4 t = V c (Pipeline.arrRef spec2 4) :=
  funext fun y => congrArg (V c (Pipeline.arrRef spec2 4)) (emb_4 t y)

/-- Window 5's block is the whole array. -/
theorem emb_5 (t : Fin cfg2.N) (y : S1x128.Idx) : ((cfg2.win 5).blk t).view.emb y = y := by
  obtain ⟨-, -, -, -, -, -, -, -, -, -, e0, e1, -, -, -, -, -, -, -, -, -, -⟩ := idx t
  funext a; apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

theorem blk_5 (c : Dev nD) (t : Fin cfg2.N) : iblk2 V c 5 t = V c (Pipeline.arrRef spec2 5) :=
  funext fun y => congrArg (V c (Pipeline.arrRef spec2 5)) (emb_5 t y)

/-- Window 6's block is the whole array. -/
theorem emb_6 (t : Fin cfg2.N) (y : S1x128.Idx) : ((cfg2.win 6).blk t).view.emb y = y := by
  obtain ⟨-, -, -, -, -, -, -, -, -, -, -, -, e0, e1, -, -, -, -, -, -, -, -⟩ := idx t
  funext a; apply Fin.ext
  match a with
  | ⟨0, _⟩ => show win2_6.index t (0 : Fin 2) * 1 + 1 * (y 0).val = (y 0).val; omega
  | ⟨1, _⟩ => show win2_6.index t (1 : Fin 2) * 128 + 1 * (y 1).val = (y 1).val; omega

theorem blk_6 (c : Dev nD) (t : Fin cfg2.N) : iblk2 V c 6 t = V c (Pipeline.arrRef spec2 6) :=
  funext fun y => congrArg (V c (Pipeline.arrRef spec2 6)) (emb_6 t y)

/-- Window 7's block is the whole array. -/
theorem emb_7 (t : Fin cfg2.N) (y : S1x128.Idx) : ((cfg2.win 7).blk t).view.emb y = y := by
  obtain ⟨-, -, -, -, -, -, -, -, -, -, -, -, -, -, e0, e1, -, -, -, -, -, -⟩ := idx t
  funext a; apply Fin.ext
  match a with
  | ⟨0, _⟩ => show win2_7.index t (0 : Fin 2) * 1 + 1 * (y 0).val = (y 0).val; omega
  | ⟨1, _⟩ => show win2_7.index t (1 : Fin 2) * 128 + 1 * (y 1).val = (y 1).val; omega

theorem blk_7 (c : Dev nD) (t : Fin cfg2.N) : iblk2 V c 7 t = V c (Pipeline.arrRef spec2 7) :=
  funext fun y => congrArg (V c (Pipeline.arrRef spec2 7)) (emb_7 t y)

/-- Window 8's block is the whole array. -/
theorem emb_8 (t : Fin cfg2.N) (y : S128x128.Idx) : ((cfg2.win 8).blk t).view.emb y = y := by
  obtain ⟨-, -, -, -, -, -, -, -, -, -, -, -, -, -, -, -, e0, e1, -, -, -, -⟩ := idx t
  funext a; apply Fin.ext
  match a with
  | ⟨0, _⟩ => show win2_8.index t (0 : Fin 2) * 128 + 1 * (y 0).val = (y 0).val; omega
  | ⟨1, _⟩ => show win2_8.index t (1 : Fin 2) * 128 + 1 * (y 1).val = (y 1).val; omega

theorem blk_8 (c : Dev nD) (t : Fin cfg2.N) : iblk2 V c 8 t = V c (Pipeline.arrRef spec2 8) :=
  funext fun y => congrArg (V c (Pipeline.arrRef spec2 8)) (emb_8 t y)

/-- Block t of window 9's array, at (p, k), is the array at (2000 t + p, k). -/
theorem emb_9 (t : Fin cfg2.N) (y : S2000x128.Idx) :
    ((cfg2.win 9).blk t).view.emb y = ix2 (row (Fin.cast N_2 t) (y 0)) (y 1) := by
  obtain ⟨-, -, -, -, -, -, -, -, -, -, -, -, -, -, -, -, -, -, e0, e1, -, -⟩ := idx t
  funext a; apply Fin.ext
  match a with
  | ⟨0, _⟩ => show win2_9.index t (0 : Fin 2) * 2000 + 1 * (y 0).val = 2000 * t.val + (y 0).val; omega
  | ⟨1, _⟩ => show win2_9.index t (1 : Fin 2) * 128 + 1 * (y 1).val = (y 1).val; omega

/-- Block t of window 10's array, at (p, k), is the array at (2000 t + p, k). -/
theorem emb_10 (t : Fin cfg2.N) (y : S2000x128.Idx) :
    ((cfg2.win 10).blk t).view.emb y = ix2 (row (Fin.cast N_2 t) (y 0)) (y 1) := by
  obtain ⟨-, -, -, -, -, -, -, -, -, -, -, -, -, -, -, -, -, -, -, -, e0, e1⟩ := idx t
  funext a; apply Fin.ext
  match a with
  | ⟨0, _⟩ => show win2_10.index t (0 : Fin 2) * 2000 + 1 * (y 0).val = 2000 * t.val + (y 0).val; omega
  | ⟨1, _⟩ => show win2_10.index t (1 : Fin 2) * 128 + 1 * (y 1).val = (y 1).val; omega

/-! ## Output window 9 -/

set_option maxHeartbeats 4000000 in
/-- What point t writes back is block t of the whole-array function. -/
theorem flushed_9 (hbody : ∀ x0 x1 x2 x3 x4 x5 x6 x7 x8, out2_9 (F := Ideal) x0 x1 x2 x3 x4 x5 x6 x7 x8 = Cert.Net.post x0 x1 x3 x4 x5 x6 x7)
    (c : Dev nD) (t : Fin cfg2.N) :
    (dat2 V c).flushed 9 t = ((cfg2.win 9).blk t).view.read (Elt Ideal) (Cert.Net.post (V c (Pipeline.arrRef spec2 0)) (V c (Pipeline.arrRef spec2 1)) (V c (Pipeline.arrRef spec2 3)) (V c (Pipeline.arrRef spec2 4)) (V c (Pipeline.arrRef spec2 5)) (V c (Pipeline.arrRef spec2 6)) (V c (Pipeline.arrRef spec2 7))) := by
  show (cfg2.win 9).cut (grid2.coords t) ((dat2 V c).after 9 t) = _
  rw [after2_9, hbody]
  funext y
  show _ = Cert.Net.post (V c (Pipeline.arrRef spec2 0)) (V c (Pipeline.arrRef spec2 1)) (V c (Pipeline.arrRef spec2 3)) (V c (Pipeline.arrRef spec2 4)) (V c (Pipeline.arrRef spec2 5)) (V c (Pipeline.arrRef spec2 6)) (V c (Pipeline.arrRef spec2 7)) (((cfg2.win 9).blk t).view.emb y)
  rw [emb_9 t y]
  exact Cert.Net.post_blk (row (Fin.cast N_2 t)) (fun y => congrArg (V c (Pipeline.arrRef spec2 0)) (emb_0 t y)) (fun y => congrArg (V c (Pipeline.arrRef spec2 1)) (emb_1 t y)) (blk_3 V c t) (blk_4 V c t) (blk_5 V c t) (blk_6 V c t) (blk_7 V c t) y

/-- An index of the result array is in point t's block iff each coordinate is in the block's range. -/
theorem mem_blk_9 (t : Fin cfg2.N) (i : S50000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v70_0).slice (win2_9.rect t)).set ↔ _
  rw [View.set_slice_whole, Rect.mem_set_unit]
  exact Iff.rfl

/-- Row r of the result array is in the block of point r / 2000. -/
theorem covered_9 (i : S50000x128.Idx) : ∃ t : Fin cfg2.N, (cfg2.win 9).flush t = true ∧ i ∈ ((cfg2.win 9).blk t).view.set := by
  have hi0 : (i 0).val < 50000 := idx2_lt0 i
  have hi1 : (i 1).val < 128 := idx2_lt1 i
  have hN : (i 0).val / 2000 < cfg2.N := by rw [show cfg2.N = 25 from N_2]; omega
  obtain ⟨t, ht⟩ : ∃ t : Fin cfg2.N, t.val = (i 0).val / 2000 := ⟨⟨(i 0).val / 2000, hN⟩, rfl⟩
  obtain ⟨-, -, -, -, -, -, -, -, -, -, -, -, -, -, -, -, -, -, e0, e1, -, -⟩ := idx t
  refine ⟨t, flush2_9 t, ?_⟩
  rw [mem_blk_9]
  intro a
  match a with
  | ⟨0, _⟩ => show win2_9.index t (0 : Fin 2) * 2000 ≤ (i 0).val ∧ (i 0).val < win2_9.index t (0 : Fin 2) * 2000 + 2000; omega
  | ⟨1, _⟩ => show win2_9.index t (1 : Fin 2) * 128 ≤ (i 1).val ∧ (i 1).val < win2_9.index t (1 : Fin 2) * 128 + 128; omega

/-- The array after the region. -/
theorem final_9 (hbody : ∀ x0 x1 x2 x3 x4 x5 x6 x7 x8, out2_9 (F := Ideal) x0 x1 x2 x3 x4 x5 x6 x7 x8 = Cert.Net.post x0 x1 x3 x4 x5 x6 x7) (c : Dev nD) :
    (dat2 V c).arrAt 9 cfg2.N = Cert.Net.post (V c (Pipeline.arrRef spec2 0)) (V c (Pipeline.arrRef spec2 1)) (V c (Pipeline.arrRef spec2 3)) (V c (Pipeline.arrRef spec2 4)) (V c (Pipeline.arrRef spec2 5)) (V c (Pipeline.arrRef spec2 6)) (V c (Pipeline.arrRef spec2 7)) :=
  (dat2 V c).arrAt_eq_of_cover 9 _ (fun t _ => flushed_9 V hbody c t) covered_9

/-! ## Output window 10 -/

set_option maxHeartbeats 4000000 in
/-- What point t writes back is block t of the whole-array function. -/
theorem flushed_10 (hbody : ∀ x0 x1 x2 x3 x4 x5 x6 x7 x8, out2_10 (F := Ideal) x0 x1 x2 x3 x4 x5 x6 x7 x8 = Cert.Net.pre (Cert.Net.post x0 x1 x3 x4 x5 x6 x7) x2 x8)
    (c : Dev nD) (t : Fin cfg2.N) :
    (dat2 V c).flushed 10 t = ((cfg2.win 10).blk t).view.read (Elt Ideal) (Cert.Net.pre (Cert.Net.post (V c (Pipeline.arrRef spec2 0)) (V c (Pipeline.arrRef spec2 1)) (V c (Pipeline.arrRef spec2 3)) (V c (Pipeline.arrRef spec2 4)) (V c (Pipeline.arrRef spec2 5)) (V c (Pipeline.arrRef spec2 6)) (V c (Pipeline.arrRef spec2 7))) (V c (Pipeline.arrRef spec2 2)) (V c (Pipeline.arrRef spec2 8))) := by
  show (cfg2.win 10).cut (grid2.coords t) ((dat2 V c).after 10 t) = _
  rw [after2_10, hbody]
  funext y
  show _ = Cert.Net.pre (Cert.Net.post (V c (Pipeline.arrRef spec2 0)) (V c (Pipeline.arrRef spec2 1)) (V c (Pipeline.arrRef spec2 3)) (V c (Pipeline.arrRef spec2 4)) (V c (Pipeline.arrRef spec2 5)) (V c (Pipeline.arrRef spec2 6)) (V c (Pipeline.arrRef spec2 7))) (V c (Pipeline.arrRef spec2 2)) (V c (Pipeline.arrRef spec2 8)) (((cfg2.win 10).blk t).view.emb y)
  rw [emb_10 t y]
  exact Cert.Net.pre_blk (row (Fin.cast N_2 t)) (fun y => Cert.Net.post_blk (row (Fin.cast N_2 t)) (fun y => congrArg (V c (Pipeline.arrRef spec2 0)) (emb_0 t y)) (fun y => congrArg (V c (Pipeline.arrRef spec2 1)) (emb_1 t y)) (blk_3 V c t) (blk_4 V c t) (blk_5 V c t) (blk_6 V c t) (blk_7 V c t) y) (fun y => congrArg (V c (Pipeline.arrRef spec2 2)) (emb_2 t y)) (blk_8 V c t) y

/-- An index of the result array is in point t's block iff each coordinate is in the block's range. -/
theorem mem_blk_10 (t : Fin cfg2.N) (i : S50000x128.Idx) :
    i ∈ ((cfg2.win 10).blk t).view.set ↔ ∀ a : Fin 2, win2_10.index t a * S2000x128.size a ≤ (i a).val ∧ (i a).val < win2_10.index t a * S2000x128.size a + S2000x128.size a := by
  show i ∈ ((View.whole main_v70_1).slice (win2_10.rect t)).set ↔ _
  rw [View.set_slice_whole, Rect.mem_set_unit]
  exact Iff.rfl

/-- Row r of the result array is in the block of point r / 2000. -/
theorem covered_10 (i : S50000x128.Idx) : ∃ t : Fin cfg2.N, (cfg2.win 10).flush t = true ∧ i ∈ ((cfg2.win 10).blk t).view.set := by
  have hi0 : (i 0).val < 50000 := idx2_lt0 i
  have hi1 : (i 1).val < 128 := idx2_lt1 i
  have hN : (i 0).val / 2000 < cfg2.N := by rw [show cfg2.N = 25 from N_2]; omega
  obtain ⟨t, ht⟩ : ∃ t : Fin cfg2.N, t.val = (i 0).val / 2000 := ⟨⟨(i 0).val / 2000, hN⟩, rfl⟩
  obtain ⟨-, -, -, -, -, -, -, -, -, -, -, -, -, -, -, -, -, -, -, -, e0, e1⟩ := idx t
  refine ⟨t, flush2_10 t, ?_⟩
  rw [mem_blk_10]
  intro a
  match a with
  | ⟨0, _⟩ => show win2_10.index t (0 : Fin 2) * 2000 ≤ (i 0).val ∧ (i 0).val < win2_10.index t (0 : Fin 2) * 2000 + 2000; omega
  | ⟨1, _⟩ => show win2_10.index t (1 : Fin 2) * 128 ≤ (i 1).val ∧ (i 1).val < win2_10.index t (1 : Fin 2) * 128 + 128; omega

/-- The array after the region. -/
theorem final_10 (hbody : ∀ x0 x1 x2 x3 x4 x5 x6 x7 x8, out2_10 (F := Ideal) x0 x1 x2 x3 x4 x5 x6 x7 x8 = Cert.Net.pre (Cert.Net.post x0 x1 x3 x4 x5 x6 x7) x2 x8) (c : Dev nD) :
    (dat2 V c).arrAt 10 cfg2.N = Cert.Net.pre (Cert.Net.post (V c (Pipeline.arrRef spec2 0)) (V c (Pipeline.arrRef spec2 1)) (V c (Pipeline.arrRef spec2 3)) (V c (Pipeline.arrRef spec2 4)) (V c (Pipeline.arrRef spec2 5)) (V c (Pipeline.arrRef spec2 6)) (V c (Pipeline.arrRef spec2 7))) (V c (Pipeline.arrRef spec2 2)) (V c (Pipeline.arrRef spec2 8)) :=
  (dat2 V c).arrAt_eq_of_cover 10 _ (fun t _ => flushed_10 V hbody c t) covered_10

end Cert.Region2

end
-- ==== Proof.Region3.lean ====
/-
  Region 3 of the idealized kernel, read as a value. The grid has 25 points; point t handles rows
  2000 t .. 2000 t + 1999 of every row-indexed operand (its block index is (t, 0)) and the whole of every other
  operand (block index (0, 0)). So the block of a row-indexed array at point t, at (p, k), is the array at
  (2000 t + p, k); a whole-array block is the array. Since the body's result at row p depends on row p of its
  row-indexed operands only, what point t writes back is block t of the same function of the whole arrays, and the
  25 blocks tile the result array: the array after the region is that function of the arrays at entry.
-/
import proofs.«159722_j12695923327568_2_alg».proof.Proof.Gen.KernelIdeal.Frame
import proofs.«159722_j12695923327568_2_alg».proof.Proof.Net
import proofs.«159722_j12695923327568_2_alg».proof.Proof.NetRows
import proofs.«159722_j12695923327568_2_alg».proof.Proof.Rows
import Idealize.ShloMosaic.Lib.Pipeline.Value
import Idealize.ShloMosaic.Lib.ValueIdx

set_option maxRecDepth 16384

noncomputable section

namespace Cert.Region3

open Cert.KernelIdeal Cert.KernelIdeal.Gen Cert.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: a row-indexed window's block index at point t is (t, 0), a whole-array
    window's is (0, 0). -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0
    ∧ win3_10.index t (0 : Fin 2) = t.val ∧ win3_10.index t (1 : Fin 2) = 0 :=
  (by decide +kernel : ∀ t : Fin grid3.N, _)

/-- Block t of window 0's array, at (p, k), is the array at (2000 t + p, k). -/
theorem emb_0 (t : Fin cfg3.N) (y : S2000x128.Idx) :
    ((cfg3.win 0).blk t).view.emb y = ix2 (row (Fin.cast N_3 t) (y 0)) (y 1) := by
  obtain ⟨e0, e1, -, -, -, -, -, -, -, -, -, -, -, -, -, -, -, -, -, -, -, -⟩ := idx t
  funext a; apply Fin.ext
  match a with
  | ⟨0, _⟩ => show win3_0.index t (0 : Fin 2) * 2000 + 1 * (y 0).val = 2000 * t.val + (y 0).val; omega
  | ⟨1, _⟩ => show win3_0.index t (1 : Fin 2) * 128 + 1 * (y 1).val = (y 1).val; omega

theorem blk_0 (c : Dev nD) (t : Fin cfg3.N) :
    iblk3 V c 0 t = fun y : S2000x128.Idx => V c (Pipeline.arrRef spec3 0) (ix2 (row (Fin.cast N_3 t) (y 0)) (y 1)) :=
  funext fun y => congrArg (V c (Pipeline.arrRef spec3 0)) (emb_0 t y)

/-- Block t of window 1's array, at (p, k), is the array at (2000 t + p, k). -/
theorem emb_1 (t : Fin cfg3.N) (y : S2000x1.Idx) :
    ((cfg3.win 1).blk t).view.emb y = ix2 (row (Fin.cast N_3 t) (y 0)) (y 1) := by
  obtain ⟨-, -, e0, e1, -, -, -, -, -, -, -, -, -, -, -, -, -, -, -, -, -, -⟩ := idx t
  funext a; apply Fin.ext
  match a with
  | ⟨0, _⟩ => show win3_1.index t (0 : Fin 2) * 2000 + 1 * (y 0).val = 2000 * t.val + (y 0).val; omega
  | ⟨1, _⟩ => show win3_1.index t (1 : Fin 2) * 1 + 1 * (y 1).val = (y 1).val; omega

theorem blk_1 (c : Dev nD) (t : Fin cfg3.N) :
    iblk3 V c 1 t = fun y : S2000x1.Idx => V c (Pipeline.arrRef spec3 1) (ix2 (row (Fin.cast N_3 t) (y 0)) (y 1)) :=
  funext fun y => congrArg (V c (Pipeline.arrRef spec3 1)) (emb_1 t y)

/-- Block t of window 2's array, at (p, k), is the array at (2000 t + p, k). -/
theorem emb_2 (t : Fin cfg3.N) (y : S2000x1.Idx) :
    ((cfg3.win 2).blk t).view.emb y = ix2 (row (Fin.cast N_3 t) (y 0)) (y 1) := by
  obtain ⟨-, -, -, -, e0, e1, -, -, -, -, -, -, -, -, -, -, -, -, -, -, -, -⟩ := idx t
  funext a; apply Fin.ext
  match a with
  | ⟨0, _⟩ => show win3_2.index t (0 : Fin 2) * 2000 + 1 * (y 0).val = 2000 * t.val + (y 0).val; omega
  | ⟨1, _⟩ => show win3_2.index t (1 : Fin 2) * 1 + 1 * (y 1).val = (y 1).val; omega

theorem blk_2 (c : Dev nD) (t : Fin cfg3.N) :
    iblk3 V c 2 t = fun y : S2000x1.Idx => V c (Pipeline.arrRef spec3 2) (ix2 (row (Fin.cast N_3 t) (y 0)) (y 1)) :=
  funext fun y => congrArg (V c (Pipeline.arrRef spec3 2)) (emb_2 t y)

/-- Window 3's block is the whole array. -/
theorem emb_3 (t : Fin cfg3.N) (y : S1x128.Idx) : ((cfg3.win 3).blk t).view.emb y = y := by
  obtain ⟨-, -, -, -, -, -, e0, e1, -, -, -, -, -, -, -, -, -, -, -, -, -, -⟩ := idx t
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

theorem blk_3 (c : Dev nD) (t : Fin cfg3.N) : iblk3 V c 3 t = V c (Pipeline.arrRef spec3 3) :=
  funext fun y => congrArg (V c (Pipeline.arrRef spec3 3)) (emb_3 t y)

/-- Window 4's block is the whole array. -/
theorem emb_4 (t : Fin cfg3.N) (y : S1x128.Idx) : ((cfg3.win 4).blk t).view.emb y = y := by
  obtain ⟨-, -, -, -, -, -, -, -, e0, e1, -, -, -, -, -, -, -, -, -, -, -, -⟩ := idx t
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

theorem blk_4 (c : Dev nD) (t : Fin cfg3.N) : iblk3 V c 4 t = V c (Pipeline.arrRef spec3 4) :=
  funext fun y => congrArg (V c (Pipeline.arrRef spec3 4)) (emb_4 t y)

/-- Window 5's block is the whole array. -/
theorem emb_5 (t : Fin cfg3.N) (y : S1x128.Idx) : ((cfg3.win 5).blk t).view.emb y = y := by
  obtain ⟨-, -, -, -, -, -, -, -, -, -, e0, e1, -, -, -, -, -, -, -, -, -, -⟩ := idx t
  funext a; apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

theorem blk_5 (c : Dev nD) (t : Fin cfg3.N) : iblk3 V c 5 t = V c (Pipeline.arrRef spec3 5) :=
  funext fun y => congrArg (V c (Pipeline.arrRef spec3 5)) (emb_5 t y)

/-- Window 6's block is the whole array. -/
theorem emb_6 (t : Fin cfg3.N) (y : S1x128.Idx) : ((cfg3.win 6).blk t).view.emb y = y := by
  obtain ⟨-, -, -, -, -, -, -, -, -, -, -, -, e0, e1, -, -, -, -, -, -, -, -⟩ := idx t
  funext a; apply Fin.ext
  match a with
  | ⟨0, _⟩ => show win3_6.index t (0 : Fin 2) * 1 + 1 * (y 0).val = (y 0).val; omega
  | ⟨1, _⟩ => show win3_6.index t (1 : Fin 2) * 128 + 1 * (y 1).val = (y 1).val; omega

theorem blk_6 (c : Dev nD) (t : Fin cfg3.N) : iblk3 V c 6 t = V c (Pipeline.arrRef spec3 6) :=
  funext fun y => congrArg (V c (Pipeline.arrRef spec3 6)) (emb_6 t y)

/-- Window 7's block is the whole array. -/
theorem emb_7 (t : Fin cfg3.N) (y : S1x128.Idx) : ((cfg3.win 7).blk t).view.emb y = y := by
  obtain ⟨-, -, -, -, -, -, -, -, -, -, -, -, -, -, e0, e1, -, -, -, -, -, -⟩ := idx t
  funext a; apply Fin.ext
  match a with
  | ⟨0, _⟩ => show win3_7.index t (0 : Fin 2) * 1 + 1 * (y 0).val = (y 0).val; omega
  | ⟨1, _⟩ => show win3_7.index t (1 : Fin 2) * 128 + 1 * (y 1).val = (y 1).val; omega

theorem blk_7 (c : Dev nD) (t : Fin cfg3.N) : iblk3 V c 7 t = V c (Pipeline.arrRef spec3 7) :=
  funext fun y => congrArg (V c (Pipeline.arrRef spec3 7)) (emb_7 t y)

/-- Window 8's block is the whole array. -/
theorem emb_8 (t : Fin cfg3.N) (y : S128x128.Idx) : ((cfg3.win 8).blk t).view.emb y = y := by
  obtain ⟨-, -, -, -, -, -, -, -, -, -, -, -, -, -, -, -, e0, e1, -, -, -, -⟩ := idx t
  funext a; apply Fin.ext
  match a with
  | ⟨0, _⟩ => show win3_8.index t (0 : Fin 2) * 128 + 1 * (y 0).val = (y 0).val; omega
  | ⟨1, _⟩ => show win3_8.index t (1 : Fin 2) * 128 + 1 * (y 1).val = (y 1).val; omega

theorem blk_8 (c : Dev nD) (t : Fin cfg3.N) : iblk3 V c 8 t = V c (Pipeline.arrRef spec3 8) :=
  funext fun y => congrArg (V c (Pipeline.arrRef spec3 8)) (emb_8 t y)

/-- Block t of window 9's array, at (p, k), is the array at (2000 t + p, k). -/
theorem emb_9 (t : Fin cfg3.N) (y : S2000x128.Idx) :
    ((cfg3.win 9).blk t).view.emb y = ix2 (row (Fin.cast N_3 t) (y 0)) (y 1) := by
  obtain ⟨-, -, -, -, -, -, -, -, -, -, -, -, -, -, -, -, -, -, e0, e1, -, -⟩ := idx t
  funext a; apply Fin.ext
  match a with
  | ⟨0, _⟩ => show win3_9.index t (0 : Fin 2) * 2000 + 1 * (y 0).val = 2000 * t.val + (y 0).val; omega
  | ⟨1, _⟩ => show win3_9.index t (1 : Fin 2) * 128 + 1 * (y 1).val = (y 1).val; omega

/-- Block t of window 10's array, at (p, k), is the array at (2000 t + p, k). -/
theorem emb_10 (t : Fin cfg3.N) (y : S2000x128.Idx) :
    ((cfg3.win 10).blk t).view.emb y = ix2 (row (Fin.cast N_3 t) (y 0)) (y 1) := by
  obtain ⟨-, -, -, -, -, -, -, -, -, -, -, -, -, -, -, -, -, -, -, -, e0, e1⟩ := idx t
  funext a; apply Fin.ext
  match a with
  | ⟨0, _⟩ => show win3_10.index t (0 : Fin 2) * 2000 + 1 * (y 0).val = 2000 * t.val + (y 0).val; omega
  | ⟨1, _⟩ => show win3_10.index t (1 : Fin 2) * 128 + 1 * (y 1).val = (y 1).val; omega

/-! ## Output window 9 -/

set_option maxHeartbeats 4000000 in
/-- What point t writes back is block t of the whole-array function. -/
theorem flushed_9 (hbody : ∀ x0 x1 x2 x3 x4 x5 x6 x7 x8, out3_9 (F := Ideal) x0 x1 x2 x3 x4 x5 x6 x7 x8 = Cert.Net.post x0 x1 x3 x4 x5 x6 x7)
    (c : Dev nD) (t : Fin cfg3.N) :
    (dat3 V c).flushed 9 t = ((cfg3.win 9).blk t).view.read (Elt Ideal) (Cert.Net.post (V c (Pipeline.arrRef spec3 0)) (V c (Pipeline.arrRef spec3 1)) (V c (Pipeline.arrRef spec3 3)) (V c (Pipeline.arrRef spec3 4)) (V c (Pipeline.arrRef spec3 5)) (V c (Pipeline.arrRef spec3 6)) (V c (Pipeline.arrRef spec3 7))) := by
  show (cfg3.win 9).cut (grid3.coords t) ((dat3 V c).after 9 t) = _
  rw [after3_9, hbody]
  funext y
  show _ = Cert.Net.post (V c (Pipeline.arrRef spec3 0)) (V c (Pipeline.arrRef spec3 1)) (V c (Pipeline.arrRef spec3 3)) (V c (Pipeline.arrRef spec3 4)) (V c (Pipeline.arrRef spec3 5)) (V c (Pipeline.arrRef spec3 6)) (V c (Pipeline.arrRef spec3 7)) (((cfg3.win 9).blk t).view.emb y)
  rw [emb_9 t y]
  exact Cert.Net.post_blk (row (Fin.cast N_3 t)) (fun y => congrArg (V c (Pipeline.arrRef spec3 0)) (emb_0 t y)) (fun y => congrArg (V c (Pipeline.arrRef spec3 1)) (emb_1 t y)) (blk_3 V c t) (blk_4 V c t) (blk_5 V c t) (blk_6 V c t) (blk_7 V c t) y

/-- An index of the result array is in point t's block iff each coordinate is in the block's range. -/
theorem mem_blk_9 (t : Fin cfg3.N) (i : S50000x128.Idx) :
    i ∈ ((cfg3.win 9).blk t).view.set ↔ ∀ a : Fin 2, win3_9.index t a * S2000x128.size a ≤ (i a).val ∧ (i a).val < win3_9.index t a * S2000x128.size a + S2000x128.size a := by
  show i ∈ ((View.whole main_v97_0).slice (win3_9.rect t)).set ↔ _
  rw [View.set_slice_whole, Rect.mem_set_unit]
  exact Iff.rfl

/-- Row r of the result array is in the block of point r / 2000. -/
theorem covered_9 (i : S50000x128.Idx) : ∃ t : Fin cfg3.N, (cfg3.win 9).flush t = true ∧ i ∈ ((cfg3.win 9).blk t).view.set := by
  have hi0 : (i 0).val < 50000 := idx2_lt0 i
  have hi1 : (i 1).val < 128 := idx2_lt1 i
  have hN : (i 0).val / 2000 < cfg3.N := by rw [show cfg3.N = 25 from N_3]; omega
  obtain ⟨t, ht⟩ : ∃ t : Fin cfg3.N, t.val = (i 0).val / 2000 := ⟨⟨(i 0).val / 2000, hN⟩, rfl⟩
  obtain ⟨-, -, -, -, -, -, -, -, -, -, -, -, -, -, -, -, -, -, e0, e1, -, -⟩ := idx t
  refine ⟨t, flush3_9 t, ?_⟩
  rw [mem_blk_9]
  intro a
  match a with
  | ⟨0, _⟩ => show win3_9.index t (0 : Fin 2) * 2000 ≤ (i 0).val ∧ (i 0).val < win3_9.index t (0 : Fin 2) * 2000 + 2000; omega
  | ⟨1, _⟩ => show win3_9.index t (1 : Fin 2) * 128 ≤ (i 1).val ∧ (i 1).val < win3_9.index t (1 : Fin 2) * 128 + 128; omega

/-- The array after the region. -/
theorem final_9 (hbody : ∀ x0 x1 x2 x3 x4 x5 x6 x7 x8, out3_9 (F := Ideal) x0 x1 x2 x3 x4 x5 x6 x7 x8 = Cert.Net.post x0 x1 x3 x4 x5 x6 x7) (c : Dev nD) :
    (dat3 V c).arrAt 9 cfg3.N = Cert.Net.post (V c (Pipeline.arrRef spec3 0)) (V c (Pipeline.arrRef spec3 1)) (V c (Pipeline.arrRef spec3 3)) (V c (Pipeline.arrRef spec3 4)) (V c (Pipeline.arrRef spec3 5)) (V c (Pipeline.arrRef spec3 6)) (V c (Pipeline.arrRef spec3 7)) :=
  (dat3 V c).arrAt_eq_of_cover 9 _ (fun t _ => flushed_9 V hbody c t) covered_9

/-! ## Output window 10 -/

set_option maxHeartbeats 4000000 in
/-- What point t writes back is block t of the whole-array function. -/
theorem flushed_10 (hbody : ∀ x0 x1 x2 x3 x4 x5 x6 x7 x8, out3_10 (F := Ideal) x0 x1 x2 x3 x4 x5 x6 x7 x8 = Cert.Net.pre (Cert.Net.post x0 x1 x3 x4 x5 x6 x7) x2 x8)
    (c : Dev nD) (t : Fin cfg3.N) :
    (dat3 V c).flushed 10 t = ((cfg3.win 10).blk t).view.read (Elt Ideal) (Cert.Net.pre (Cert.Net.post (V c (Pipeline.arrRef spec3 0)) (V c (Pipeline.arrRef spec3 1)) (V c (Pipeline.arrRef spec3 3)) (V c (Pipeline.arrRef spec3 4)) (V c (Pipeline.arrRef spec3 5)) (V c (Pipeline.arrRef spec3 6)) (V c (Pipeline.arrRef spec3 7))) (V c (Pipeline.arrRef spec3 2)) (V c (Pipeline.arrRef spec3 8))) := by
  show (cfg3.win 10).cut (grid3.coords t) ((dat3 V c).after 10 t) = _
  rw [after3_10, hbody]
  funext y
  show _ = Cert.Net.pre (Cert.Net.post (V c (Pipeline.arrRef spec3 0)) (V c (Pipeline.arrRef spec3 1)) (V c (Pipeline.arrRef spec3 3)) (V c (Pipeline.arrRef spec3 4)) (V c (Pipeline.arrRef spec3 5)) (V c (Pipeline.arrRef spec3 6)) (V c (Pipeline.arrRef spec3 7))) (V c (Pipeline.arrRef spec3 2)) (V c (Pipeline.arrRef spec3 8)) (((cfg3.win 10).blk t).view.emb y)
  rw [emb_10 t y]
  exact Cert.Net.pre_blk (row (Fin.cast N_3 t)) (fun y => Cert.Net.post_blk (row (Fin.cast N_3 t)) (fun y => congrArg (V c (Pipeline.arrRef spec3 0)) (emb_0 t y)) (fun y => congrArg (V c (Pipeline.arrRef spec3 1)) (emb_1 t y)) (blk_3 V c t) (blk_4 V c t) (blk_5 V c t) (blk_6 V c t) (blk_7 V c t) y) (fun y => congrArg (V c (Pipeline.arrRef spec3 2)) (emb_2 t y)) (blk_8 V c t) y

/-- An index of the result array is in point t's block iff each coordinate is in the block's range. -/
theorem mem_blk_10 (t : Fin cfg3.N) (i : S50000x128.Idx) :
    i ∈ ((cfg3.win 10).blk t).view.set ↔ ∀ a : Fin 2, win3_10.index t a * S2000x128.size a ≤ (i a).val ∧ (i a).val < win3_10.index t a * S2000x128.size a + S2000x128.size a := by
  show i ∈ ((View.whole main_v97_1).slice (win3_10.rect t)).set ↔ _
  rw [View.set_slice_whole, Rect.mem_set_unit]
  exact Iff.rfl

/-- Row r of the result array is in the block of point r / 2000. -/
theorem covered_10 (i : S50000x128.Idx) : ∃ t : Fin cfg3.N, (cfg3.win 10).flush t = true ∧ i ∈ ((cfg3.win 10).blk t).view.set := by
  have hi0 : (i 0).val < 50000 := idx2_lt0 i
  have hi1 : (i 1).val < 128 := idx2_lt1 i
  have hN : (i 0).val / 2000 < cfg3.N := by rw [show cfg3.N = 25 from N_3]; omega
  obtain ⟨t, ht⟩ : ∃ t : Fin cfg3.N, t.val = (i 0).val / 2000 := ⟨⟨(i 0).val / 2000, hN⟩, rfl⟩
  obtain ⟨-, -, -, -, -, -, -, -, -, -, -, -, -, -, -, -, -, -, -, -, e0, e1⟩ := idx t
  refine ⟨t, flush3_10 t, ?_⟩
  rw [mem_blk_10]
  intro a
  match a with
  | ⟨0, _⟩ => show win3_10.index t (0 : Fin 2) * 2000 ≤ (i 0).val ∧ (i 0).val < win3_10.index t (0 : Fin 2) * 2000 + 2000; omega
  | ⟨1, _⟩ => show win3_10.index t (1 : Fin 2) * 128 ≤ (i 1).val ∧ (i 1).val < win3_10.index t (1 : Fin 2) * 128 + 128; omega

/-- The array after the region. -/
theorem final_10 (hbody : ∀ x0 x1 x2 x3 x4 x5 x6 x7 x8, out3_10 (F := Ideal) x0 x1 x2 x3 x4 x5 x6 x7 x8 = Cert.Net.pre (Cert.Net.post x0 x1 x3 x4 x5 x6 x7) x2 x8) (c : Dev nD) :
    (dat3 V c).arrAt 10 cfg3.N = Cert.Net.pre (Cert.Net.post (V c (Pipeline.arrRef spec3 0)) (V c (Pipeline.arrRef spec3 1)) (V c (Pipeline.arrRef spec3 3)) (V c (Pipeline.arrRef spec3 4)) (V c (Pipeline.arrRef spec3 5)) (V c (Pipeline.arrRef spec3 6)) (V c (Pipeline.arrRef spec3 7))) (V c (Pipeline.arrRef spec3 2)) (V c (Pipeline.arrRef spec3 8)) :=
  (dat3 V c).arrAt_eq_of_cover 10 _ (fun t _ => flushed_10 V hbody c t) covered_10

end Cert.Region3

end
-- ==== Proof.Region4.lean ====
/-
  Region 4 of the idealized kernel, read as a value. The grid has 25 points; point t handles rows
  2000 t .. 2000 t + 1999 of every row-indexed operand (its block index is (t, 0)) and the whole of every other
  operand (block index (0, 0)). So the block of a row-indexed array at point t, at (p, k), is the array at
  (2000 t + p, k); a whole-array block is the array. Since the body's result at row p depends on row p of its
  row-indexed operands only, what point t writes back is block t of the same function of the whole arrays, and the
  25 blocks tile the result array: the array after the region is that function of the arrays at entry.
-/
import proofs.«159722_j12695923327568_2_alg».proof.Proof.Gen.KernelIdeal.Frame
import proofs.«159722_j12695923327568_2_alg».proof.Proof.Net
import proofs.«159722_j12695923327568_2_alg».proof.Proof.NetRows
import proofs.«159722_j12695923327568_2_alg».proof.Proof.Rows
import Idealize.ShloMosaic.Lib.Pipeline.Value
import Idealize.ShloMosaic.Lib.ValueIdx

set_option maxRecDepth 16384

noncomputable section

namespace Cert.Region4

open Cert.KernelIdeal Cert.KernelIdeal.Gen Cert.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: a row-indexed window's block index at point t is (t, 0), a whole-array
    window's is (0, 0). -/
theorem idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Block t of window 0's array, at (p, k), is the array at (2000 t + p, k). -/
theorem emb_0 (t : Fin cfg4.N) (y : S2000x128.Idx) :
    ((cfg4.win 0).blk t).view.emb y = ix2 (row (Fin.cast N_4 t) (y 0)) (y 1) := by
  obtain ⟨e0, e1, -, -, -, -, -, -, -, -, -, -, -, -, -, -⟩ := idx t
  funext a; apply Fin.ext
  match a with
  | ⟨0, _⟩ => show win4_0.index t (0 : Fin 2) * 2000 + 1 * (y 0).val = 2000 * t.val + (y 0).val; omega
  | ⟨1, _⟩ => show win4_0.index t (1 : Fin 2) * 128 + 1 * (y 1).val = (y 1).val; omega

theorem blk_0 (c : Dev nD) (t : Fin cfg4.N) :
    iblk4 V c 0 t = fun y : S2000x128.Idx => V c (Pipeline.arrRef spec4 0) (ix2 (row (Fin.cast N_4 t) (y 0)) (y 1)) :=
  funext fun y => congrArg (V c (Pipeline.arrRef spec4 0)) (emb_0 t y)

/-- Block t of window 1's array, at (p, k), is the array at (2000 t + p, k). -/
theorem emb_1 (t : Fin cfg4.N) (y : S2000x1.Idx) :
    ((cfg4.win 1).blk t).view.emb y = ix2 (row (Fin.cast N_4 t) (y 0)) (y 1) := by
  obtain ⟨-, -, e0, e1, -, -, -, -, -, -, -, -, -, -, -, -⟩ := idx t
  funext a; apply Fin.ext
  match a with
  | ⟨0, _⟩ => show win4_1.index t (0 : Fin 2) * 2000 + 1 * (y 0).val = 2000 * t.val + (y 0).val; omega
  | ⟨1, _⟩ => show win4_1.index t (1 : Fin 2) * 1 + 1 * (y 1).val = (y 1).val; omega

theorem blk_1 (c : Dev nD) (t : Fin cfg4.N) :
    iblk4 V c 1 t = fun y : S2000x1.Idx => V c (Pipeline.arrRef spec4 1) (ix2 (row (Fin.cast N_4 t) (y 0)) (y 1)) :=
  funext fun y => congrArg (V c (Pipeline.arrRef spec4 1)) (emb_1 t y)

/-- Window 2's block is the whole array. -/
theorem emb_2 (t : Fin cfg4.N) (y : S1x128.Idx) : ((cfg4.win 2).blk t).view.emb y = y := by
  obtain ⟨-, -, -, -, e0, e1, -, -, -, -, -, -, -, -, -, -⟩ := idx t
  funext a; apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega

theorem blk_2 (c : Dev nD) (t : Fin cfg4.N) : iblk4 V c 2 t = V c (Pipeline.arrRef spec4 2) :=
  funext fun y => congrArg (V c (Pipeline.arrRef spec4 2)) (emb_2 t y)

/-- Window 3's block is the whole array. -/
theorem emb_3 (t : Fin cfg4.N) (y : S1x128.Idx) : ((cfg4.win 3).blk t).view.emb y = y := by
  obtain ⟨-, -, -, -, -, -, e0, e1, -, -, -, -, -, -, -, -⟩ := idx t
  funext a; apply Fin.ext
  match a with
  | ⟨0, _⟩ => show win4_3.index t (0 : Fin 2) * 1 + 1 * (y 0).val = (y 0).val; omega
  | ⟨1, _⟩ => show win4_3.index t (1 : Fin 2) * 128 + 1 * (y 1).val = (y 1).val; omega

theorem blk_3 (c : Dev nD) (t : Fin cfg4.N) : iblk4 V c 3 t = V c (Pipeline.arrRef spec4 3) :=
  funext fun y => congrArg (V c (Pipeline.arrRef spec4 3)) (emb_3 t y)

/-- Window 4's block is the whole array. -/
theorem emb_4 (t : Fin cfg4.N) (y : S1x128.Idx) : ((cfg4.win 4).blk t).view.emb y = y := by
  obtain ⟨-, -, -, -, -, -, -, -, e0, e1, -, -, -, -, -, -⟩ := idx t
  funext a; apply Fin.ext
  match a with
  | ⟨0, _⟩ => show win4_4.index t (0 : Fin 2) * 1 + 1 * (y 0).val = (y 0).val; omega
  | ⟨1, _⟩ => show win4_4.index t (1 : Fin 2) * 128 + 1 * (y 1).val = (y 1).val; omega

theorem blk_4 (c : Dev nD) (t : Fin cfg4.N) : iblk4 V c 4 t = V c (Pipeline.arrRef spec4 4) :=
  funext fun y => congrArg (V c (Pipeline.arrRef spec4 4)) (emb_4 t y)

/-- Window 5's block is the whole array. -/
theorem emb_5 (t : Fin cfg4.N) (y : S1x128.Idx) : ((cfg4.win 5).blk t).view.emb y = y := by
  obtain ⟨-, -, -, -, -, -, -, -, -, -, e0, e1, -, -, -, -⟩ := idx t
  funext a; apply Fin.ext
  match a with
  | ⟨0, _⟩ => show win4_5.index t (0 : Fin 2) * 1 + 1 * (y 0).val = (y 0).val; omega
  | ⟨1, _⟩ => show win4_5.index t (1 : Fin 2) * 128 + 1 * (y 1).val = (y 1).val; omega

theorem blk_5 (c : Dev nD) (t : Fin cfg4.N) : iblk4 V c 5 t = V c (Pipeline.arrRef spec4 5) :=
  funext fun y => congrArg (V c (Pipeline.arrRef spec4 5)) (emb_5 t y)

/-- Window 6's block is the whole array. -/
theorem emb_6 (t : Fin cfg4.N) (y : S1x128.Idx) : ((cfg4.win 6).blk t).view.emb y = y := by
  obtain ⟨-, -, -, -, -, -, -, -, -, -, -, -, e0, e1, -, -⟩ := idx t
  funext a; apply Fin.ext
  match a with
  | ⟨0, _⟩ => show win4_6.index t (0 : Fin 2) * 1 + 1 * (y 0).val = (y 0).val; omega
  | ⟨1, _⟩ => show win4_6.index t (1 : Fin 2) * 128 + 1 * (y 1).val = (y 1).val; omega

theorem blk_6 (c : Dev nD) (t : Fin cfg4.N) : iblk4 V c 6 t = V c (Pipeline.arrRef spec4 6) :=
  funext fun y => congrArg (V c (Pipeline.arrRef spec4 6)) (emb_6 t y)

/-- Block t of window 7's array, at (p, k), is the array at (2000 t + p, k). -/
theorem emb_7 (t : Fin cfg4.N) (y : S2000x128.Idx) :
    ((cfg4.win 7).blk t).view.emb y = ix2 (row (Fin.cast N_4 t) (y 0)) (y 1) := by
  obtain ⟨-, -, -, -, -, -, -, -, -, -, -, -, -, -, e0, e1⟩ := idx t
  funext a; apply Fin.ext
  match a with
  | ⟨0, _⟩ => show win4_7.index t (0 : Fin 2) * 2000 + 1 * (y 0).val = 2000 * t.val + (y 0).val; omega
  | ⟨1, _⟩ => show win4_7.index t (1 : Fin 2) * 128 + 1 * (y 1).val = (y 1).val; omega

/-! ## Output window 7 -/

/-- What point t writes back is block t of the whole-array function. -/
theorem flushed_7 (hbody : ∀ x0 x1 x2 x3 x4 x5 x6, out4_7 (F := Ideal) x0 x1 x2 x3 x4 x5 x6 = Cert.Net.post x0 x1 x2 x3 x4 x5 x6)
    (c : Dev nD) (t : Fin cfg4.N) :
    (dat4 V c).flushed 7 t = ((cfg4.win 7).blk t).view.read (Elt Ideal) (Cert.Net.post (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) := by
  show (cfg4.win 7).cut (grid4.coords t) ((dat4 V c).after 7 t) = _
  rw [after4_7, hbody]
  funext y
  show _ = Cert.Net.post (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (((cfg4.win 7).blk t).view.emb y)
  rw [emb_7 t y]
  exact Cert.Net.post_blk (row (Fin.cast N_4 t)) (fun y => congrArg (V c (Pipeline.arrRef spec4 0)) (emb_0 t y)) (fun y => congrArg (V c (Pipeline.arrRef spec4 1)) (emb_1 t y)) (blk_2 V c t) (blk_3 V c t) (blk_4 V c t) (blk_5 V c t) (blk_6 V c t) y

/-- An index of the result array is in point t's block iff each coordinate is in the block's range. -/
theorem mem_blk_7 (t : Fin cfg4.N) (i : S50000x128.Idx) :
    i ∈ ((cfg4.win 7).blk t).view.set ↔ ∀ a : Fin 2, win4_7.index t a * S2000x128.size a ≤ (i a).val ∧ (i a).val < win4_7.index t a * S2000x128.size a + S2000x128.size a := by
  show i ∈ ((View.whole main_v122).slice (win4_7.rect t)).set ↔ _
  rw [View.set_slice_whole, Rect.mem_set_unit]
  exact Iff.rfl

/-- Row r of the result array is in the block of point r / 2000. -/
theorem covered_7 (i : S50000x128.Idx) : ∃ t : Fin cfg4.N, (cfg4.win 7).flush t = true ∧ i ∈ ((cfg4.win 7).blk t).view.set := by
  have hi0 : (i 0).val < 50000 := idx2_lt0 i
  have hi1 : (i 1).val < 128 := idx2_lt1 i
  have hN : (i 0).val / 2000 < cfg4.N := by rw [show cfg4.N = 25 from N_4]; omega
  obtain ⟨t, ht⟩ : ∃ t : Fin cfg4.N, t.val = (i 0).val / 2000 := ⟨⟨(i 0).val / 2000, hN⟩, rfl⟩
  obtain ⟨-, -, -, -, -, -, -, -, -, -, -, -, -, -, e0, e1⟩ := idx t
  refine ⟨t, flush4_7 t, ?_⟩
  rw [mem_blk_7]
  intro a
  match a with
  | ⟨0, _⟩ => show win4_7.index t (0 : Fin 2) * 2000 ≤ (i 0).val ∧ (i 0).val < win4_7.index t (0 : Fin 2) * 2000 + 2000; omega
  | ⟨1, _⟩ => show win4_7.index t (1 : Fin 2) * 128 ≤ (i 1).val ∧ (i 1).val < win4_7.index t (1 : Fin 2) * 128 + 128; omega

/-- The array after the region. -/
theorem final_7 (hbody : ∀ x0 x1 x2 x3 x4 x5 x6, out4_7 (F := Ideal) x0 x1 x2 x3 x4 x5 x6 = Cert.Net.post x0 x1 x2 x3 x4 x5 x6) (c : Dev nD) :
    (dat4 V c).arrAt 7 cfg4.N = Cert.Net.post (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) :=
  (dat4 V c).arrAt_eq_of_cover 7 _ (fun t _ => flushed_7 V hbody c t) covered_7

end Cert.Region4

end
-- ==== Proof.Region5.lean ====
/-
  Region 5 of the idealized kernel, read as a value. The grid has 25 points; point t handles rows
  2000 t .. 2000 t + 1999 of every row-indexed operand (its block index is (t, 0)) and the whole of every other
  operand (block index (0, 0)). So the block of a row-indexed array at point t, at (p, k), is the array at
  (2000 t + p, k); a whole-array block is the array. Since the body's result at row p depends on row p of its
  row-indexed operands only, what point t writes back is block t of the same function of the whole arrays, and the
  25 blocks tile the result array: the array after the region is that function of the arrays at entry.
-/
import proofs.«159722_j12695923327568_2_alg».proof.Proof.Gen.KernelIdeal.Frame
import proofs.«159722_j12695923327568_2_alg».proof.Proof.Net
import proofs.«159722_j12695923327568_2_alg».proof.Proof.NetRows
import proofs.«159722_j12695923327568_2_alg».proof.Proof.Rows
import Idealize.ShloMosaic.Lib.Pipeline.Value
import Idealize.ShloMosaic.Lib.ValueIdx

set_option maxRecDepth 16384

noncomputable section

namespace Cert.Region5

open Cert.KernelIdeal Cert.KernelIdeal.Gen Cert.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: a row-indexed window's block index at point t is (t, 0), a whole-array
    window's is (0, 0). -/
theorem idx : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = 0 ∧ win5_9.index t (1 : Fin 2) = 0
    ∧ win5_10.index t (0 : Fin 2) = 0 ∧ win5_10.index t (1 : Fin 2) = 0
    ∧ win5_11.index t (0 : Fin 2) = 0 ∧ win5_11.index t (1 : Fin 2) = 0
    ∧ win5_12.index t (0 : Fin 2) = 0 ∧ win5_12.index t (1 : Fin 2) = 0
    ∧ win5_13.index t (0 : Fin 2) = t.val ∧ win5_13.index t (1 : Fin 2) = 0 :=
  (by decide +kernel : ∀ t : Fin grid5.N, _)

/-- Block t of window 0's array, at (p, k), is the array at (2000 t + p, k). -/
theorem emb_0 (t : Fin cfg5.N) (y : S2000x128.Idx) :
    ((cfg5.win 0).blk t).view.emb y = ix2 (row (Fin.cast N_5 t) (y 0)) (y 1) := by
  obtain ⟨e0, e1, -, -, -, -, -, -, -, -, -, -, -, -, -, -, -, -, -, -, -, -, -, -, -, -, -, -⟩ := idx t
  funext a; apply Fin.ext
  match a with
  | ⟨0, _⟩ => show win5_0.index t (0 : Fin 2) * 2000 + 1 * (y 0).val = 2000 * t.val + (y 0).val; omega
  | ⟨1, _⟩ => show win5_0.index t (1 : Fin 2) * 128 + 1 * (y 1).val = (y 1).val; omega

theorem blk_0 (c : Dev nD) (t : Fin cfg5.N) :
    iblk5 V c 0 t = fun y : S2000x128.Idx => V c (Pipeline.arrRef spec5 0) (ix2 (row (Fin.cast N_5 t) (y 0)) (y 1)) :=
  funext fun y => congrArg (V c (Pipeline.arrRef spec5 0)) (emb_0 t y)

/-- Block t of window 1's array, at (p, k), is the array at (2000 t + p, k). -/
theorem emb_1 (t : Fin cfg5.N) (y : S2000x128.Idx) :
    ((cfg5.win 1).blk t).view.emb y = ix2 (row (Fin.cast N_5 t) (y 0)) (y 1) := by
  obtain ⟨-, -, e0, e1, -, -, -, -, -, -, -, -, -, -, -, -, -, -, -, -, -, -, -, -, -, -, -, -⟩ := idx t
  funext a; apply Fin.ext
  match a with
  | ⟨0, _⟩ => show win5_1.index t (0 : Fin 2) * 2000 + 1 * (y 0).val = 2000 * t.val + (y 0).val; omega
  | ⟨1, _⟩ => show win5_1.index t (1 : Fin 2) * 128 + 1 * (y 1).val = (y 1).val; omega

theorem blk_1 (c : Dev nD) (t : Fin cfg5.N) :
    iblk5 V c 1 t = fun y : S2000x128.Idx => V c (Pipeline.arrRef spec5 1) (ix2 (row (Fin.cast N_5 t) (y 0)) (y 1)) :=
  funext fun y => congrArg (V c (Pipeline.arrRef spec5 1)) (emb_1 t y)

/-- Block t of window 2's array, at (p, k), is the array at (2000 t + p, k). -/
theorem emb_2 (t : Fin cfg5.N) (y : S2000x128.Idx) :
    ((cfg5.win 2).blk t).view.emb y = ix2 (row (Fin.cast N_5 t) (y 0)) (y 1) := by
  obtain ⟨-, -, -, -, e0, e1, -, -, -, -, -, -, -, -, -, -, -, -, -, -, -, -, -, -, -, -, -, -⟩ := idx t
  funext a; apply Fin.ext
  match a with
  | ⟨0, _⟩ => show win5_2.index t (0 : Fin 2) * 2000 + 1 * (y 0).val = 2000 * t.val + (y 0).val; omega
  | ⟨1, _⟩ => show win5_2.index t (1 : Fin 2) * 128 + 1 * (y 1).val = (y 1).val; omega

theorem blk_2 (c : Dev nD) (t : Fin cfg5.N) :
    iblk5 V c 2 t = fun y : S2000x128.Idx => V c (Pipeline.arrRef spec5 2) (ix2 (row (Fin.cast N_5 t) (y 0)) (y 1)) :=
  funext fun y => congrArg (V c (Pipeline.arrRef spec5 2)) (emb_2 t y)

/-- Block t of window 3's array, at (p, k), is the array at (2000 t + p, k). -/
theorem emb_3 (t : Fin cfg5.N) (y : S2000x128.Idx) :
    ((cfg5.win 3).blk t).view.emb y = ix2 (row (Fin.cast N_5 t) (y 0)) (y 1) := by
  obtain ⟨-, -, -, -, -, -, e0, e1, -, -, -, -, -, -, -, -, -, -, -, -, -, -, -, -, -, -, -, -⟩ := idx t
  funext a; apply Fin.ext
  match a with
  | ⟨0, _⟩ => show win5_3.index t (0 : Fin 2) * 2000 + 1 * (y 0).val = 2000 * t.val + (y 0).val; omega
  | ⟨1, _⟩ => show win5_3.index t (1 : Fin 2) * 128 + 1 * (y 1).val = (y 1).val; omega

theorem blk_3 (c : Dev nD) (t : Fin cfg5.N) :
    iblk5 V c 3 t = fun y : S2000x128.Idx => V c (Pipeline.arrRef spec5 3) (ix2 (row (Fin.cast N_5 t) (y 0)) (y 1)) :=
  funext fun y => congrArg (V c (Pipeline.arrRef spec5 3)) (emb_3 t y)

/-- Window 4's block is the whole array. -/
theorem emb_4 (t : Fin cfg5.N) (y : S128x128.Idx) : ((cfg5.win 4).blk t).view.emb y = y := by
  obtain ⟨-, -, -, -, -, -, -, -, e0, e1, -, -, -, -, -, -, -, -, -, -, -, -, -, -, -, -, -, -⟩ := idx t
  funext a; apply Fin.ext
  match a with
  | ⟨0, _⟩ => show win5_4.index t (0 : Fin 2) * 128 + 1 * (y 0).val = (y 0).val; omega
  | ⟨1, _⟩ => show win5_4.index t (1 : Fin 2) * 128 + 1 * (y 1).val = (y 1).val; omega

theorem blk_4 (c : Dev nD) (t : Fin cfg5.N) : iblk5 V c 4 t = V c (Pipeline.arrRef spec5 4) :=
  funext fun y => congrArg (V c (Pipeline.arrRef spec5 4)) (emb_4 t y)

/-- Window 5's block is the whole array. -/
theorem emb_5 (t : Fin cfg5.N) (y : S128x128.Idx) : ((cfg5.win 5).blk t).view.emb y = y := by
  obtain ⟨-, -, -, -, -, -, -, -, -, -, e0, e1, -, -, -, -, -, -, -, -, -, -, -, -, -, -, -, -⟩ := idx t
  funext a; apply Fin.ext
  match a with
  | ⟨0, _⟩ => show win5_5.index t (0 : Fin 2) * 128 + 1 * (y 0).val = (y 0).val; omega
  | ⟨1, _⟩ => show win5_5.index t (1 : Fin 2) * 128 + 1 * (y 1).val = (y 1).val; omega

theorem blk_5 (c : Dev nD) (t : Fin cfg5.N) : iblk5 V c 5 t = V c (Pipeline.arrRef spec5 5) :=
  funext fun y => congrArg (V c (Pipeline.arrRef spec5 5)) (emb_5 t y)

/-- Window 6's block is the whole array. -/
theorem emb_6 (t : Fin cfg5.N) (y : S128x128.Idx) : ((cfg5.win 6).blk t).view.emb y = y := by
  obtain ⟨-, -, -, -, -, -, -, -, -, -, -, -, e0, e1, -, -, -, -, -, -, -, -, -, -, -, -, -, -⟩ := idx t
  funext a; apply Fin.ext
  match a with
  | ⟨0, _⟩ => show win5_6.index t (0 : Fin 2) * 128 + 1 * (y 0).val = (y 0).val; omega
  | ⟨1, _⟩ => show win5_6.index t (1 : Fin 2) * 128 + 1 * (y 1).val = (y 1).val; omega

theorem blk_6 (c : Dev nD) (t : Fin cfg5.N) : iblk5 V c 6 t = V c (Pipeline.arrRef spec5 6) :=
  funext fun y => congrArg (V c (Pipeline.arrRef spec5 6)) (emb_6 t y)

/-- Window 7's block is the whole array. -/
theorem emb_7 (t : Fin cfg5.N) (y : S128x128.Idx) : ((cfg5.win 7).blk t).view.emb y = y := by
  obtain ⟨-, -, -, -, -, -, -, -, -, -, -, -, -, -, e0, e1, -, -, -, -, -, -, -, -, -, -, -, -⟩ := idx t
  funext a; apply Fin.ext
  match a with
  | ⟨0, _⟩ => show win5_7.index t (0 : Fin 2) * 128 + 1 * (y 0).val = (y 0).val; omega
  | ⟨1, _⟩ => show win5_7.index t (1 : Fin 2) * 128 + 1 * (y 1).val = (y 1).val; omega

theorem blk_7 (c : Dev nD) (t : Fin cfg5.N) : iblk5 V c 7 t = V c (Pipeline.arrRef spec5 7) :=
  funext fun y => congrArg (V c (Pipeline.arrRef spec5 7)) (emb_7 t y)

/-- Window 8's block is the whole array. -/
theorem emb_8 (t : Fin cfg5.N) (y : S1x128.Idx) : ((cfg5.win 8).blk t).view.emb y = y := by
  obtain ⟨-, -, -, -, -, -, -, -, -, -, -, -, -, -, -, -, e0, e1, -, -, -, -, -, -, -, -, -, -⟩ := idx t
  funext a; apply Fin.ext
  match a with
  | ⟨0, _⟩ => show win5_8.index t (0 : Fin 2) * 1 + 1 * (y 0).val = (y 0).val; omega
  | ⟨1, _⟩ => show win5_8.index t (1 : Fin 2) * 128 + 1 * (y 1).val = (y 1).val; omega

theorem blk_8 (c : Dev nD) (t : Fin cfg5.N) : iblk5 V c 8 t = V c (Pipeline.arrRef spec5 8) :=
  funext fun y => congrArg (V c (Pipeline.arrRef spec5 8)) (emb_8 t y)

/-- Window 9's block is the whole array. -/
theorem emb_9 (t : Fin cfg5.N) (y : S1x128.Idx) : ((cfg5.win 9).blk t).view.emb y = y := by
  obtain ⟨-, -, -, -, -, -, -, -, -, -, -, -, -, -, -, -, -, -, e0, e1, -, -, -, -, -, -, -, -⟩ := idx t
  funext a; apply Fin.ext
  match a with
  | ⟨0, _⟩ => show win5_9.index t (0 : Fin 2) * 1 + 1 * (y 0).val = (y 0).val; omega
  | ⟨1, _⟩ => show win5_9.index t (1 : Fin 2) * 128 + 1 * (y 1).val = (y 1).val; omega

theorem blk_9 (c : Dev nD) (t : Fin cfg5.N) : iblk5 V c 9 t = V c (Pipeline.arrRef spec5 9) :=
  funext fun y => congrArg (V c (Pipeline.arrRef spec5 9)) (emb_9 t y)

/-- Window 10's block is the whole array. -/
theorem emb_10 (t : Fin cfg5.N) (y : S1x128.Idx) : ((cfg5.win 10).blk t).view.emb y = y := by
  obtain ⟨-, -, -, -, -, -, -, -, -, -, -, -, -, -, -, -, -, -, -, -, e0, e1, -, -, -, -, -, -⟩ := idx t
  funext a; apply Fin.ext
  match a with
  | ⟨0, _⟩ => show win5_10.index t (0 : Fin 2) * 1 + 1 * (y 0).val = (y 0).val; omega
  | ⟨1, _⟩ => show win5_10.index t (1 : Fin 2) * 128 + 1 * (y 1).val = (y 1).val; omega

theorem blk_10 (c : Dev nD) (t : Fin cfg5.N) : iblk5 V c 10 t = V c (Pipeline.arrRef spec5 10) :=
  funext fun y => congrArg (V c (Pipeline.arrRef spec5 10)) (emb_10 t y)

/-- Window 11's block is the whole array. -/
theorem emb_11 (t : Fin cfg5.N) (y : S1x128.Idx) : ((cfg5.win 11).blk t).view.emb y = y := by
  obtain ⟨-, -, -, -, -, -, -, -, -, -, -, -, -, -, -, -, -, -, -, -, -, -, e0, e1, -, -, -, -⟩ := idx t
  funext a; apply Fin.ext
  match a with
  | ⟨0, _⟩ => show win5_11.index t (0 : Fin 2) * 1 + 1 * (y 0).val = (y 0).val; omega
  | ⟨1, _⟩ => show win5_11.index t (1 : Fin 2) * 128 + 1 * (y 1).val = (y 1).val; omega

theorem blk_11 (c : Dev nD) (t : Fin cfg5.N) : iblk5 V c 11 t = V c (Pipeline.arrRef spec5 11) :=
  funext fun y => congrArg (V c (Pipeline.arrRef spec5 11)) (emb_11 t y)

/-- Window 12's block is the whole array. -/
theorem emb_12 (t : Fin cfg5.N) (y : S1x128.Idx) : ((cfg5.win 12).blk t).view.emb y = y := by
  obtain ⟨-, -, -, -, -, -, -, -, -, -, -, -, -, -, -, -, -, -, -, -, -, -, -, -, e0, e1, -, -⟩ := idx t
  funext a; apply Fin.ext
  match a with
  | ⟨0, _⟩ => show win5_12.index t (0 : Fin 2) * 1 + 1 * (y 0).val = (y 0).val; omega
  | ⟨1, _⟩ => show win5_12.index t (1 : Fin 2) * 128 + 1 * (y 1).val = (y 1).val; omega

theorem blk_12 (c : Dev nD) (t : Fin cfg5.N) : iblk5 V c 12 t = V c (Pipeline.arrRef spec5 12) :=
  funext fun y => congrArg (V c (Pipeline.arrRef spec5 12)) (emb_12 t y)

/-- Block t of window 13's array, at (p, k), is the array at (2000 t + p, k). -/
theorem emb_13 (t : Fin cfg5.N) (y : S2000x128.Idx) :
    ((cfg5.win 13).blk t).view.emb y = ix2 (row (Fin.cast N_5 t) (y 0)) (y 1) := by
  obtain ⟨-, -, -, -, -, -, -, -, -, -, -, -, -, -, -, -, -, -, -, -, -, -, -, -, -, -, e0, e1⟩ := idx t
  funext a; apply Fin.ext
  match a with
  | ⟨0, _⟩ => show win5_13.index t (0 : Fin 2) * 2000 + 1 * (y 0).val = 2000 * t.val + (y 0).val; omega
  | ⟨1, _⟩ => show win5_13.index t (1 : Fin 2) * 128 + 1 * (y 1).val = (y 1).val; omega

/-! ## Output window 13 -/

set_option maxHeartbeats 4000000 in
/-- What point t writes back is block t of the whole-array function. -/
theorem flushed_13 (hbody : ∀ x0 x1 x2 x3 x4 x5 x6 x7 x8 x9 x10 x11 x12, out5_13 (F := Ideal) x0 x1 x2 x3 x4 x5 x6 x7 x8 x9 x10 x11 x12 = Cert.Net.cls0 x0 x1 x2 x3 x4 x5 x6 x7 x8 x9 x10 x11 x12)
    (c : Dev nD) (t : Fin cfg5.N) :
    (dat5 V c).flushed 13 t = ((cfg5.win 13).blk t).view.read (Elt Ideal) (Cert.Net.cls0 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12))) := by
  show (cfg5.win 13).cut (grid5.coords t) ((dat5 V c).after 13 t) = _
  rw [after5_13, hbody]
  funext y
  show _ = Cert.Net.cls0 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (((cfg5.win 13).blk t).view.emb y)
  rw [emb_13 t y]
  exact Cert.Net.cls0_blk (row (Fin.cast N_5 t)) (fun y => congrArg (V c (Pipeline.arrRef spec5 0)) (emb_0 t y)) (fun y => congrArg (V c (Pipeline.arrRef spec5 1)) (emb_1 t y)) (fun y => congrArg (V c (Pipeline.arrRef spec5 2)) (emb_2 t y)) (fun y => congrArg (V c (Pipeline.arrRef spec5 3)) (emb_3 t y)) (blk_4 V c t) (blk_5 V c t) (blk_6 V c t) (blk_7 V c t) (blk_8 V c t) (blk_9 V c t) (blk_10 V c t) (blk_11 V c t) (blk_12 V c t) y

/-- An index of the result array is in point t's block iff each coordinate is in the block's range. -/
theorem mem_blk_13 (t : Fin cfg5.N) (i : S50000x128.Idx) :
    i ∈ ((cfg5.win 13).blk t).view.set ↔ ∀ a : Fin 2, win5_13.index t a * S2000x128.size a ≤ (i a).val ∧ (i a).val < win5_13.index t a * S2000x128.size a + S2000x128.size a := by
  show i ∈ ((View.whole main_v132).slice (win5_13.rect t)).set ↔ _
  rw [View.set_slice_whole, Rect.mem_set_unit]
  exact Iff.rfl

/-- Row r of the result array is in the block of point r / 2000. -/
theorem covered_13 (i : S50000x128.Idx) : ∃ t : Fin cfg5.N, (cfg5.win 13).flush t = true ∧ i ∈ ((cfg5.win 13).blk t).view.set := by
  have hi0 : (i 0).val < 50000 := idx2_lt0 i
  have hi1 : (i 1).val < 128 := idx2_lt1 i
  have hN : (i 0).val / 2000 < cfg5.N := by rw [show cfg5.N = 25 from N_5]; omega
  obtain ⟨t, ht⟩ : ∃ t : Fin cfg5.N, t.val = (i 0).val / 2000 := ⟨⟨(i 0).val / 2000, hN⟩, rfl⟩
  obtain ⟨-, -, -, -, -, -, -, -, -, -, -, -, -, -, -, -, -, -, -, -, -, -, -, -, -, -, e0, e1⟩ := idx t
  refine ⟨t, flush5_13 t, ?_⟩
  rw [mem_blk_13]
  intro a
  match a with
  | ⟨0, _⟩ => show win5_13.index t (0 : Fin 2) * 2000 ≤ (i 0).val ∧ (i 0).val < win5_13.index t (0 : Fin 2) * 2000 + 2000; omega
  | ⟨1, _⟩ => show win5_13.index t (1 : Fin 2) * 128 ≤ (i 1).val ∧ (i 1).val < win5_13.index t (1 : Fin 2) * 128 + 128; omega

/-- The array after the region. -/
theorem final_13 (hbody : ∀ x0 x1 x2 x3 x4 x5 x6 x7 x8 x9 x10 x11 x12, out5_13 (F := Ideal) x0 x1 x2 x3 x4 x5 x6 x7 x8 x9 x10 x11 x12 = Cert.Net.cls0 x0 x1 x2 x3 x4 x5 x6 x7 x8 x9 x10 x11 x12) (c : Dev nD) :
    (dat5 V c).arrAt 13 cfg5.N = Cert.Net.cls0 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) :=
  (dat5 V c).arrAt_eq_of_cover 13 _ (fun t _ => flushed_13 V hbody c t) covered_13

end Cert.Region5

end
-- ==== Proof.Region6.lean ====
/-
  Region 6 of the idealized kernel, read as a value. The grid has 25 points; point t handles rows
  2000 t .. 2000 t + 1999 of every row-indexed operand (its block index is (t, 0)) and the whole of every other
  operand (block index (0, 0)). So the block of a row-indexed array at point t, at (p, k), is the array at
  (2000 t + p, k); a whole-array block is the array. Since the body's result at row p depends on row p of its
  row-indexed operands only, what point t writes back is block t of the same function of the whole arrays, and the
  25 blocks tile the result array: the array after the region is that function of the arrays at entry.
-/
import proofs.«159722_j12695923327568_2_alg».proof.Proof.Gen.KernelIdeal.Frame
import proofs.«159722_j12695923327568_2_alg».proof.Proof.Net
import proofs.«159722_j12695923327568_2_alg».proof.Proof.NetRows
import proofs.«159722_j12695923327568_2_alg».proof.Proof.Rows
import Idealize.ShloMosaic.Lib.Pipeline.Value
import Idealize.ShloMosaic.Lib.ValueIdx

set_option maxRecDepth 16384

noncomputable section

namespace Cert.Region6

open Cert.KernelIdeal Cert.KernelIdeal.Gen Cert.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: a row-indexed window's block index at point t is (t, 0), a whole-array
    window's is (0, 0). -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Block t of window 0's array, at (p, k), is the array at (2000 t + p, k). -/
theorem emb_0 (t : Fin cfg6.N) (y : S2000x128.Idx) :
    ((cfg6.win 0).blk t).view.emb y = ix2 (row (Fin.cast N_6 t) (y 0)) (y 1) := by
  obtain ⟨e0, e1, -, -, -, -, -, -⟩ := idx t
  funext a; apply Fin.ext
  match a with
  | ⟨0, _⟩ => show win6_0.index t (0 : Fin 2) * 2000 + 1 * (y 0).val = 2000 * t.val + (y 0).val; omega
  | ⟨1, _⟩ => show win6_0.index t (1 : Fin 2) * 128 + 1 * (y 1).val = (y 1).val; omega

theorem blk_0 (c : Dev nD) (t : Fin cfg6.N) :
    iblk6 V c 0 t = fun y : S2000x128.Idx => V c (Pipeline.arrRef spec6 0) (ix2 (row (Fin.cast N_6 t) (y 0)) (y 1)) :=
  funext fun y => congrArg (V c (Pipeline.arrRef spec6 0)) (emb_0 t y)

/-- Window 1's block is the whole array. -/
theorem emb_1 (t : Fin cfg6.N) (y : S128x47.Idx) : ((cfg6.win 1).blk t).view.emb y = y := by
  obtain ⟨-, -, e0, e1, -, -, -, -⟩ := idx t
  funext a; apply Fin.ext
  match a with
  | ⟨0, _⟩ => show win6_1.index t (0 : Fin 2) * 128 + 1 * (y 0).val = (y 0).val; omega
  | ⟨1, _⟩ => show win6_1.index t (1 : Fin 2) * 47 + 1 * (y 1).val = (y 1).val; omega

theorem blk_1 (c : Dev nD) (t : Fin cfg6.N) : iblk6 V c 1 t = V c (Pipeline.arrRef spec6 1) :=
  funext fun y => congrArg (V c (Pipeline.arrRef spec6 1)) (emb_1 t y)

/-- Window 2's block is the whole array. -/
theorem emb_2 (t : Fin cfg6.N) (y : S1x47.Idx) : ((cfg6.win 2).blk t).view.emb y = y := by
  obtain ⟨-, -, -, -, e0, e1, -, -⟩ := idx t
  funext a; apply Fin.ext
  match a with
  | ⟨0, _⟩ => show win6_2.index t (0 : Fin 2) * 1 + 1 * (y 0).val = (y 0).val; omega
  | ⟨1, _⟩ => show win6_2.index t (1 : Fin 2) * 47 + 1 * (y 1).val = (y 1).val; omega

theorem blk_2 (c : Dev nD) (t : Fin cfg6.N) : iblk6 V c 2 t = V c (Pipeline.arrRef spec6 2) :=
  funext fun y => congrArg (V c (Pipeline.arrRef spec6 2)) (emb_2 t y)

/-- Block t of window 3's array, at (p, k), is the array at (2000 t + p, k). -/
theorem emb_3 (t : Fin cfg6.N) (y : S2000x47.Idx) :
    ((cfg6.win 3).blk t).view.emb y = ix2 (row (Fin.cast N_6 t) (y 0)) (y 1) := by
  obtain ⟨-, -, -, -, -, -, e0, e1⟩ := idx t
  funext a; apply Fin.ext
  match a with
  | ⟨0, _⟩ => show win6_3.index t (0 : Fin 2) * 2000 + 1 * (y 0).val = 2000 * t.val + (y 0).val; omega
  | ⟨1, _⟩ => show win6_3.index t (1 : Fin 2) * 47 + 1 * (y 1).val = (y 1).val; omega

/-! ## Output window 3 -/

/-- What point t writes back is block t of the whole-array function. -/
theorem flushed_3 (hbody : ∀ x0 x1 x2, out6_3 (F := Ideal) x0 x1 x2 = Cert.Net.cls1 x0 x1 x2)
    (c : Dev nD) (t : Fin cfg6.N) :
    (dat6 V c).flushed 3 t = ((cfg6.win 3).blk t).view.read (Elt Ideal) (Cert.Net.cls1 (V c (Pipeline.arrRef spec6 0)) (V c (Pipeline.arrRef spec6 1)) (V c (Pipeline.arrRef spec6 2))) := by
  show (cfg6.win 3).cut (grid6.coords t) ((dat6 V c).after 3 t) = _
  rw [after6_3, hbody]
  funext y
  show _ = Cert.Net.cls1 (V c (Pipeline.arrRef spec6 0)) (V c (Pipeline.arrRef spec6 1)) (V c (Pipeline.arrRef spec6 2)) (((cfg6.win 3).blk t).view.emb y)
  rw [emb_3 t y]
  exact Cert.Net.cls1_blk (row (Fin.cast N_6 t)) (fun y => congrArg (V c (Pipeline.arrRef spec6 0)) (emb_0 t y)) (blk_1 V c t) (blk_2 V c t) y

/-- An index of the result array is in point t's block iff each coordinate is in the block's range. -/
theorem mem_blk_3 (t : Fin cfg6.N) (i : S50000x47.Idx) :
    i ∈ ((cfg6.win 3).blk t).view.set ↔ ∀ a : Fin 2, win6_3.index t a * S2000x47.size a ≤ (i a).val ∧ (i a).val < win6_3.index t a * S2000x47.size a + S2000x47.size a := by
  show i ∈ ((View.whole main_v134).slice (win6_3.rect t)).set ↔ _
  rw [View.set_slice_whole, Rect.mem_set_unit]
  exact Iff.rfl

/-- Row r of the result array is in the block of point r / 2000. -/
theorem covered_3 (i : S50000x47.Idx) : ∃ t : Fin cfg6.N, (cfg6.win 3).flush t = true ∧ i ∈ ((cfg6.win 3).blk t).view.set := by
  have hi0 : (i 0).val < 50000 := idx2_lt0 i
  have hi1 : (i 1).val < 47 := idx2_lt1 i
  have hN : (i 0).val / 2000 < cfg6.N := by rw [show cfg6.N = 25 from N_6]; omega
  obtain ⟨t, ht⟩ : ∃ t : Fin cfg6.N, t.val = (i 0).val / 2000 := ⟨⟨(i 0).val / 2000, hN⟩, rfl⟩
  obtain ⟨-, -, -, -, -, -, e0, e1⟩ := idx t
  refine ⟨t, flush6_3 t, ?_⟩
  rw [mem_blk_3]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 47 ≤ (i 1).val ∧ (i 1).val < win6_3.index t (1 : Fin 2) * 47 + 47; omega

/-- The array after the region. -/
theorem final_3 (hbody : ∀ x0 x1 x2, out6_3 (F := Ideal) x0 x1 x2 = Cert.Net.cls1 x0 x1 x2) (c : Dev nD) :
    (dat6 V c).arrAt 3 cfg6.N = Cert.Net.cls1 (V c (Pipeline.arrRef spec6 0)) (V c (Pipeline.arrRef spec6 1)) (V c (Pipeline.arrRef spec6 2)) :=
  (dat6 V c).arrAt_eq_of_cover 3 _ (fun t _ => flushed_3 V hbody c t) covered_3

end Cert.Region6

end
-- ==== Proof.Chain.lean ====
/-
  The idealized kernel's result, followed through its eighteen segments. At each region's entry the host
  operations have put the region's operands where its windows read them: the degree factors, the aggregated
  features of the previous transform, the layer's rows of the batch-norm tables and its weight matrix. Each
  region leaves the network's function of those operands (its blocks tile the result). Composing the seven
  regions with the host stretches between them gives the network's result at the last boundary.
-/
import proofs.«159722_j12695923327568_2_alg».proof.Proof.Gen.KernelIdeal.Frame
import proofs.«159722_j12695923327568_2_alg».proof.Proof.Net
import proofs.«159722_j12695923327568_2_alg».proof.Proof.Bodies
import proofs.«159722_j12695923327568_2_alg».proof.Proof.Carry
import proofs.«159722_j12695923327568_2_alg».proof.Proof.HostK
import proofs.«159722_j12695923327568_2_alg».proof.Proof.Region0
import proofs.«159722_j12695923327568_2_alg».proof.Proof.Region1
import proofs.«159722_j12695923327568_2_alg».proof.Proof.Region2
import proofs.«159722_j12695923327568_2_alg».proof.Proof.Region3
import proofs.«159722_j12695923327568_2_alg».proof.Proof.Region4
import proofs.«159722_j12695923327568_2_alg».proof.Proof.Region5
import proofs.«159722_j12695923327568_2_alg».proof.Proof.Region6

set_option maxRecDepth 16384

noncomputable section

namespace Cert.Chain

open Cert.KernelIdeal Cert.KernelIdeal.Gen Cert.HostK
open Idealize.ShloMosaic Idealize.ShloMosaic.TcCoe Idealize.ShloMosaic.ValueIdx Idealize.SL.Sem

variable (m : (ℓ : Loc nD τ sig) → Buf (Elt Ideal) ℓ) (ρ : Dev nD → PrngReg)

/-- After region 0: the first transform of the input features. -/
theorem hw0 (c : Dev nD) : W6 m ρ c (Proc.devRef .tc main_v16) = (Cert.Net.pre (m ((c : Thread nD τ).loc main_arg0)) (normK (m ((c : Thread nD τ).loc main_arg1))) (Cert.Net.slab 0 (m ((c : Thread nD τ).loc main_arg3)))) := by
  refine (W6_arr m ρ c 3).trans ((Cert.Region0.final_3 (V5 m ρ) Cert.Bodies.out0_3_eq c).trans ?_)
  show Cert.Net.pre (W5 m ρ c (Proc.devRef .tc main_arg0)) (W5 m ρ c (Proc.devRef .tc main_v10)) (W5 m ρ c (Proc.devRef .tc main_v15)) = _
  rw [Cert.Carry.arg0_at5 m ρ c, ns5 m ρ c, w5 m ρ c]

/-- The source-degree factors at the entries of regions 1, 2, 3. -/
theorem ns7 (c : Dev nD) : W7 m ρ c (Proc.devRef .tc main_v10) = normK (m ((c : Thread nD τ).loc main_arg1)) := (Cert.Carry.v10_5_7 m ρ c).trans (ns5 m ρ c)
theorem ns9 (c : Dev nD) : W9 m ρ c (Proc.devRef .tc main_v10) = normK (m ((c : Thread nD τ).loc main_arg1)) := (Cert.Carry.v10_7_9 m ρ c).trans (ns7 m ρ c)
theorem ns11 (c : Dev nD) : W11 m ρ c (Proc.devRef .tc main_v10) = normK (m ((c : Thread nD τ).loc main_arg1)) := (Cert.Carry.v10_9_11 m ρ c).trans (ns9 m ρ c)
/-- The destination-degree factors at the entries of regions 1, 2, 3, 4. -/
theorem nd7 (c : Dev nD) : W7 m ρ c (Proc.devRef .tc main_v12) = normK (m ((c : Thread nD τ).loc main_arg2)) := (Cert.Carry.v12_5_7 m ρ c).trans (nd5 m ρ c)
theorem nd9 (c : Dev nD) : W9 m ρ c (Proc.devRef .tc main_v12) = normK (m ((c : Thread nD τ).loc main_arg2)) := (Cert.Carry.v12_7_9 m ρ c).trans (nd7 m ρ c)
theorem nd11 (c : Dev nD) : W11 m ρ c (Proc.devRef .tc main_v12) = normK (m ((c : Thread nD τ).loc main_arg2)) := (Cert.Carry.v12_9_11 m ρ c).trans (nd9 m ρ c)
theorem nd13 (c : Dev nD) : W13 m ρ c (Proc.devRef .tc main_v12) = normK (m ((c : Thread nD τ).loc main_arg2)) := (Cert.Carry.v12_11_13 m ρ c).trans (nd11 m ρ c)

/-- After region 1: hidden layer 0. -/
theorem h0 (c : Dev nD) : W8 m ρ c (Proc.devRef .tc main_v43_0) = (Cert.Net.hid0 (aggK (m ((c : Thread nD τ).loc main_arg1)) (m ((c : Thread nD τ).loc main_arg2))) (normK (m ((c : Thread nD τ).loc main_arg1))) (normK (m ((c : Thread nD τ).loc main_arg2))) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8))) := by
  refine (W8_arr m ρ c 9).trans ((Cert.Region1.final_9 (V7 m ρ) Cert.Bodies.out1_9_eq c).trans ?_)
  show Cert.Net.post (W7 m ρ c (Proc.devRef .tc main_v27)) (W7 m ρ c (Proc.devRef .tc main_v12)) (W7 m ρ c (Proc.devRef .tc main_v38)) (W7 m ρ c (Proc.devRef .tc main_v39)) (W7 m ρ c (Proc.devRef .tc main_v40)) (W7 m ρ c (Proc.devRef .tc main_v41)) (W7 m ρ c (Proc.devRef .tc main_v42)) = _
  rw [agg7 m ρ c, hw0 m ρ c, nd7 m ρ c, b7 m ρ c, g7 m ρ c, be7 m ρ c, mu7 m ρ c, va7 m ρ c]
  rfl

/-- After region 1: the transform of hidden layer 0 for the next layer. -/
theorem hw1 (c : Dev nD) : W8 m ρ c (Proc.devRef .tc main_v43_1) = (Cert.Net.pre (Cert.Net.hid0 (aggK (m ((c : Thread nD τ).loc main_arg1)) (m ((c : Thread nD τ).loc main_arg2))) (normK (m ((c : Thread nD τ).loc main_arg1))) (normK (m ((c : Thread nD τ).loc main_arg2))) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8))) (normK (m ((c : Thread nD τ).loc main_arg1))) (Cert.Net.slab 1 (m ((c : Thread nD τ).loc main_arg3)))) := by
  refine (W8_arr m ρ c 10).trans ((Cert.Region1.final_10 (V7 m ρ) Cert.Bodies.out1_10_eq c).trans ?_)
  show Cert.Net.pre (Cert.Net.post (W7 m ρ c (Proc.devRef .tc main_v27)) (W7 m ρ c (Proc.devRef .tc main_v12)) (W7 m ρ c (Proc.devRef .tc main_v38)) (W7 m ρ c (Proc.devRef .tc main_v39)) (W7 m ρ c (Proc.devRef .tc main_v40)) (W7 m ρ c (Proc.devRef .tc main_v41)) (W7 m ρ c (Proc.devRef .tc main_v42))) (W7 m ρ c (Proc.devRef .tc main_v10)) (W7 m ρ c (Proc.devRef .tc main_v37)) = _
  rw [agg7 m ρ c, hw0 m ρ c, nd7 m ρ c, b7 m ρ c, g7 m ρ c, be7 m ρ c, mu7 m ρ c, va7 m ρ c, ns7 m ρ c, w7 m ρ c]
  rfl

/-- After region 2: hidden layer 1. -/
theorem h1 (c : Dev nD) : W10 m ρ c (Proc.devRef .tc main_v70_0) = (Cert.Net.hid1 (aggK (m ((c : Thread nD τ).loc main_arg1)) (m ((c : Thread nD τ).loc main_arg2))) (normK (m ((c : Thread nD τ).loc main_arg1))) (normK (m ((c : Thread nD τ).loc main_arg2))) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8))) := by
  refine (W10_arr m ρ c 9).trans ((Cert.Region2.final_9 (V9 m ρ) Cert.Bodies.out2_9_eq c).trans ?_)
  show Cert.Net.post (W9 m ρ c (Proc.devRef .tc main_v54)) (W9 m ρ c (Proc.devRef .tc main_v12)) (W9 m ρ c (Proc.devRef .tc main_v65)) (W9 m ρ c (Proc.devRef .tc main_v66)) (W9 m ρ c (Proc.devRef .tc main_v67)) (W9 m ρ c (Proc.devRef .tc main_v68)) (W9 m ρ c (Proc.devRef .tc main_v69)) = _
  rw [agg9 m ρ c, hw1 m ρ c, nd9 m ρ c, b9 m ρ c, g9 m ρ c, be9 m ρ c, mu9 m ρ c, va9 m ρ c]
  rfl

/-- After region 2: the transform of hidden layer 1 for the next layer. -/
theorem hw2 (c : Dev nD) : W10 m ρ c (Proc.devRef .tc main_v70_1) = (Cert.Net.pre (Cert.Net.hid1 (aggK (m ((c : Thread nD τ).loc main_arg1)) (m ((c : Thread nD τ).loc main_arg2))) (normK (m ((c : Thread nD τ).loc main_arg1))) (normK (m ((c : Thread nD τ).loc main_arg2))) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8))) (normK (m ((c : Thread nD τ).loc main_arg1))) (Cert.Net.slab 2 (m ((c : Thread nD τ).loc main_arg3)))) := by
  refine (W10_arr m ρ c 10).trans ((Cert.Region2.final_10 (V9 m ρ) Cert.Bodies.out2_10_eq c).trans ?_)
  show Cert.Net.pre (Cert.Net.post (W9 m ρ c (Proc.devRef .tc main_v54)) (W9 m ρ c (Proc.devRef .tc main_v12)) (W9 m ρ c (Proc.devRef .tc main_v65)) (W9 m ρ c (Proc.devRef .tc main_v66)) (W9 m ρ c (Proc.devRef .tc main_v67)) (W9 m ρ c (Proc.devRef .tc main_v68)) (W9 m ρ c (Proc.devRef .tc main_v69))) (W9 m ρ c (Proc.devRef .tc main_v10)) (W9 m ρ c (Proc.devRef .tc main_v64)) = _
  rw [agg9 m ρ c, hw1 m ρ c, nd9 m ρ c, b9 m ρ c, g9 m ρ c, be9 m ρ c, mu9 m ρ c, va9 m ρ c, ns9 m ρ c, w9 m ρ c]
  rfl

/-- After region 3: hidden layer 2. -/
theorem h2 (c : Dev nD) : W12 m ρ c (Proc.devRef .tc main_v97_0) = (Cert.Net.hid2 (aggK (m ((c : Thread nD τ).loc main_arg1)) (m ((c : Thread nD τ).loc main_arg2))) (normK (m ((c : Thread nD τ).loc main_arg1))) (normK (m ((c : Thread nD τ).loc main_arg2))) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8))) := by
  refine (W12_arr m ρ c 9).trans ((Cert.Region3.final_9 (V11 m ρ) Cert.Bodies.out3_9_eq c).trans ?_)
  show Cert.Net.post (W11 m ρ c (Proc.devRef .tc main_v81)) (W11 m ρ c (Proc.devRef .tc main_v12)) (W11 m ρ c (Proc.devRef .tc main_v92)) (W11 m ρ c (Proc.devRef .tc main_v93)) (W11 m ρ c (Proc.devRef .tc main_v94)) (W11 m ρ c (Proc.devRef .tc main_v95)) (W11 m ρ c (Proc.devRef .tc main_v96)) = _
  rw [agg11 m ρ c, hw2 m ρ c, nd11 m ρ c, b11 m ρ c, g11 m ρ c, be11 m ρ c, mu11 m ρ c, va11 m ρ c]
  rfl

/-- After region 3: the transform of hidden layer 2 for the next layer. -/
theorem hw3 (c : Dev nD) : W12 m ρ c (Proc.devRef .tc main_v97_1) = (Cert.Net.pre (Cert.Net.hid2 (aggK (m ((c : Thread nD τ).loc main_arg1)) (m ((c : Thread nD τ).loc main_arg2))) (normK (m ((c : Thread nD τ).loc main_arg1))) (normK (m ((c : Thread nD τ).loc main_arg2))) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8))) (normK (m ((c : Thread nD τ).loc main_arg1))) (Cert.Net.slab 3 (m ((c : Thread nD τ).loc main_arg3)))) := by
  refine (W12_arr m ρ c 10).trans ((Cert.Region3.final_10 (V11 m ρ) Cert.Bodies.out3_10_eq c).trans ?_)
  show Cert.Net.pre (Cert.Net.post (W11 m ρ c (Proc.devRef .tc main_v81)) (W11 m ρ c (Proc.devRef .tc main_v12)) (W11 m ρ c (Proc.devRef .tc main_v92)) (W11 m ρ c (Proc.devRef .tc main_v93)) (W11 m ρ c (Proc.devRef .tc main_v94)) (W11 m ρ c (Proc.devRef .tc main_v95)) (W11 m ρ c (Proc.devRef .tc main_v96))) (W11 m ρ c (Proc.devRef .tc main_v10)) (W11 m ρ c (Proc.devRef .tc main_v91)) = _
  rw [agg11 m ρ c, hw2 m ρ c, nd11 m ρ c, b11 m ρ c, g11 m ρ c, be11 m ρ c, mu11 m ρ c, va11 m ρ c, ns11 m ρ c, w11 m ρ c]
  rfl

/-- After region 4: the last hidden layer, the one with a bias. -/
theorem h3 (c : Dev nD) : W14 m ρ c (Proc.devRef .tc main_v122) = (Cert.Net.hid3 (aggK (m ((c : Thread nD τ).loc main_arg1)) (m ((c : Thread nD τ).loc main_arg2))) (normK (m ((c : Thread nD τ).loc main_arg1))) (normK (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W14_arr m ρ c 7).trans ((Cert.Region4.final_7 (V13 m ρ) Cert.Bodies.out4_7_eq c).trans ?_)
  show Cert.Net.post (W13 m ρ c (Proc.devRef .tc main_v108)) (W13 m ρ c (Proc.devRef .tc main_v12)) (W13 m ρ c (Proc.devRef .tc main_v117)) (W13 m ρ c (Proc.devRef .tc main_v118)) (W13 m ρ c (Proc.devRef .tc main_v119)) (W13 m ρ c (Proc.devRef .tc main_v120)) (W13 m ρ c (Proc.devRef .tc main_v121)) = _
  rw [agg13 m ρ c, hw3 m ρ c, nd13 m ρ c, b13 m ρ c, g13 m ρ c, be13 m ρ c, mu13 m ρ c, va13 m ρ c]
  rfl

/-- After region 5: the first classifier layer. -/
theorem c0 (c : Dev nD) : W16 m ρ c (Proc.devRef .tc main_v132) = Cert.Net.cls0 (Cert.Net.hid0 (aggK (m ((c : Thread nD τ).loc main_arg1)) (m ((c : Thread nD τ).loc main_arg2))) (normK (m ((c : Thread nD τ).loc main_arg1))) (normK (m ((c : Thread nD τ).loc main_arg2))) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8))) (Cert.Net.hid1 (aggK (m ((c : Thread nD τ).loc main_arg1)) (m ((c : Thread nD τ).loc main_arg2))) (normK (m ((c : Thread nD τ).loc main_arg1))) (normK (m ((c : Thread nD τ).loc main_arg2))) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8))) (Cert.Net.hid2 (aggK (m ((c : Thread nD τ).loc main_arg1)) (m ((c : Thread nD τ).loc main_arg2))) (normK (m ((c : Thread nD τ).loc main_arg1))) (normK (m ((c : Thread nD τ).loc main_arg2))) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8))) (Cert.Net.hid3 (aggK (m ((c : Thread nD τ).loc main_arg1)) (m ((c : Thread nD τ).loc main_arg2))) (normK (m ((c : Thread nD τ).loc main_arg1))) (normK (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (Cert.Net.rows128 0 (m ((c : Thread nD τ).loc main_arg9))) (Cert.Net.rows128 1 (m ((c : Thread nD τ).loc main_arg9))) (Cert.Net.rows128 2 (m ((c : Thread nD τ).loc main_arg9))) (Cert.Net.rows128 3 (m ((c : Thread nD τ).loc main_arg9)))
    (Cert.Net.vecRow (m ((c : Thread nD τ).loc main_arg10))) (Cert.Net.vecRow (m ((c : Thread nD τ).loc main_arg11))) (Cert.Net.vecRow (m ((c : Thread nD τ).loc main_arg12))) (Cert.Net.vecRow (m ((c : Thread nD τ).loc main_arg13))) (Cert.Net.vecRow (m ((c : Thread nD τ).loc main_arg14))) := by
  refine (W16_arr m ρ c 13).trans ((Cert.Region5.final_13 (V15 m ρ) Cert.Bodies.out5_13_eq c).trans ?_)
  show Cert.Net.cls0 (W15 m ρ c (Proc.devRef .tc main_v43_0)) (W15 m ρ c (Proc.devRef .tc main_v70_0)) (W15 m ρ c (Proc.devRef .tc main_v97_0)) (W15 m ρ c (Proc.devRef .tc main_v122)) (W15 m ρ c (Proc.devRef .tc main_v123)) (W15 m ρ c (Proc.devRef .tc main_v124)) (W15 m ρ c (Proc.devRef .tc main_v125)) (W15 m ρ c (Proc.devRef .tc main_v126)) (W15 m ρ c (Proc.devRef .tc main_v127)) (W15 m ρ c (Proc.devRef .tc main_v128)) (W15 m ρ c (Proc.devRef .tc main_v129)) (W15 m ρ c (Proc.devRef .tc main_v130)) (W15 m ρ c (Proc.devRef .tc main_v131)) = _
  rw [Cert.Carry.v43_0_8_15 m ρ c, h0 m ρ c, Cert.Carry.v70_0_10_15 m ρ c, h1 m ρ c, Cert.Carry.v97_0_12_15 m ρ c, h2 m ρ c,
    Cert.Carry.v122_14_15 m ρ c, h3 m ρ c, cw0_15 m ρ c, cw1_15 m ρ c, cw2_15 m ρ c, cw3_15 m ρ c,
    cb15 m ρ c, cg15 m ρ c, cbe15 m ρ c, cmu15 m ρ c, cva15 m ρ c]

/-- After region 6: the network's result. -/
theorem kernel_out (c : Dev nD) : W18 m ρ c (Proc.devRef .tc main_v134) = (Cert.Net.out (aggK (m ((c : Thread nD τ).loc main_arg1)) (m ((c : Thread nD τ).loc main_arg2))) (normK (m ((c : Thread nD τ).loc main_arg1))) (normK (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  refine (W18_arr m ρ c 3).trans ((Cert.Region6.final_3 (V17 m ρ) Cert.Bodies.out6_3_eq c).trans ?_)
  show Cert.Net.cls1 (W17 m ρ c (Proc.devRef .tc main_v132)) (W17 m ρ c (Proc.devRef .tc main_arg15)) (W17 m ρ c (Proc.devRef .tc main_v133)) = _
  rw [Cert.Carry.v132_16_17 m ρ c, c0 m ρ c, Cert.Carry.arg15_at17 m ρ c, cb1_17 m ρ c]
  rfl

end Cert.Chain

end
-- ==== Proof.RefNetBase.lean ====
/-
  The reference program's side of the network: its two degree-factor columns, its neighbour aggregation, and the
  few facts about its operations that every layer uses — a product with a 128 x 128 matrix read at an entry, and
  the layer's finishing step without a bias row.
-/
import proofs.«159722_j12695923327568_2_alg».proof.Proof.Gen.ReferenceIdeal.Read
import proofs.«159722_j12695923327568_2_alg».proof.Proof.Net
import proofs.«159722_j12695923327568_2_alg».proof.Proof.LibPlainDot

noncomputable section

open scoped BigOperators

namespace Cert.RefNet

open Cert.ReferenceIdeal Cert.ReferenceIdeal.Gen Cert.ReferenceIdeal.Read Idealize.ShloMosaic Idealize.ShloMosaic.ValueIdx
  Idealize.ShloMosaic.StableHlo

/-- An array of 800000 edge endpoints. -/
abbrev Edges := (⟨S800000, .i32⟩ : BufTy).Contents (Elt Ideal)

/-- The source-degree factor of every node, as a column: the reciprocal square root of its clipped out-degree. -/
def nsR (x1 : Edges) : Cert.Net.Mat 50000 1 := val_main_v10 (F := Ideal) x1

/-- The destination-degree factor of every node, as a column. -/
def ndR (x2 : Edges) : Cert.Net.Mat 50000 1 := val_main_v12 (F := Ideal) x2

/-- The neighbour aggregation: gather the rows of `hw` at the edges' (sign-normalised) sources, and add each
    gathered row into the zero array at the edge's destination. -/
def aggR (x1 x2 : Edges) : Cert.Net.Mat 50000 128 → Cert.Net.Mat 50000 128 := fun hw =>
  (Host.scatterAdd (F := Ideal) (φ := .f32) scatter_S50000x128_S800000x1_S800000x128_1_0_0_1 (val_main_v25 (F := Ideal)) (val_main_v26 (F := Ideal) x2)
    (Host.gather (α := Ideal .f32) gather_S50000x128_S800000x1_S800000x128_1_0_n_n_0_1_1128 (hw : (⟨S50000x128, .f32⟩ : BufTy).Contents (Elt Ideal))
      (val_main_v23 (F := Ideal) x1)) : (⟨S50000x128, .f32⟩ : BufTy).Contents (Elt Ideal))

/-- A [50000,128] by [128,128] product at an entry: the sum over the contracted coordinate. -/
theorem dot128 (l : (⟨S50000x128, .f32⟩ : BufTy).Contents (Elt Ideal)) (r : (⟨S128x128, .f32⟩ : BufTy).Contents (Elt Ideal))
    (i : S50000x128.Idx) :
    Host.dotGeneral (F := Ideal) (φ₁ := .f32) (φ₂ := .f32) dot_S50000x128_S128x128_S50000x128_1_0_0_1_n_n none l r i
      = ∑ k : Fin 128, l (ix2 (i 0) k) * r (ix2 k (i 1)) :=
  PlainDot.dotGeneral_plain dot_S50000x128_S128x128_S50000x128_1_0_0_1_n_n rfl rfl rfl rfl rfl rfl none _ l r i

/-- The finishing step of a layer with the all-zero bias row: adding zero changes nothing. -/
theorem post_zeroRow {R : Nat} (a : Cert.Net.Mat R 128) (nd : Cert.Net.Mat R 1) (g be mu va : Cert.Net.Mat 1 128)
    (i : (⟨2, ![R, 128]⟩ : Shape).Idx) :
    Cert.Net.post a nd Cert.Net.zeroRow g be mu va i
      = max ((((a (ix2 (i 0) (i 1)) * nd (ix2 (i 0) 0)) - mu (ix2 0 (i 1)))
          * (g (ix2 0 (i 1)) * Ideal.rsqrt (va (ix2 0 (i 1)) + Cert.Net.eps))) + be (ix2 0 (i 1))) Cert.Net.zero := by
  have hz : Cert.Net.zeroRow (ix2 0 (i 1)) = 0 := Cert.Net.zero_eq
  unfold Cert.Net.post
  rw [hz, add_zero]

/-- The same at an entry given by its row and column. -/
theorem post_zeroRow' {R : Nat} (a : Cert.Net.Mat R 128) (nd : Cert.Net.Mat R 1) (g be mu va : Cert.Net.Mat 1 128)
    (r : Fin R) (c : Fin 128) :
    Cert.Net.post a nd Cert.Net.zeroRow g be mu va (ix2 r c)
      = max ((((a (ix2 r c) * nd (ix2 r 0)) - mu (ix2 0 c))
          * (g (ix2 0 c) * Ideal.rsqrt (va (ix2 0 c) + Cert.Net.eps))) + be (ix2 0 c)) Cert.Net.zero :=
  post_zeroRow a nd g be mu va (ix2 r c)

/-- The finishing step of a layer at an entry given by its row and column. -/
theorem post_at {R : Nat} (a : Cert.Net.Mat R 128) (nd : Cert.Net.Mat R 1) (b g be mu va : Cert.Net.Mat 1 128)
    (r : Fin R) (c : Fin 128) :
    Cert.Net.post a nd b g be mu va (ix2 r c)
      = max ((((a (ix2 r c) * nd (ix2 r 0) + b (ix2 0 c)) - mu (ix2 0 c))
          * (g (ix2 0 c) * Ideal.rsqrt (va (ix2 0 c) + Cert.Net.eps))) + be (ix2 0 c)) Cert.Net.zero := rfl

/-- The first classifier layer at an entry given by its row and column. -/
theorem cls0_at {R : Nat} (h0 h1 h2 h3 : Cert.Net.Mat R 128) (w0 w1 w2 w3 : Cert.Net.Mat 128 128)
    (b g be mu va : Cert.Net.Mat 1 128) (r : Fin R) (c : Fin 128) :
    Cert.Net.cls0 h0 h1 h2 h3 w0 w1 w2 w3 b g be mu va (ix2 r c)
      = max ((((((((∑ k : Fin 128, h0 (ix2 r k) * w0 (ix2 k c)) + (∑ k : Fin 128, h1 (ix2 r k) * w1 (ix2 k c)))
          + (∑ k : Fin 128, h2 (ix2 r k) * w2 (ix2 k c))) + (∑ k : Fin 128, h3 (ix2 r k) * w3 (ix2 k c)))
          + b (ix2 0 c)) - mu (ix2 0 c))
        * (g (ix2 0 c) * Ideal.rsqrt (va (ix2 0 c) + Cert.Net.eps))) + be (ix2 0 c)) Cert.Net.zero := rfl

/-- The second classifier layer at an entry given by its row and column. -/
theorem cls1_at {R : Nat} (x : Cert.Net.Mat R 128) (w : Cert.Net.Mat 128 47) (b : Cert.Net.Mat 1 47) (r : Fin R) (c : Fin 47) :
    Cert.Net.cls1 x w b (ix2 r c) = (∑ k : Fin 128, x (ix2 r k) * w (ix2 k c)) + b (ix2 0 c) := rfl

end Cert.RefNet

end
-- ==== Proof.RefNetL0.lean ====
/-
  The first layer of the reference program is the network's first hidden layer.
-/
import proofs.«159722_j12695923327568_2_alg».proof.Proof.RefNetBase

noncomputable section

open scoped BigOperators

namespace Cert.RefNet

open Cert.ReferenceIdeal Cert.ReferenceIdeal.Gen Cert.ReferenceIdeal.Read Idealize.ShloMosaic Idealize.ShloMosaic.ValueIdx
  Idealize.ShloMosaic.StableHlo

/-- Layer 0, the feature transform: the rows scaled by the source-degree factor, times matrix 0 of the stack. -/
theorem pre0 (x0 : (⟨S50000x128, .f32⟩ : BufTy).Contents (Elt Ideal)) (x1 : Edges) (x3 : (⟨S4x128x128, .f32⟩ : BufTy).Contents (Elt Ideal)) :
    val_main_v17 (F := Ideal) x0 x1 x3 = Cert.Net.pre x0 (nsR x1) (Cert.Net.slab 0 x3) := by
  funext i
  unfold val_main_v17
  rw [dot128]
  show _ = ∑ k : Fin 128, (x0 (ix2 (i 0) k) * nsR x1 (ix2 (i 0) 0)) * Cert.Net.slab 0 x3 (ix2 k (i 1))
  refine Finset.sum_congr rfl fun k _ => ?_
  have e1 : idx_main_v13 (ix2 (i 0) k) = ix2 (i 0) 0 := funext fun a => Fin.ext (by
    match a with
    | ⟨0, _⟩ => rfl
    | ⟨1, _⟩ => rfl)
  have e2 : idx_main_v15 (idx_main_v16 (ix2 k (i 1))) = ix3 0 k (i 1) := funext fun a => Fin.ext (by
    have hk := k.isLt
    have hc := idx2_lt1 i
    match a with
    | ⟨0, _⟩ => rfl
    | ⟨1, _⟩ => show (k.val * 128 + (i 1).val) / 128 % 128 = k.val; omega
    | ⟨2, _⟩ => show (k.val * 128 + (i 1).val) % 128 = (i 1).val; omega)
  rw [val_main_v14_apply, val_main_v13_apply, val_main_v16_apply, val_main_v15_apply, Ideal.mulf_def, e1, e2]
  rfl

/-- Layer 0, the aggregation: the same gather and scatter-add as in every layer. -/
theorem agg0 (x0 : (⟨S50000x128, .f32⟩ : BufTy).Contents (Elt Ideal)) (x1 x2 : Edges) (x3 : (⟨S4x128x128, .f32⟩ : BufTy).Contents (Elt Ideal)) :
    val_main_v27 (F := Ideal) x0 x1 x2 x3 = aggR x1 x2 (val_main_v17 (F := Ideal) x0 x1 x3) := rfl

/-- Layer 0, the finishing step: the rows scaled by the destination-degree factor, batch-normalised with row 0
    of the four tables, and rectified. The scale gamma * rsqrt (var + eps) is the same number whether it is formed on the
    128 columns first or entry by entry. -/
theorem post0 (x0 : (⟨S50000x128, .f32⟩ : BufTy).Contents (Elt Ideal)) (x1 x2 : Edges) (x3 : (⟨S4x128x128, .f32⟩ : BufTy).Contents (Elt Ideal)) (x5 x6 x7 x8 : (⟨S4x128, .f32⟩ : BufTy).Contents (Elt Ideal)) :
    val_main_v51 (F := Ideal) x0 x1 x2 x3 x5 x6 x7 x8
      = Cert.Net.post (val_main_v27 (F := Ideal) x0 x1 x2 x3) (ndR x2) Cert.Net.zeroRow (Cert.Net.rowOf 0 x5)
          (Cert.Net.rowOf 0 x6) (Cert.Net.rowOf 0 x7) (Cert.Net.rowOf 0 x8) := by
  funext i
  obtain ⟨r, c, rfl⟩ : ∃ (r : Fin 50000) (c : Fin 128), i = ix2 r c := ⟨i 0, i 1, eq_ix2 i⟩
  have e1 : idx_main_v28 (ix2 r c) = ix2 r 0 := funext fun a => Fin.ext (by
    match a with
    | ⟨0, _⟩ => rfl
    | ⟨1, _⟩ => rfl)
  have e5 : idx_main_v30 (idx_main_v31 (idx_main_v45 (idx_main_v46 (ix2 r c)))) = ix2 0 c := funext fun a => Fin.ext (by
    match a with
    | ⟨0, _⟩ => rfl
    | ⟨1, _⟩ => exact Nat.mod_eq_of_lt c.isLt)
  have e8 : idx_main_v36 (idx_main_v37 (idx_main_v45 (idx_main_v46 (ix2 r c)))) = ix2 0 c := funext fun a => Fin.ext (by
    match a with
    | ⟨0, _⟩ => rfl
    | ⟨1, _⟩ => exact Nat.mod_eq_of_lt c.isLt)
  have e7 : idx_main_v34 (idx_main_v35 (idx_main_v38 (idx_main_v39 (ix2 r c)))) = ix2 0 c := funext fun a => Fin.ext (by
    match a with
    | ⟨0, _⟩ => rfl
    | ⟨1, _⟩ => exact Nat.mod_eq_of_lt c.isLt)
  have e6 : idx_main_v32 (idx_main_v33 (idx_main_v48 (idx_main_v49 (ix2 r c)))) = ix2 0 c := funext fun a => Fin.ext (by
    match a with
    | ⟨0, _⟩ => rfl
    | ⟨1, _⟩ => exact Nat.mod_eq_of_lt c.isLt)
  rw [post_zeroRow']
  rw [val_main_v51_apply, val_main_v50_apply, val_main_v47_apply, val_main_v40_apply, val_main_v29_apply,
    val_main_v28_apply, e1,
    val_main_v39_apply, val_main_v38_apply, val_main_v35_apply, val_main_v34_apply, e7,
    val_main_v46_apply, val_main_v45_apply, val_main_v44_apply, val_main_v31_apply, val_main_v30_apply, e5,
    val_main_v43_apply, val_main_v42_apply, val_main_v37_apply, val_main_v36_apply, e8,
    val_main_v41_apply, val_main_cst_6_apply,
    val_main_v49_apply, val_main_v48_apply, val_main_v33_apply, val_main_v32_apply, e6,
    val_main_call2_v0_apply, val_main_call2_cst_apply]
  rfl

end Cert.RefNet

end
-- ==== Proof.RefNetL1.lean ====
/-
  Layer 1 of the reference program is the network's second hidden layer, read from the previous layer's output.
-/
import proofs.«159722_j12695923327568_2_alg».proof.Proof.RefNetBase

noncomputable section

open scoped BigOperators

namespace Cert.RefNet

open Cert.ReferenceIdeal Cert.ReferenceIdeal.Gen Cert.ReferenceIdeal.Read Idealize.ShloMosaic Idealize.ShloMosaic.ValueIdx
  Idealize.ShloMosaic.StableHlo

/-- Layer 1, the feature transform: the rows scaled by the source-degree factor, times matrix 1 of the stack. -/
theorem pre1 (x0 : (⟨S50000x128, .f32⟩ : BufTy).Contents (Elt Ideal)) (x1 x2 : Edges) (x3 : (⟨S4x128x128, .f32⟩ : BufTy).Contents (Elt Ideal)) (x5 x6 x7 x8 : (⟨S4x128, .f32⟩ : BufTy).Contents (Elt Ideal)) :
    val_main_v56 (F := Ideal) x0 x1 x2 x3 x5 x6 x7 x8 = Cert.Net.pre (val_main_v51 (F := Ideal) x0 x1 x2 x3 x5 x6 x7 x8) (nsR x1) (Cert.Net.slab 1 x3) := by
  funext i
  unfold val_main_v56
  rw [dot128]
  show _ = ∑ k : Fin 128, ((val_main_v51 (F := Ideal) x0 x1 x2 x3 x5 x6 x7 x8) (ix2 (i 0) k) * nsR x1 (ix2 (i 0) 0)) * Cert.Net.slab 1 x3 (ix2 k (i 1))
  refine Finset.sum_congr rfl fun k _ => ?_
  have e1 : idx_main_v52 (ix2 (i 0) k) = ix2 (i 0) 0 := funext fun a => Fin.ext (by
    match a with
    | ⟨0, _⟩ => rfl
    | ⟨1, _⟩ => rfl)
  have e2 : idx_main_v54 (idx_main_v55 (ix2 k (i 1))) = ix3 1 k (i 1) := funext fun a => Fin.ext (by
    have hk := k.isLt
    have hc := idx2_lt1 i
    match a with
    | ⟨0, _⟩ => rfl
    | ⟨1, _⟩ => show (k.val * 128 + (i 1).val) / 128 % 128 = k.val; omega
    | ⟨2, _⟩ => show (k.val * 128 + (i 1).val) % 128 = (i 1).val; omega)
  rw [val_main_v53_apply, val_main_v52_apply, val_main_v55_apply, val_main_v54_apply, Ideal.mulf_def, e1, e2]
  rfl

/-- Layer 1, the aggregation: the same gather and scatter-add as in every layer. -/
theorem agg1 (x0 : (⟨S50000x128, .f32⟩ : BufTy).Contents (Elt Ideal)) (x1 x2 : Edges) (x3 : (⟨S4x128x128, .f32⟩ : BufTy).Contents (Elt Ideal)) (x5 x6 x7 x8 : (⟨S4x128, .f32⟩ : BufTy).Contents (Elt Ideal)) :
    val_main_v66 (F := Ideal) x0 x1 x2 x3 x5 x6 x7 x8 = aggR x1 x2 (val_main_v56 (F := Ideal) x0 x1 x2 x3 x5 x6 x7 x8) := rfl

/-- Layer 1, the finishing step: the rows scaled by the destination-degree factor, batch-normalised with row 1
    of the four tables, and rectified. The scale gamma * rsqrt (var + eps) is the same number whether it is formed on the
    128 columns first or entry by entry. -/
theorem post1 (x0 : (⟨S50000x128, .f32⟩ : BufTy).Contents (Elt Ideal)) (x1 x2 : Edges) (x3 : (⟨S4x128x128, .f32⟩ : BufTy).Contents (Elt Ideal)) (x5 x6 x7 x8 : (⟨S4x128, .f32⟩ : BufTy).Contents (Elt Ideal)) :
    val_main_v90 (F := Ideal) x0 x1 x2 x3 x5 x6 x7 x8
      = Cert.Net.post (val_main_v66 (F := Ideal) x0 x1 x2 x3 x5 x6 x7 x8) (ndR x2) Cert.Net.zeroRow (Cert.Net.rowOf 1 x5)
          (Cert.Net.rowOf 1 x6) (Cert.Net.rowOf 1 x7) (Cert.Net.rowOf 1 x8) := by
  funext i
  obtain ⟨r, c, rfl⟩ : ∃ (r : Fin 50000) (c : Fin 128), i = ix2 r c := ⟨i 0, i 1, eq_ix2 i⟩
  have e1 : idx_main_v67 (ix2 r c) = ix2 r 0 := funext fun a => Fin.ext (by
    match a with
    | ⟨0, _⟩ => rfl
    | ⟨1, _⟩ => rfl)
  have e5 : idx_main_v69 (idx_main_v70 (idx_main_v84 (idx_main_v85 (ix2 r c)))) = ix2 1 c := funext fun a => Fin.ext (by
    match a with
    | ⟨0, _⟩ => rfl
    | ⟨1, _⟩ => exact Nat.mod_eq_of_lt c.isLt)
  have e8 : idx_main_v75 (idx_main_v76 (idx_main_v84 (idx_main_v85 (ix2 r c)))) = ix2 1 c := funext fun a => Fin.ext (by
    match a with
    | ⟨0, _⟩ => rfl
    | ⟨1, _⟩ => exact Nat.mod_eq_of_lt c.isLt)
  have e7 : idx_main_v73 (idx_main_v74 (idx_main_v77 (idx_main_v78 (ix2 r c)))) = ix2 1 c := funext fun a => Fin.ext (by
    match a with
    | ⟨0, _⟩ => rfl
    | ⟨1, _⟩ => exact Nat.mod_eq_of_lt c.isLt)
  have e6 : idx_main_v71 (idx_main_v72 (idx_main_v87 (idx_main_v88 (ix2 r c)))) = ix2 1 c := funext fun a => Fin.ext (by
    match a with
    | ⟨0, _⟩ => rfl
    | ⟨1, _⟩ => exact Nat.mod_eq_of_lt c.isLt)
  rw [post_zeroRow']
  rw [val_main_v90_apply, val_main_v89_apply, val_main_v86_apply, val_main_v79_apply, val_main_v68_apply,
    val_main_v67_apply, e1,
    val_main_v78_apply, val_main_v77_apply, val_main_v74_apply, val_main_v73_apply, e7,
    val_main_v85_apply, val_main_v84_apply, val_main_v83_apply, val_main_v70_apply, val_main_v69_apply, e5,
    val_main_v82_apply, val_main_v81_apply, val_main_v76_apply, val_main_v75_apply, e8,
    val_main_v80_apply, val_main_cst_10_apply,
    val_main_v88_apply, val_main_v87_apply, val_main_v72_apply, val_main_v71_apply, e6,
    val_main_call3_v0_apply, val_main_call3_cst_apply]
  rfl

end Cert.RefNet

end
-- ==== Proof.RefNetL2.lean ====
/-
  Layer 2 of the reference program is the network's third hidden layer, read from the previous layer's output.
-/
import proofs.«159722_j12695923327568_2_alg».proof.Proof.RefNetBase

noncomputable section

open scoped BigOperators

namespace Cert.RefNet

open Cert.ReferenceIdeal Cert.ReferenceIdeal.Gen Cert.ReferenceIdeal.Read Idealize.ShloMosaic Idealize.ShloMosaic.ValueIdx
  Idealize.ShloMosaic.StableHlo

/-- Layer 2, the feature transform: the rows scaled by the source-degree factor, times matrix 2 of the stack. -/
theorem pre2 (x0 : (⟨S50000x128, .f32⟩ : BufTy).Contents (Elt Ideal)) (x1 x2 : Edges) (x3 : (⟨S4x128x128, .f32⟩ : BufTy).Contents (Elt Ideal)) (x5 x6 x7 x8 : (⟨S4x128, .f32⟩ : BufTy).Contents (Elt Ideal)) :
    val_main_v95 (F := Ideal) x0 x1 x2 x3 x5 x6 x7 x8 = Cert.Net.pre (val_main_v90 (F := Ideal) x0 x1 x2 x3 x5 x6 x7 x8) (nsR x1) (Cert.Net.slab 2 x3) := by
  funext i
  unfold val_main_v95
  rw [dot128]
  show _ = ∑ k : Fin 128, ((val_main_v90 (F := Ideal) x0 x1 x2 x3 x5 x6 x7 x8) (ix2 (i 0) k) * nsR x1 (ix2 (i 0) 0)) * Cert.Net.slab 2 x3 (ix2 k (i 1))
  refine Finset.sum_congr rfl fun k _ => ?_
  have e1 : idx_main_v91 (ix2 (i 0) k) = ix2 (i 0) 0 := funext fun a => Fin.ext (by
    match a with
    | ⟨0, _⟩ => rfl
    | ⟨1, _⟩ => rfl)
  have e2 : idx_main_v93 (idx_main_v94 (ix2 k (i 1))) = ix3 2 k (i 1) := funext fun a => Fin.ext (by
    have hk := k.isLt
    have hc := idx2_lt1 i
    match a with
    | ⟨0, _⟩ => rfl
    | ⟨1, _⟩ => show (k.val * 128 + (i 1).val) / 128 % 128 = k.val; omega
    | ⟨2, _⟩ => show (k.val * 128 + (i 1).val) % 128 = (i 1).val; omega)
  rw [val_main_v92_apply, val_main_v91_apply, val_main_v94_apply, val_main_v93_apply, Ideal.mulf_def, e1, e2]
  rfl

/-- Layer 2, the aggregation: the same gather and scatter-add as in every layer. -/
theorem agg2 (x0 : (⟨S50000x128, .f32⟩ : BufTy).Contents (Elt Ideal)) (x1 x2 : Edges) (x3 : (⟨S4x128x128, .f32⟩ : BufTy).Contents (Elt Ideal)) (x5 x6 x7 x8 : (⟨S4x128, .f32⟩ : BufTy).Contents (Elt Ideal)) :
    val_main_v105 (F := Ideal) x0 x1 x2 x3 x5 x6 x7 x8 = aggR x1 x2 (val_main_v95 (F := Ideal) x0 x1 x2 x3 x5 x6 x7 x8) := rfl

/-- Layer 2, the finishing step: the rows scaled by the destination-degree factor, batch-normalised with row 2
    of the four tables, and rectified. The scale gamma * rsqrt (var + eps) is the same number whether it is formed on the
    128 columns first or entry by entry. -/
theorem post2 (x0 : (⟨S50000x128, .f32⟩ : BufTy).Contents (Elt Ideal)) (x1 x2 : Edges) (x3 : (⟨S4x128x128, .f32⟩ : BufTy).Contents (Elt Ideal)) (x5 x6 x7 x8 : (⟨S4x128, .f32⟩ : BufTy).Contents (Elt Ideal)) :
    val_main_v129 (F := Ideal) x0 x1 x2 x3 x5 x6 x7 x8
      = Cert.Net.post (val_main_v105 (F := Ideal) x0 x1 x2 x3 x5 x6 x7 x8) (ndR x2) Cert.Net.zeroRow (Cert.Net.rowOf 2 x5)
          (Cert.Net.rowOf 2 x6) (Cert.Net.rowOf 2 x7) (Cert.Net.rowOf 2 x8) := by
  funext i
  obtain ⟨r, c, rfl⟩ : ∃ (r : Fin 50000) (c : Fin 128), i = ix2 r c := ⟨i 0, i 1, eq_ix2 i⟩
  have e1 : idx_main_v106 (ix2 r c) = ix2 r 0 := funext fun a => Fin.ext (by
    match a with
    | ⟨0, _⟩ => rfl
    | ⟨1, _⟩ => rfl)
  have e5 : idx_main_v108 (idx_main_v109 (idx_main_v123 (idx_main_v124 (ix2 r c)))) = ix2 2 c := funext fun a => Fin.ext (by
    match a with
    | ⟨0, _⟩ => rfl
    | ⟨1, _⟩ => exact Nat.mod_eq_of_lt c.isLt)
  have e8 : idx_main_v114 (idx_main_v115 (idx_main_v123 (idx_main_v124 (ix2 r c)))) = ix2 2 c := funext fun a => Fin.ext (by
    match a with
    | ⟨0, _⟩ => rfl
    | ⟨1, _⟩ => exact Nat.mod_eq_of_lt c.isLt)
  have e7 : idx_main_v112 (idx_main_v113 (idx_main_v116 (idx_main_v117 (ix2 r c)))) = ix2 2 c := funext fun a => Fin.ext (by
    match a with
    | ⟨0, _⟩ => rfl
    | ⟨1, _⟩ => exact Nat.mod_eq_of_lt c.isLt)
  have e6 : idx_main_v110 (idx_main_v111 (idx_main_v126 (idx_main_v127 (ix2 r c)))) = ix2 2 c := funext fun a => Fin.ext (by
    match a with
    | ⟨0, _⟩ => rfl
    | ⟨1, _⟩ => exact Nat.mod_eq_of_lt c.isLt)
  rw [post_zeroRow']
  rw [val_main_v129_apply, val_main_v128_apply, val_main_v125_apply, val_main_v118_apply, val_main_v107_apply,
    val_main_v106_apply, e1,
    val_main_v117_apply, val_main_v116_apply, val_main_v113_apply, val_main_v112_apply, e7,
    val_main_v124_apply, val_main_v123_apply, val_main_v122_apply, val_main_v109_apply, val_main_v108_apply, e5,
    val_main_v121_apply, val_main_v120_apply, val_main_v115_apply, val_main_v114_apply, e8,
    val_main_v119_apply, val_main_cst_14_apply,
    val_main_v127_apply, val_main_v126_apply, val_main_v111_apply, val_main_v110_apply, e6,
    val_main_call4_v0_apply, val_main_call4_cst_apply]
  rfl

end Cert.RefNet

end
-- ==== Proof.RefNetL3.lean ====
/-
  Layer 3 of the reference program is the network's fourth hidden layer, the only one with a bias.
-/
import proofs.«159722_j12695923327568_2_alg».proof.Proof.RefNetBase

noncomputable section

open scoped BigOperators

namespace Cert.RefNet

open Cert.ReferenceIdeal Cert.ReferenceIdeal.Gen Cert.ReferenceIdeal.Read Idealize.ShloMosaic Idealize.ShloMosaic.ValueIdx
  Idealize.ShloMosaic.StableHlo

/-- Layer 3, the feature transform: the rows scaled by the source-degree factor, times matrix 3 of the stack. -/
theorem pre3 (x0 : (⟨S50000x128, .f32⟩ : BufTy).Contents (Elt Ideal)) (x1 x2 : Edges) (x3 : (⟨S4x128x128, .f32⟩ : BufTy).Contents (Elt Ideal)) (x5 x6 x7 x8 : (⟨S4x128, .f32⟩ : BufTy).Contents (Elt Ideal)) :
    val_main_v134 (F := Ideal) x0 x1 x2 x3 x5 x6 x7 x8 = Cert.Net.pre (val_main_v129 (F := Ideal) x0 x1 x2 x3 x5 x6 x7 x8) (nsR x1) (Cert.Net.slab 3 x3) := by
  funext i
  unfold val_main_v134
  rw [dot128]
  show _ = ∑ k : Fin 128, ((val_main_v129 (F := Ideal) x0 x1 x2 x3 x5 x6 x7 x8) (ix2 (i 0) k) * nsR x1 (ix2 (i 0) 0)) * Cert.Net.slab 3 x3 (ix2 k (i 1))
  refine Finset.sum_congr rfl fun k _ => ?_
  have e1 : idx_main_v130 (ix2 (i 0) k) = ix2 (i 0) 0 := funext fun a => Fin.ext (by
    match a with
    | ⟨0, _⟩ => rfl
    | ⟨1, _⟩ => rfl)
  have e2 : idx_main_v132 (idx_main_v133 (ix2 k (i 1))) = ix3 3 k (i 1) := funext fun a => Fin.ext (by
    have hk := k.isLt
    have hc := idx2_lt1 i
    match a with
    | ⟨0, _⟩ => rfl
    | ⟨1, _⟩ => show (k.val * 128 + (i 1).val) / 128 % 128 = k.val; omega
    | ⟨2, _⟩ => show (k.val * 128 + (i 1).val) % 128 = (i 1).val; omega)
  rw [val_main_v131_apply, val_main_v130_apply, val_main_v133_apply, val_main_v132_apply, Ideal.mulf_def, e1, e2]
  rfl

/-- Layer 3, the aggregation: the same gather and scatter-add as in every layer. -/
theorem agg3 (x0 : (⟨S50000x128, .f32⟩ : BufTy).Contents (Elt Ideal)) (x1 x2 : Edges) (x3 : (⟨S4x128x128, .f32⟩ : BufTy).Contents (Elt Ideal)) (x5 x6 x7 x8 : (⟨S4x128, .f32⟩ : BufTy).Contents (Elt Ideal)) :
    val_main_v144 (F := Ideal) x0 x1 x2 x3 x5 x6 x7 x8 = aggR x1 x2 (val_main_v134 (F := Ideal) x0 x1 x2 x3 x5 x6 x7 x8) := rfl

/-- Layer 3, the finishing step: as in the other layers, with the bias vector added after the scaling by the
    destination-degree factor. -/
theorem post3 (x0 : (⟨S50000x128, .f32⟩ : BufTy).Contents (Elt Ideal)) (x1 x2 : Edges) (x3 : (⟨S4x128x128, .f32⟩ : BufTy).Contents (Elt Ideal)) (x4 : (⟨S128, .f32⟩ : BufTy).Contents (Elt Ideal)) (x5 x6 x7 x8 : (⟨S4x128, .f32⟩ : BufTy).Contents (Elt Ideal)) :
    val_main_v171 (F := Ideal) x0 x1 x2 x3 x4 x5 x6 x7 x8
      = Cert.Net.post (val_main_v144 (F := Ideal) x0 x1 x2 x3 x5 x6 x7 x8) (ndR x2) (Cert.Net.vecRow x4) (Cert.Net.rowOf 3 x5)
          (Cert.Net.rowOf 3 x6) (Cert.Net.rowOf 3 x7) (Cert.Net.rowOf 3 x8) := by
  funext i
  obtain ⟨r, c, rfl⟩ : ∃ (r : Fin 50000) (c : Fin 128), i = ix2 r c := ⟨i 0, i 1, eq_ix2 i⟩
  have e1 : idx_main_v145 (ix2 r c) = ix2 r 0 := funext fun a => Fin.ext (by
    match a with
    | ⟨0, _⟩ => rfl
    | ⟨1, _⟩ => rfl)
  have e4 : idx_main_v147 (idx_main_v148 (ix2 r c)) = ix1 c := funext fun a => Fin.ext (by
    match a with
    | ⟨0, _⟩ => rfl)
  have e5 : idx_main_v150 (idx_main_v151 (idx_main_v165 (idx_main_v166 (ix2 r c)))) = ix2 3 c := funext fun a => Fin.ext (by
    match a with
    | ⟨0, _⟩ => rfl
    | ⟨1, _⟩ => exact Nat.mod_eq_of_lt c.isLt)
  have e8 : idx_main_v156 (idx_main_v157 (idx_main_v165 (idx_main_v166 (ix2 r c)))) = ix2 3 c := funext fun a => Fin.ext (by
    match a with
    | ⟨0, _⟩ => rfl
    | ⟨1, _⟩ => exact Nat.mod_eq_of_lt c.isLt)
  have e7 : idx_main_v154 (idx_main_v155 (idx_main_v158 (idx_main_v159 (ix2 r c)))) = ix2 3 c := funext fun a => Fin.ext (by
    match a with
    | ⟨0, _⟩ => rfl
    | ⟨1, _⟩ => exact Nat.mod_eq_of_lt c.isLt)
  have e6 : idx_main_v152 (idx_main_v153 (idx_main_v168 (idx_main_v169 (ix2 r c)))) = ix2 3 c := funext fun a => Fin.ext (by
    match a with
    | ⟨0, _⟩ => rfl
    | ⟨1, _⟩ => exact Nat.mod_eq_of_lt c.isLt)
  rw [post_at]
  rw [val_main_v171_apply, val_main_v170_apply, val_main_v167_apply, val_main_v160_apply, val_main_v149_apply, val_main_v146_apply,
    val_main_v145_apply, e1,
    val_main_v148_apply, val_main_v147_apply, e4,
    val_main_v159_apply, val_main_v158_apply, val_main_v155_apply, val_main_v154_apply, e7,
    val_main_v166_apply, val_main_v165_apply, val_main_v164_apply, val_main_v151_apply, val_main_v150_apply, e5,
    val_main_v163_apply, val_main_v162_apply, val_main_v157_apply, val_main_v156_apply, e8,
    val_main_v161_apply, val_main_cst_18_apply,
    val_main_v169_apply, val_main_v168_apply, val_main_v153_apply, val_main_v152_apply, e6,
    val_main_call5_v0_apply, val_main_call5_cst_apply]
  rfl

end Cert.RefNet

end
-- ==== Proof.RefNetCls.lean ====
/-
  The classifier of the reference program. Its first layer multiplies the four hidden layers, laid side by side
  as 512 columns, by a 512 x 128 matrix: column 128 j + k of the joined array is column k of layer j, so the sum
  over the 512 contracted columns is the sum over the four layers of a 128-term sum against rows 128 j .. 128 j + 127
  of the matrix. Batch normalisation and the rectifier follow as in a hidden layer; the last layer is one more
  product plus a bias row.
-/
import proofs.«159722_j12695923327568_2_alg».proof.Proof.RefNetBase

noncomputable section

open scoped BigOperators

namespace Cert.RefNet

open Cert.ReferenceIdeal Cert.ReferenceIdeal.Gen Cert.ReferenceIdeal.Read Idealize.ShloMosaic Idealize.ShloMosaic.ValueIdx
  Idealize.ShloMosaic.StableHlo

/-- Column `128 j + k` of an array with 512 columns. -/
def blk (j : Fin 4) (k : Fin 128) : Fin 512 := ⟨128 * j.val + k.val, by have := j.isLt; have := k.isLt; omega⟩

/-- A sum over 512 columns is the sum of its four blocks of 128 columns, taken left to right. -/
theorem sum512 (f : Fin 512 → EReal) :
    ∑ k, f k = (((∑ k : Fin 128, f (blk 0 k)) + ∑ k : Fin 128, f (blk 1 k)) + ∑ k : Fin 128, f (blk 2 k))
      + ∑ k : Fin 128, f (blk 3 k) := by
  have h := (Equiv.sum_comp (finProdFinEquiv (m := 4) (n := 128)) (fun k : Fin (4 * 128) => f k)).symm
  have h2 : (∑ p : Fin 4 × Fin 128, f (finProdFinEquiv p)) = ∑ j : Fin 4, ∑ k : Fin 128, f (blk j k) := by
    rw [Fintype.sum_prod_type]
    refine Finset.sum_congr rfl fun j _ => Finset.sum_congr rfl fun k _ => congrArg f (Fin.ext ?_)
    show k.val + 128 * j.val = 128 * j.val + k.val
    omega
  rw [Fin.sum_univ_four] at h2
  exact h.trans h2

/-- Four arrays of 128 columns laid side by side. -/
def cat4 (h0 h1 h2 h3 : (⟨S50000x128, .f32⟩ : BufTy).Contents (Elt Ideal)) : (⟨S50000x512, .f32⟩ : BufTy).Contents (Elt Ideal) :=
  concatenate S50000x512 1 [⟨S50000x128, h0⟩, ⟨S50000x128, h1⟩, ⟨S50000x128, h2⟩, ⟨S50000x128, h3⟩]
      concatenates_S50000x128_S50000x128_S50000x128_S50000x128_S50000x512_d1

/-- Column `128 * 0 + k` of the joined array is column `k` of piece 0. -/
theorem cat4_0 (h0 h1 h2 h3 : (⟨S50000x128, .f32⟩ : BufTy).Contents (Elt Ideal)) (r : Fin 50000) (k : Fin 128) :
    cat4 h0 h1 h2 h3 (ix2 r (blk 0 k)) = h0 (ix2 r k) :=
  concatenate_apply_piece (t := S50000x512) (1 : Fin 2) [⟨S50000x128, h0⟩, ⟨S50000x128, h1⟩, ⟨S50000x128, h2⟩, ⟨S50000x128, h3⟩]
    concatenates_S50000x128_S50000x128_S50000x128_S50000x128_S50000x512_d1 (ix2 r (blk 0 k)) 0 (by show (0 : Nat) < 4; omega) S50000x128 h0 rfl rfl
    0 rfl (ix2 r k)
    (fun b hb => by
      match b with
      | ⟨0, _⟩ => rfl
      | ⟨1, _⟩ => exact absurd rfl hb)
    (by show 0 + k.val = 128 * 0 + k.val; omega)

/-- Column `128 * 1 + k` of the joined array is column `k` of piece 1. -/
theorem cat4_1 (h0 h1 h2 h3 : (⟨S50000x128, .f32⟩ : BufTy).Contents (Elt Ideal)) (r : Fin 50000) (k : Fin 128) :
    cat4 h0 h1 h2 h3 (ix2 r (blk 1 k)) = h1 (ix2 r k) :=
  concatenate_apply_piece (t := S50000x512) (1 : Fin 2) [⟨S50000x128, h0⟩, ⟨S50000x128, h1⟩, ⟨S50000x128, h2⟩, ⟨S50000x128, h3⟩]
    concatenates_S50000x128_S50000x128_S50000x128_S50000x128_S50000x512_d1 (ix2 r (blk 1 k)) 1 (by show (1 : Nat) < 4; omega) S50000x128 h1 rfl rfl
    128 rfl (ix2 r k)
    (fun b hb => by
      match b with
      | ⟨0, _⟩ => rfl
      | ⟨1, _⟩ => exact absurd rfl hb)
    (by show 128 + k.val = 128 * 1 + k.val; omega)

/-- Column `128 * 2 + k` of the joined array is column `k` of piece 2. -/
theorem cat4_2 (h0 h1 h2 h3 : (⟨S50000x128, .f32⟩ : BufTy).Contents (Elt Ideal)) (r : Fin 50000) (k : Fin 128) :
    cat4 h0 h1 h2 h3 (ix2 r (blk 2 k)) = h2 (ix2 r k) :=
  concatenate_apply_piece (t := S50000x512) (1 : Fin 2) [⟨S50000x128, h0⟩, ⟨S50000x128, h1⟩, ⟨S50000x128, h2⟩, ⟨S50000x128, h3⟩]
    concatenates_S50000x128_S50000x128_S50000x128_S50000x128_S50000x512_d1 (ix2 r (blk 2 k)) 2 (by show (2 : Nat) < 4; omega) S50000x128 h2 rfl rfl
    256 rfl (ix2 r k)
    (fun b hb => by
      match b with
      | ⟨0, _⟩ => rfl
      | ⟨1, _⟩ => exact absurd rfl hb)
    (by show 256 + k.val = 128 * 2 + k.val; omega)

/-- Column `128 * 3 + k` of the joined array is column `k` of piece 3. -/
theorem cat4_3 (h0 h1 h2 h3 : (⟨S50000x128, .f32⟩ : BufTy).Contents (Elt Ideal)) (r : Fin 50000) (k : Fin 128) :
    cat4 h0 h1 h2 h3 (ix2 r (blk 3 k)) = h3 (ix2 r k) :=
  concatenate_apply_piece (t := S50000x512) (1 : Fin 2) [⟨S50000x128, h0⟩, ⟨S50000x128, h1⟩, ⟨S50000x128, h2⟩, ⟨S50000x128, h3⟩]
    concatenates_S50000x128_S50000x128_S50000x128_S50000x128_S50000x512_d1 (ix2 r (blk 3 k)) 3 (by show (3 : Nat) < 4; omega) S50000x128 h3 rfl rfl
    384 rfl (ix2 r k)
    (fun b hb => by
      match b with
      | ⟨0, _⟩ => rfl
      | ⟨1, _⟩ => exact absurd rfl hb)
    (by show 384 + k.val = 128 * 3 + k.val; omega)

/-- The product of four arrays laid side by side with a 512 x 128 matrix, at an entry: four 128-term sums. -/
theorem dot512 (h0 h1 h2 h3 : (⟨S50000x128, .f32⟩ : BufTy).Contents (Elt Ideal)) (w : (⟨S512x128, .f32⟩ : BufTy).Contents (Elt Ideal)) (r : Fin 50000) (c : Fin 128) :
    Host.dotGeneral (F := Ideal) (φ₁ := .f32) (φ₂ := .f32) dot_S50000x512_S512x128_S50000x128_1_0_0_1_n_n none
        (cat4 h0 h1 h2 h3) w (ix2 r c)
      = (((∑ k : Fin 128, h0 (ix2 r k) * Cert.Net.rows128 0 w (ix2 k c)) + ∑ k : Fin 128, h1 (ix2 r k) * Cert.Net.rows128 1 w (ix2 k c))
          + ∑ k : Fin 128, h2 (ix2 r k) * Cert.Net.rows128 2 w (ix2 k c)) + ∑ k : Fin 128, h3 (ix2 r k) * Cert.Net.rows128 3 w (ix2 k c) := by
  refine (PlainDot.dotGeneral_plain (M := 50000) (K := 512) (N := 128) dot_S50000x512_S512x128_S50000x128_1_0_0_1_n_n
    rfl rfl rfl rfl rfl rfl none _ (cat4 h0 h1 h2 h3) w (ix2 r c)).trans ((sum512 _).trans ?_)
  show (((∑ k : Fin 128, cat4 h0 h1 h2 h3 (ix2 r (blk 0 k)) * w (ix2 (blk 0 k) c))
        + ∑ k : Fin 128, cat4 h0 h1 h2 h3 (ix2 r (blk 1 k)) * w (ix2 (blk 1 k) c))
      + ∑ k : Fin 128, cat4 h0 h1 h2 h3 (ix2 r (blk 2 k)) * w (ix2 (blk 2 k) c))
    + ∑ k : Fin 128, cat4 h0 h1 h2 h3 (ix2 r (blk 3 k)) * w (ix2 (blk 3 k) c) = _
  simp only [cat4_0, cat4_1, cat4_2, cat4_3]
  rfl

/-- The first classifier layer of the reference program. -/
theorem cls0R (x0 : (⟨S50000x128, .f32⟩ : BufTy).Contents (Elt Ideal)) (x1 x2 : Edges) (x3 : (⟨S4x128x128, .f32⟩ : BufTy).Contents (Elt Ideal)) (x4 : (⟨S128, .f32⟩ : BufTy).Contents (Elt Ideal)) (x5 x6 x7 x8 : (⟨S4x128, .f32⟩ : BufTy).Contents (Elt Ideal))
    (x9 : (⟨S512x128, .f32⟩ : BufTy).Contents (Elt Ideal)) (x10 x11 x12 x13 x14 : (⟨S128, .f32⟩ : BufTy).Contents (Elt Ideal)) :
    val_main_v190 (F := Ideal) x0 x1 x2 x3 x4 x5 x6 x7 x8 x9 x10 x11 x12 x13 x14
      = Cert.Net.cls0 (val_main_v51 (F := Ideal) x0 x1 x2 x3 x5 x6 x7 x8) (val_main_v90 (F := Ideal) x0 x1 x2 x3 x5 x6 x7 x8) (val_main_v129 (F := Ideal) x0 x1 x2 x3 x5 x6 x7 x8)
          (val_main_v171 (F := Ideal) x0 x1 x2 x3 x4 x5 x6 x7 x8) (Cert.Net.rows128 0 x9) (Cert.Net.rows128 1 x9) (Cert.Net.rows128 2 x9) (Cert.Net.rows128 3 x9)
          (Cert.Net.vecRow x10) (Cert.Net.vecRow x11) (Cert.Net.vecRow x12) (Cert.Net.vecRow x13) (Cert.Net.vecRow x14) := by
  funext i
  obtain ⟨r, c, rfl⟩ : ∃ (r : Fin 50000) (c : Fin 128), i = ix2 r c := ⟨i 0, i 1, eq_ix2 i⟩
  have e10 : idx_main_v174 (idx_main_v175 (ix2 r c)) = ix1 c := funext fun a => Fin.ext (by
    match a with
    | ⟨0, _⟩ => rfl)
  have e13 : idx_main_v177 (idx_main_v178 (ix2 r c)) = ix1 c := funext fun a => Fin.ext (by
    match a with
    | ⟨0, _⟩ => rfl)
  have e11 : idx_main_v184 (idx_main_v185 (ix2 r c)) = ix1 c := funext fun a => Fin.ext (by
    match a with
    | ⟨0, _⟩ => rfl)
  have e12 : idx_main_v187 (idx_main_v188 (ix2 r c)) = ix1 c := funext fun a => Fin.ext (by
    match a with
    | ⟨0, _⟩ => rfl)
  have hdot : val_main_v173 (F := Ideal) x0 x1 x2 x3 x4 x5 x6 x7 x8 x9 (ix2 r c)
      = (((∑ k : Fin 128, val_main_v51 (F := Ideal) x0 x1 x2 x3 x5 x6 x7 x8 (ix2 r k) * Cert.Net.rows128 0 x9 (ix2 k c))
          + ∑ k : Fin 128, val_main_v90 (F := Ideal) x0 x1 x2 x3 x5 x6 x7 x8 (ix2 r k) * Cert.Net.rows128 1 x9 (ix2 k c))
          + ∑ k : Fin 128, val_main_v129 (F := Ideal) x0 x1 x2 x3 x5 x6 x7 x8 (ix2 r k) * Cert.Net.rows128 2 x9 (ix2 k c))
        + ∑ k : Fin 128, val_main_v171 (F := Ideal) x0 x1 x2 x3 x4 x5 x6 x7 x8 (ix2 r k) * Cert.Net.rows128 3 x9 (ix2 k c) := by
    unfold val_main_v173 val_main_v172
    exact dot512 (val_main_v51 (F := Ideal) x0 x1 x2 x3 x5 x6 x7 x8) (val_main_v90 (F := Ideal) x0 x1 x2 x3 x5 x6 x7 x8) (val_main_v129 (F := Ideal) x0 x1 x2 x3 x5 x6 x7 x8)
      (val_main_v171 (F := Ideal) x0 x1 x2 x3 x4 x5 x6 x7 x8) x9 r c
  rw [cls0_at]
  rw [val_main_v190_apply, val_main_v189_apply, val_main_v186_apply, val_main_v179_apply, val_main_v176_apply, hdot,
    val_main_v175_apply, val_main_v174_apply, e10,
    val_main_v178_apply, val_main_v177_apply, e13,
    val_main_v185_apply, val_main_v184_apply, e11, val_main_v183_apply, val_main_v182_apply, val_main_v181_apply,
    val_main_v180_apply, val_main_cst_19_apply,
    val_main_v188_apply, val_main_v187_apply, e12,
    val_main_call6_v0_apply, val_main_call6_cst_apply]
  rfl

/-- The second classifier layer of the reference program. -/
theorem cls1R (x0 : (⟨S50000x128, .f32⟩ : BufTy).Contents (Elt Ideal)) (x1 x2 : Edges) (x3 : (⟨S4x128x128, .f32⟩ : BufTy).Contents (Elt Ideal)) (x4 : (⟨S128, .f32⟩ : BufTy).Contents (Elt Ideal)) (x5 x6 x7 x8 : (⟨S4x128, .f32⟩ : BufTy).Contents (Elt Ideal))
    (x9 : (⟨S512x128, .f32⟩ : BufTy).Contents (Elt Ideal)) (x10 x11 x12 x13 x14 : (⟨S128, .f32⟩ : BufTy).Contents (Elt Ideal)) (x15 : (⟨S128x47, .f32⟩ : BufTy).Contents (Elt Ideal)) (x16 : (⟨S47, .f32⟩ : BufTy).Contents (Elt Ideal)) :
    val_main_v194 (F := Ideal) x0 x1 x2 x3 x4 x5 x6 x7 x8 x9 x10 x11 x12 x13 x14 x15 x16
      = Cert.Net.cls1 (val_main_v190 (F := Ideal) x0 x1 x2 x3 x4 x5 x6 x7 x8 x9 x10 x11 x12 x13 x14) x15 (Cert.Net.vecRow47 x16) := by
  funext i
  obtain ⟨r, c, rfl⟩ : ∃ (r : Fin 50000) (c : Fin 47), i = ix2 r c := ⟨i 0, i 1, eq_ix2 i⟩
  have e16 : idx_main_v192 (idx_main_v193 (ix2 r c)) = ix1 c := funext fun a => Fin.ext (by
    match a with
    | ⟨0, _⟩ => rfl)
  have hdot : val_main_v191 (F := Ideal) x0 x1 x2 x3 x4 x5 x6 x7 x8 x9 x10 x11 x12 x13 x14 x15 (ix2 r c)
      = ∑ k : Fin 128, val_main_v190 (F := Ideal) x0 x1 x2 x3 x4 x5 x6 x7 x8 x9 x10 x11 x12 x13 x14 (ix2 r k) * x15 (ix2 k c) := by
    unfold val_main_v191
    exact PlainDot.dotGeneral_plain (M := 50000) (K := 128) (N := 47) dot_S50000x128_S128x47_S50000x47_1_0_0_1_n_n
      rfl rfl rfl rfl rfl rfl none _ _ x15 (ix2 r c)
  rw [cls1_at]
  rw [val_main_v194_apply, hdot, val_main_v193_apply, val_main_v192_apply, e16]
  rfl

end Cert.RefNet

end
-- ==== Proof.RefNetOut.lean ====
/-
  The reference program computes the network: its four graph-convolution layers are the four hidden layers, and its
  classifier is the network's classifier applied to them, so its result is `Cert.Net.out` of its own aggregation, its
  own degree factors and the argument arrays.
-/
import proofs.«159722_j12695923327568_2_alg».proof.Proof.RefNetL0
import proofs.«159722_j12695923327568_2_alg».proof.Proof.RefNetL1
import proofs.«159722_j12695923327568_2_alg».proof.Proof.RefNetL2
import proofs.«159722_j12695923327568_2_alg».proof.Proof.RefNetL3
import proofs.«159722_j12695923327568_2_alg».proof.Proof.RefNetCls

noncomputable section

open scoped BigOperators

namespace Cert.RefNet

open Cert.ReferenceIdeal Cert.ReferenceIdeal.Gen Cert.ReferenceIdeal.Read Idealize.ShloMosaic Idealize.ShloMosaic.ValueIdx
  Idealize.ShloMosaic.StableHlo

section
variable (x0 : (⟨S50000x128, .f32⟩ : BufTy).Contents (Elt Ideal)) (x1 x2 : Edges) (x3 : (⟨S4x128x128, .f32⟩ : BufTy).Contents (Elt Ideal)) (x4 : (⟨S128, .f32⟩ : BufTy).Contents (Elt Ideal)) (x5 x6 x7 x8 : (⟨S4x128, .f32⟩ : BufTy).Contents (Elt Ideal))

/-- The reference program's first layer is the first hidden layer. -/
theorem ref_hid0 : val_main_v51 (F := Ideal) x0 x1 x2 x3 x5 x6 x7 x8 = Cert.Net.hid0 (aggR x1 x2) (nsR x1) (ndR x2) x0 x3 x5 x6 x7 x8 := by
  rw [post0, agg0, pre0]
  rfl

/-- The reference program's second layer is the second hidden layer. -/
theorem ref_hid1 : val_main_v90 (F := Ideal) x0 x1 x2 x3 x5 x6 x7 x8 = Cert.Net.hid1 (aggR x1 x2) (nsR x1) (ndR x2) x0 x3 x5 x6 x7 x8 := by
  rw [post1, agg1, pre1, ref_hid0]
  rfl

/-- The reference program's third layer is the third hidden layer. -/
theorem ref_hid2 : val_main_v129 (F := Ideal) x0 x1 x2 x3 x5 x6 x7 x8 = Cert.Net.hid2 (aggR x1 x2) (nsR x1) (ndR x2) x0 x3 x5 x6 x7 x8 := by
  rw [post2, agg2, pre2, ref_hid1]
  rfl

/-- The reference program's fourth layer is the fourth hidden layer. -/
theorem ref_hid3 : val_main_v171 (F := Ideal) x0 x1 x2 x3 x4 x5 x6 x7 x8 = Cert.Net.hid3 (aggR x1 x2) (nsR x1) (ndR x2) x0 x3 x4 x5 x6 x7 x8 := by
  rw [post3, agg3, pre3, ref_hid2]
  rfl

end

/-- The reference program's result is the network's result. -/
theorem ref_out (x0 : (⟨S50000x128, .f32⟩ : BufTy).Contents (Elt Ideal)) (x1 x2 : Edges) (x3 : (⟨S4x128x128, .f32⟩ : BufTy).Contents (Elt Ideal)) (x4 : (⟨S128, .f32⟩ : BufTy).Contents (Elt Ideal)) (x5 x6 x7 x8 : (⟨S4x128, .f32⟩ : BufTy).Contents (Elt Ideal))
    (x9 : (⟨S512x128, .f32⟩ : BufTy).Contents (Elt Ideal)) (x10 x11 x12 x13 x14 : (⟨S128, .f32⟩ : BufTy).Contents (Elt Ideal))
    (x15 : (⟨S128x47, .f32⟩ : BufTy).Contents (Elt Ideal)) (x16 : (⟨S47, .f32⟩ : BufTy).Contents (Elt Ideal)) :
    val_main_v194 (F := Ideal) x0 x1 x2 x3 x4 x5 x6 x7 x8 x9 x10 x11 x12 x13 x14 x15 x16
      = Cert.Net.out (aggR x1 x2) (nsR x1) (ndR x2) x0 x3 x4 x5 x6 x7 x8 x9 x10 x11 x12 x13 x14 x15 x16 := by
  rw [cls1R, cls0R, ref_hid0, ref_hid1, ref_hid2, ref_hid3]
  rfl

end Cert.RefNet

end
-- ==== Proof.Bridge.lean ====
/-
  The two programs compute their degree factors and their neighbour aggregation by the same host operations, so
  the functions named on the kernel's side and on the reference's side are equal, and the reference program's
  result is the network's result at the kernel's own aggregation and degree factors.
-/
import proofs.«159722_j12695923327568_2_alg».proof.Proof.RefNetOut
import proofs.«159722_j12695923327568_2_alg».proof.Proof.HostKDefs

noncomputable section

namespace Cert.Bridge

open Idealize.ShloMosaic Idealize.ShloMosaic.StableHlo

/-- Widening from the narrow format is the identity at the exact reals. -/
theorem extf_id {s : Shape} {h : FTy.bf16.bits < FTy.f32.bits} (v : FVec Ideal s .bf16) : extf (F := Ideal) .f32 v h = v := rfl

/-- Both programs count the edges at every node by the same scatter-add of ones. -/
theorem cnt_src (x : Cert.RefNet.Edges) : Cert.ReferenceIdeal.Read.val_main_v3 (F := Ideal) x = Cert.HostK.cntK x := rfl

/-- The same count over the destinations. -/
theorem cnt_dst (x : Cert.RefNet.Edges) : Cert.ReferenceIdeal.Read.val_main_v7 (F := Ideal) x = Cert.HostK.cntK x := rfl

/-- The source-degree factors of the two programs are the same column. -/
theorem ns_eq (x1 : Cert.RefNet.Edges) : Cert.RefNet.nsR x1 = Cert.HostK.normK x1 := by
  unfold Cert.RefNet.nsR Cert.HostK.normK Cert.HostK.clipK Cert.ReferenceIdeal.Read.val_main_v10 Cert.ReferenceIdeal.Read.val_main_v9
    Cert.ReferenceIdeal.Read.val_main_v4
  rw [cnt_src]
  rfl

/-- The destination-degree factors of the two programs are the same column. -/
theorem nd_eq (x2 : Cert.RefNet.Edges) : Cert.RefNet.ndR x2 = Cert.HostK.normK x2 := by
  unfold Cert.RefNet.ndR Cert.HostK.normK Cert.HostK.clipK Cert.ReferenceIdeal.Read.val_main_v12 Cert.ReferenceIdeal.Read.val_main_v11
    Cert.ReferenceIdeal.Read.val_main_v8
  rw [cnt_dst]
  rfl

/-- The two programs aggregate by the same gather and the same scatter-add. -/
theorem agg_eq (x1 x2 : Cert.RefNet.Edges) : Cert.RefNet.aggR x1 x2 = Cert.HostK.aggK x1 x2 := by
  funext hw
  unfold Cert.RefNet.aggR Cert.HostK.aggK
  rw [extf_id]
  rfl

/-- The reference program's result is the network's result at the kernel's aggregation and degree factors. -/
theorem ref_is_net (x0 : (⟨Cert.ReferenceIdeal.S50000x128, .f32⟩ : BufTy).Contents (Elt Ideal)) (x1 x2 : Cert.RefNet.Edges) (x3 : (⟨Cert.ReferenceIdeal.S4x128x128, .f32⟩ : BufTy).Contents (Elt Ideal)) (x4 : (⟨Cert.ReferenceIdeal.S128, .f32⟩ : BufTy).Contents (Elt Ideal)) (x5 x6 x7 x8 : (⟨Cert.ReferenceIdeal.S4x128, .f32⟩ : BufTy).Contents (Elt Ideal))
    (x9 : (⟨Cert.ReferenceIdeal.S512x128, .f32⟩ : BufTy).Contents (Elt Ideal)) (x10 x11 x12 x13 x14 : (⟨Cert.ReferenceIdeal.S128, .f32⟩ : BufTy).Contents (Elt Ideal))
    (x15 : (⟨Cert.ReferenceIdeal.S128x47, .f32⟩ : BufTy).Contents (Elt Ideal)) (x16 : (⟨Cert.ReferenceIdeal.S47, .f32⟩ : BufTy).Contents (Elt Ideal)) :
    Cert.ReferenceIdeal.Read.val_main_v194 (F := Ideal) x0 x1 x2 x3 x4 x5 x6 x7 x8 x9 x10 x11 x12 x13 x14 x15 x16
      = Cert.Net.out (Cert.HostK.aggK x1 x2) (Cert.HostK.normK x1) (Cert.HostK.normK x2) x0 x3 x4 x5 x6 x7 x8 x9 x10 x11 x12 x13 x14 x15 x16 :=
  (Cert.RefNet.ref_out x0 x1 x2 x3 x4 x5 x6 x7 x8 x9 x10 x11 x12 x13 x14 x15 x16).trans (by rw [agg_eq, ns_eq, nd_eq])

end Cert.Bridge

end
-- ==== Proof.lean ====
/-
  The certificate. Both idealized programs compute one network (Proof/Net.lean): four graph-convolution layers —
  scale each node's row by its source-degree factor, multiply by a weight matrix, sum over in-neighbours, scale by
  the destination-degree factor, add a bias, batch-normalise, rectify — and a two-layer classifier on the four
  layers' outputs side by side. The kernel runs the dense parts as seven pallas regions over blocks of 2000 rows and
  leaves the degree counts, the gather and the scatter-add to the host; the reference is all host operations.
  They differ in three places, none of which changes an extended real: the kernel stores intermediate features
  in a narrower float format (the identity on extended reals), it adds an all-zero bias in the first three layers
  (x + 0 = x), and it multiplies the four layers' outputs by the four row-slabs of the classifier's weight matrix
  and sums, where the reference concatenates and multiplies once (a sum over 512 terms split into four sums of
  128; addition of extended reals is commutative and associative). No finiteness is needed anywhere.
  The kernel's value is read off its generated frame run segment by segment (Proof/Chain.lean), the reference's
  off its generated run one operation at a time (Proof/RefNet*.lean).
-/
import proofs.«159722_j12695923327568_2_alg».proof.Defs
import proofs.«159722_j12695923327568_2_alg».proof.Proof.Gen.Kernel
import proofs.«159722_j12695923327568_2_alg».proof.Proof.Gen.Kernel.Skeleton
import proofs.«159722_j12695923327568_2_alg».proof.Proof.Gen.Kernel.Launch
import proofs.«159722_j12695923327568_2_alg».proof.Proof.Gen.Kernel.Points
import proofs.«159722_j12695923327568_2_alg».proof.Proof.Gen.Kernel.Frame
import proofs.«159722_j12695923327568_2_alg».proof.Proof.Gen.KernelIdeal
import proofs.«159722_j12695923327568_2_alg».proof.Proof.Gen.KernelIdeal.Skeleton
import proofs.«159722_j12695923327568_2_alg».proof.Proof.Gen.KernelIdeal.Launch
import proofs.«159722_j12695923327568_2_alg».proof.Proof.Gen.KernelIdeal.Points
import proofs.«159722_j12695923327568_2_alg».proof.Proof.Gen.KernelIdeal.Frame
import proofs.«159722_j12695923327568_2_alg».proof.Proof.Gen.ReferenceIdeal
import proofs.«159722_j12695923327568_2_alg».proof.Proof.Gen.Pre_finite_inputs
import proofs.«159722_j12695923327568_2_alg».proof.Proof.Gen.ReferenceIdeal.Read
import proofs.«159722_j12695923327568_2_alg».proof.Proof.KernelRun
import proofs.«159722_j12695923327568_2_alg».proof.Proof.Chain
import proofs.«159722_j12695923327568_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's generated run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs, run from memories agreeing on the arguments, both end with the network's result
    of those arguments. -/
theorem algebraic : Cert.algebraic_KernelIdeal_ReferenceIdeal := by
  intro m ρ m' ρ' _ hagree
  refine ⟨fun c => _, (θ_run Cert.KernelIdeal.defs _ _).mono
    (fun r h c => ⟨(h c).1.trans (Cert.Chain.kernel_out m ρ c), (h c).2⟩) (Cert.KernelRun.run_named m ρ), ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [Cert.ReferenceIdeal.Read.val_main_v194_eq, a0, a1, a2, a3, a4, a5, a6, a7, a8, a9, a10, a11, a12, a13, a14, a15, a16]
  exact Cert.Bridge.ref_is_net _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
